-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_6" .f32 0x3E2AAAAB#32 ((1 / 6 : ℝ) : EReal)
  ∧ IdealRules.named_const.Statement Cert.KernelIdeal.κ "inv_3" .f32 0x3EAAAAAB#32 ((1 / 3 : ℝ) : EReal)
  ∧ IdealRules.named_const.Statement Cert.KernelIdeal.κ "inv_6" .f32 0x3E2AAAAB#32 ((1 / 6 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S30000x128 : Shape := ⟨2, ![30000, 128]⟩
abbrev S50000x128 : Shape := ⟨2, ![50000, 128]⟩
abbrev S500000 : Shape := ⟨1, ![500000]⟩
abbrev S300000 : Shape := ⟨1, ![300000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S30000x128 : S_.BroadcastsInDim S30000x128 (![] : Fin 0 → Fin S30000x128.rank)
  reducesTo_S30000x128_S_d0_1 : S30000x128.ReducesTo [0, 1] S_
  bcast_S_S50000x128 : S_.BroadcastsInDim S50000x128 (![] : Fin 0 → Fin S50000x128.rank)
  reducesTo_S50000x128_S_d0_1 : S50000x128.ReducesTo [0, 1] S_
  bcast_S_S500000 : S_.BroadcastsInDim S500000 (![] : Fin 0 → Fin S500000.rank)
  reducesTo_S500000_S_d0 : S500000.ReducesTo [0] S_

variable [Facts]

def fn_part1 {F : FTy → Type} [FloatOps F] (main_v13 : IVec S_ 1) (main_v16 : IVec S500000 1) : IVec S_ 1 :=
  let main_c_5 : IVec S_ 1 := constantI S_ 1 1#1
  let main_v17 : IVec S_ 1 := (fun x v => Host.reduce IntOp.andi x v reducesTo_S500000_S_d0 h_S_) main_v16 main_c_5
  let main_v18 : IVec S_ 1 := andi main_v13 main_v17
  main_v18

def fn {F : FTy → Type} [FloatOps F] (main_arg0 : FVec F S100000x128 .f32) (main_arg1 : FVec F S30000x128 .f32) (main_arg2 : FVec F S50000x128 .f32) (main_arg3 : FVec F S500000 .f32) (main_arg4 : IVec S300000 32) (main_arg5 : IVec S300000 32) (main_arg6 : IVec S500000 32) (main_arg7 : IVec S500000 32) (main_arg8 : IVec S500000 32) (main_arg9 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S30000x128 .f32 := Host.absf main_arg1
  let main_cst_0 : FVec F S_ .f32 := constant S_ .f32 0x7F800000#32
  let main_v5 : FVec F S30000x128 .f32 := broadcastInDim S30000x128 ![] bcast_S_S30000x128 main_cst_0
  let main_v6 : IVec S30000x128 1 := cmpf .olt main_v4 main_v5
  let main_c_1 : IVec S_ 1 := constantI S_ 1 1#1
  let main_v7 : IVec S_ 1 := (fun x v => Host.reduce IntOp.andi x v reducesTo_S30000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S500000 .f32 := Host.absf main_arg3
  let main_cst_4 : FVec F S_ .f32 := constant S_ .f32 0x7F800000#32
  let main_v15 : FVec F S500000 .f32 := broadcastInDim S500000 ![] bcast_S_S500000 main_cst_4
  let main_v16 : IVec S500000 1 := cmpf .olt main_v14 main_v15
  fn_part1 (F := F) main_v13 main_v16
-- ==== Kernel.lean ====
abbrev S100000x128 : Shape := ⟨2, ![100000, 128]⟩
abbrev S30000x128 : Shape := ⟨2, ![30000, 128]⟩
abbrev S50000x128 : Shape := ⟨2, ![50000, 128]⟩
abbrev S500000 : Shape := ⟨1, ![500000]⟩
abbrev S300000 : Shape := ⟨1, ![300000]⟩
abbrev S_ : Shape := ⟨0, ![]⟩
abbrev S600000 : Shape := ⟨1, ![600000]⟩
abbrev S130000 : Shape := ⟨1, ![130000]⟩
abbrev S600000x1 : Shape := ⟨2, ![600000, 1]⟩
abbrev S130000x128 : Shape := ⟨2, ![130000, 128]⟩
abbrev S600000x128 : Shape := ⟨2, ![600000, 128]⟩
abbrev S5000x128 : Shape := ⟨2, ![5000, 128]⟩
abbrev S5000 : Shape := ⟨1, ![5000]⟩
abbrev S5000x1 : Shape := ⟨2, ![5000, 1]⟩
abbrev S1000000 : Shape := ⟨1, ![1000000]⟩
abbrev S150000 : Shape := ⟨1, ![150000]⟩
abbrev S1000000x1 : Shape := ⟨2, ![1000000, 1]⟩
abbrev S150000x128 : Shape := ⟨2, ![150000, 128]⟩
abbrev S1000000x128 : Shape := ⟨2, ![1000000, 128]⟩
abbrev S500000x1 : Shape := ⟨2, ![500000, 1]⟩
abbrev S500000x128 : Shape := ⟨2, ![500000, 128]⟩
abbrev S260000x128 : Shape := ⟨2, ![260000, 128]⟩

abbrev nBuf : Space → Nat
  | .hbm => 187
  | .vmem => 40
  | .smem => 0
  | _ => 0

abbrev hbmTy0_0 (i : Nat) : BufTy := match i % 128 with
  | 0 => ⟨S100000x128, .f32⟩
  | 1 => ⟨S30000x128, .f32⟩
  | 2 => ⟨S50000x128, .f32⟩
  | 3 => ⟨S500000, .f32⟩
  | 4 => ⟨S300000, .i32⟩
  | 5 => ⟨S300000, .i32⟩
  | 6 => ⟨S500000, .i32⟩
  | 7 => ⟨S500000, .i32⟩
  | 8 => ⟨S500000, .i32⟩
  | 9 => ⟨S500000, .i32⟩
  | 10 => ⟨S_, .i32⟩
  | 11 => ⟨S300000, .i32⟩
  | 12 => ⟨S300000, .i32⟩
  | 13 => ⟨S600000, .i32⟩
  | 14 => ⟨S_, .i32⟩
  | 15 => ⟨S300000, .i32⟩
  | 16 => ⟨S300000, .i32⟩
  | 17 => ⟨S600000, .i32⟩
  | 18 => ⟨S_, .f32⟩
  | 19 => ⟨S600000, .f32⟩
  | 20 => ⟨S_, .f32⟩
  | 21 => ⟨S130000, .f32⟩
  | 22 => ⟨S600000x1, .i32⟩
  | 23 => ⟨S130000, .f32⟩
  | 24 => ⟨S130000, .f32⟩
  | 25 => ⟨S_, .f32⟩
  | 26 => ⟨S130000, .f32⟩
  | 27 => ⟨S130000, .f32⟩
  | 28 => ⟨S_, .f32⟩
  | 29 => ⟨S130000, .f32⟩
  | 30 => ⟨S130000, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000, .f32⟩
  | 49 => ⟨S600000, .f32⟩
  | 50 => ⟨S130000x128, .f32⟩
  | 51 => ⟨S600000x1, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S600000x128, .f32⟩
  | 62 => ⟨S600000x128, .f32⟩
  | 63 => ⟨S_, .f32⟩
  | 64 => ⟨S130000x128, .f32⟩
  | 65 => ⟨S600000x1, .i32⟩
  | 66 => ⟨S130000x128, .f32⟩
  | 67 => ⟨S130000x128, .f32⟩
  | 68 => ⟨S130000x128, .f32⟩
  | 69 => ⟨S130000x128, .f32⟩
  | 70 => ⟨S600000x1, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000x128, .f32⟩
  | 80 => ⟨S600000x128, .f32⟩
  | 81 => ⟨S600000x128, .f32⟩
  | 82 => ⟨S_, .f32⟩
  | 83 => ⟨S130000x128, .f32⟩
  | 84 => ⟨S600000x1, .i32⟩
  | 85 => ⟨S130000x128, .f32⟩
  | 86 => ⟨S130000x128, .f32⟩
  | 87 => ⟨S130000x128, .f32⟩
  | 88 => ⟨S100000x128, .f32⟩
  | 89 => ⟨S30000x128, .f32⟩
  | 90 => ⟨S_, .i32⟩
  | 91 => ⟨S500000, .i32⟩
  | 92 => ⟨S500000, .i32⟩
  | 93 => ⟨S1000000, .i32⟩
  | 94 => ⟨S_, .i32⟩
  | 95 => ⟨S500000, .i32⟩
  | 96 => ⟨S500000, .i32⟩
  | 97 => ⟨S1000000, .i32⟩
  | 98 => ⟨S_, .f32⟩
  | 99 => ⟨S1000000, .f32⟩
  | 100 => ⟨S_, .f32⟩
  | 101 => ⟨S150000, .f32⟩
  | 102 => ⟨S1000000x1, .i32⟩
  | 103 => ⟨S150000, .f32⟩
  | 104 => ⟨S150000, .f32⟩
  | 105 => ⟨S_, .f32⟩
  | 106 => ⟨S150000, .f32⟩
  | 107 => ⟨S150000, .f32⟩
  | 108 => ⟨S_, .f32⟩
  | 109 => ⟨S150000, .f32⟩
  | 110 => ⟨S150000, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i32⟩
  | 117 => ⟨S1000000, .i32⟩
  | 118 => ⟨S1000000x1, .i32⟩
  | 119 => ⟨S1000000, .f32⟩
  | 120 => ⟨S_, .i32⟩
  | 121 => ⟨S1000000, .i32⟩
  | 122 => ⟨S1000000, .i1⟩
  | 123 => ⟨S_, .i32⟩
  | 124 => ⟨S1000000, .i32⟩
  | 125 => ⟨S1000000, .i32⟩
  | 126 => ⟨S1000000, .i32⟩
  | 127 => ⟨S1000000x1, .i32⟩
  | _ => ⟨S100000x128, .f32⟩

abbrev hbmTy0_1 (i : Nat) : BufTy := match i % 128 with
  | 0 => ⟨S1000000, .f32⟩
  | 1 => ⟨S1000000, .f32⟩
  | 2 => ⟨S150000x128, .f32⟩
  | 3 => ⟨S1000000x1, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000x128, .f32⟩
  | 13 => ⟨S1000000x128, .f32⟩
  | 14 => ⟨S1000000x128, .f32⟩
  | 15 => ⟨S_, .f32⟩
  | 16 => ⟨S150000x128, .f32⟩
  | 17 => ⟨S1000000x1, .i32⟩
  | 18 => ⟨S150000x128, .f32⟩
  | 19 => ⟨S150000x128, .f32⟩
  | 20 => ⟨S150000x128, .f32⟩
  | 21 => ⟨S150000x128, .f32⟩
  | 22 => ⟨S1000000x1, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x128, .f32⟩
  | 32 => ⟨S1000000x128, .f32⟩
  | 33 => ⟨S1000000x128, .f32⟩
  | 34 => ⟨S_, .f32⟩
  | 35 => ⟨S150000x128, .f32⟩
  | 36 => ⟨S1000000x1, .i32⟩
  | 37 => ⟨S150000x128, .f32⟩
  | 38 => ⟨S150000x128, .f32⟩
  | 39 => ⟨S150000x128, .f32⟩
  | 40 => ⟨S100000x128, .f32⟩
  | 41 => ⟨S50000x128, .f32⟩
  | 42 => ⟨S500000x1, .f32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000x128, .f32⟩
  | 52 => ⟨S500000x128, .f32⟩
  | 53 => ⟨S500000x128, .f32⟩
  | 54 => ⟨S_, .f32⟩
  | 55 => ⟨S30000x128, .f32⟩
  | 56 => ⟨S500000x1, .i32⟩
  | 57 => ⟨S30000x128, .f32⟩
  | 58 => ⟨S260000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_c_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44_0 : Ref sig .tc := ⟨.hbm, 67, rfl⟩
abbrev main_v44_1 : Ref sig .tc := ⟨.hbm, 68, rfl⟩
abbrev main_v44_2 : Ref sig .tc := ⟨.hbm, 69, rfl⟩
abbrev main_v45 : Ref sig .tc := ⟨.hbm, 70, rfl⟩
abbrev main_c_11 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58_0 : Ref sig .tc := ⟨.hbm, 86, rfl⟩
abbrev main_v58_1 : Ref sig .tc := ⟨.hbm, 87, rfl⟩
abbrev main_v59 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_16 : Ref sig .tc := ⟨.hbm, 98, rfl⟩
abbrev main_v67 : Ref sig .tc := ⟨.hbm, 99, rfl⟩
abbrev main_cst_17 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_18 : Ref sig .tc := ⟨.hbm, 105, rfl⟩
abbrev main_v72 : Ref sig .tc := ⟨.hbm, 106, rfl⟩
abbrev main_v73 : Ref sig .tc := ⟨.hbm, 107, rfl⟩
abbrev main_cst_19 : Ref sig .tc := ⟨.hbm, 108, rfl⟩
abbrev main_v74 : Ref sig .tc := ⟨.hbm, 109, rfl⟩
abbrev main_v75 : Ref sig .tc := ⟨.hbm, 110, rfl⟩
abbrev main_c_20 : Ref sig .tc := ⟨.hbm, 111, rfl⟩
abbrev main_v76 : Ref sig .tc := ⟨.hbm, 112, rfl⟩
abbrev main_v77 : Ref sig .tc := ⟨.hbm, 113, rfl⟩
abbrev main_c_21 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_22 : Ref sig .tc := ⟨.hbm, 120, rfl⟩
abbrev main_v83 : Ref sig .tc := ⟨.hbm, 121, rfl⟩
abbrev main_v84 : Ref sig .tc := ⟨.hbm, 122, rfl⟩
abbrev main_c_23 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_24 : Ref sig .tc := ⟨.hbm, 132, rfl⟩
abbrev main_v93 : Ref sig .tc := ⟨.hbm, 133, rfl⟩
abbrev main_v94 : Ref sig .tc := ⟨.hbm, 134, rfl⟩
abbrev main_c_25 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_26 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105_0 : Ref sig .tc := ⟨.hbm, 147, rfl⟩
abbrev main_v105_1 : Ref sig .tc := ⟨.hbm, 148, rfl⟩
abbrev main_v105_2 : Ref sig .tc := ⟨.hbm, 149, rfl⟩
abbrev main_v106 : Ref sig .tc := ⟨.hbm, 150, rfl⟩
abbrev main_c_27 : Ref sig .tc := ⟨.hbm, 151, rfl⟩
abbrev main_v107 : Ref sig .tc := ⟨.hbm, 152, rfl⟩
abbrev main_v108 : Ref sig .tc := ⟨.hbm, 153, rfl⟩
abbrev main_c_28 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_29 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119_0 : Ref sig .tc := ⟨.hbm, 166, rfl⟩
abbrev main_v119_1 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_c_30 : Ref sig .tc := ⟨.hbm, 171, rfl⟩
abbrev main_v123 : Ref sig .tc := ⟨.hbm, 172, rfl⟩
abbrev main_v124 : Ref sig .tc := ⟨.hbm, 173, rfl⟩
abbrev main_c_31 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_32 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![26], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S300000 : S_.BroadcastsInDim S300000 (![] : Fin 0 → Fin S300000.rank)
  concatenates_S300000_S300000_S600000_d0 : Shape.Concatenates [S300000, S300000] S600000 0
  bcast_S_S600000 : S_.BroadcastsInDim S600000 (![] : Fin 0 → Fin S600000.rank)
  bcast_S_S130000 : S_.BroadcastsInDim S130000 (![] : Fin 0 → Fin S130000.rank)
  bcast_S600000_S600000x1_0 : S600000.BroadcastsInDim S600000x1 (![0] : Fin 1 → Fin S600000x1.rank)
  concatenates_S100000x128_S30000x128_S130000x128_d0 : Shape.Concatenates [S100000x128, S30000x128] S130000x128 0
  bcast_S600000x1_S600000x128_0_1 : S600000x1.BroadcastsInDim S600000x128 (![0, 1] : Fin 2 → Fin S600000x128.rank)
  bcast_S_S130000x128 : S_.BroadcastsInDim S130000x128 (![] : Fin 0 → Fin S130000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  slices_S130000x128_S100000x128_0_0 : S130000x128.Slices ![0, 0] S100000x128
  slices_S130000x128_S30000x128_100000_0 : S130000x128.Slices ![100000, 0] S30000x128
  bcast_S_S500000 : S_.BroadcastsInDim S500000 (![] : Fin 0 → Fin S500000.rank)
  concatenates_S500000_S500000_S1000000_d0 : Shape.Concatenates [S500000, S500000] S1000000 0
  bcast_S_S1000000 : S_.BroadcastsInDim S1000000 (![] : Fin 0 → Fin S1000000.rank)
  bcast_S_S150000 : S_.BroadcastsInDim S150000 (![] : Fin 0 → Fin S150000.rank)
  bcast_S1000000_S1000000x1_0 : S1000000.BroadcastsInDim S1000000x1 (![0] : Fin 1 → Fin S1000000x1.rank)
  concatenates_S100000x128_S50000x128_S150000x128_d0 : Shape.Concatenates [S100000x128, S50000x128] S150000x128 0
  bcast_S1000000x1_S1000000x128_0_1 : S1000000x1.BroadcastsInDim S1000000x128 (![0, 1] : Fin 2 → Fin S1000000x128.rank)
  bcast_S_S150000x128 : S_.BroadcastsInDim S150000x128 (![] : Fin 0 → Fin S150000x128.rank)
  slices_S150000x128_S100000x128_0_0 : S150000x128.Slices ![0, 0] S100000x128
  slices_S150000x128_S50000x128_100000_0 : S150000x128.Slices ![100000, 0] S50000x128
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S30000x128 : S_.BroadcastsInDim S30000x128 (![] : Fin 0 → Fin S30000x128.rank)
  concatenates_S100000x128_S100000x128_S30000x128_S30000x128_S260000x128_d0 : Shape.Concatenates [S100000x128, S100000x128, S30000x128, S30000x128] S260000x128 0
  scatter_S130000_S600000x1_S600000_n_0_0_1_wf : ScatterDims.WF S130000 S600000x1 S600000 [] [0] [0] 1
  gather_S130000_S600000x1_S600000_n_0_n_n_0_1_1_wf : GatherDims.WF S130000 S600000x1 S600000 [] [0] [] [0] [] 1 ![1]
  gather_S130000x128_S600000x1_S600000x128_1_0_n_n_0_1_1128_wf : GatherDims.WF S130000x128 S600000x1 S600000x128 [1] [0] [] [0] [] 1 ![1, 128]
  scatter_S130000x128_S600000x1_S600000x128_1_0_0_1_wf : ScatterDims.WF S130000x128 S600000x1 S600000x128 [1] [0] [0] 1
  scatter_S150000_S1000000x1_S1000000_n_0_0_1_wf : ScatterDims.WF S150000 S1000000x1 S1000000 [] [0] [0] 1
  gather_S150000_S1000000x1_S1000000_n_0_n_n_0_1_1_wf : GatherDims.WF S150000 S1000000x1 S1000000 [] [0] [] [0] [] 1 ![1]
  gather_S150000x128_S1000000x1_S1000000x128_1_0_n_n_0_1_1128_wf : GatherDims.WF S150000x128 S1000000x1 S1000000x128 [1] [0] [] [0] [] 1 ![1, 128]
  scatter_S150000x128_S1000000x1_S1000000x128_1_0_0_1_wf : ScatterDims.WF S150000x128 S1000000x1 S1000000x128 [1] [0] [0] 1
  gather_S50000x128_S500000x1_S500000x128_1_0_n_n_0_1_1128_wf : GatherDims.WF S50000x128 S500000x1 S500000x128 [1] [0] [] [0] [] 1 ![1, 128]
  scatter_S30000x128_S500000x1_S500000x128_1_0_0_1_wf : ScatterDims.WF S30000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S130000x128.size a
  hwx0_0 : ∀ i : grid0.Coords, EltTy.bits .f32 = 32 ∨ (Rect.block (s := S130000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S130000x128.size a
  hwx0_1 : ∀ i : grid0.Coords, EltTy.bits .f32 = 32 ∨ (Rect.block (s := S130000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S130000x128.size a
  hwx0_2 : ∀ i : grid0.Coords, EltTy.bits .f32 = 32 ∨ (Rect.block (s := S130000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S130000x128.size a
  hwx0_3 : ∀ i : grid0.Coords, EltTy.bits .f32 = 32 ∨ (Rect.block (s := S130000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S130000x128.size a
  hwx0_4 : ∀ i : grid0.Coords, EltTy.bits .f32 = 32 ∨ (Rect.block (s := S130000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S130000x128.size a
  hwx1_0 : ∀ i : grid1.Coords, EltTy.bits .f32 = 32 ∨ (Rect.block (s := S130000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S130000x128.size a
  hwx1_1 : ∀ i : grid1.Coords, EltTy.bits .f32 = 32 ∨ (Rect.block (s := S130000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S130000x128.size a
  hwx1_2 : ∀ i : grid1.Coords, EltTy.bits .f32 = 32 ∨ (Rect.block (s := S130000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S130000x128.size a
  hwx1_3 : ∀ i : grid1.Coords, EltTy.bits .f32 = 32 ∨ (Rect.block (s := S130000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S130000x128.size a
  hwx1_4 : ∀ i : grid1.Coords, EltTy.bits .f32 = 32 ∨ (Rect.block (s := S130000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S150000x128.size a
  hwx2_0 : ∀ i : grid2.Coords, EltTy.bits .f32 = 32 ∨ (Rect.block (s := S150000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S150000x128.size a
  hwx2_1 : ∀ i : grid2.Coords, EltTy.bits .f32 = 32 ∨ (Rect.block (s := S150000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S150000x128.size a
  hwx2_2 : ∀ i : grid2.Coords, EltTy.bits .f32 = 32 ∨ (Rect.block (s := S150000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S150000x128.size a
  hwx2_3 : ∀ i : grid2.Coords, EltTy.bits .f32 = 32 ∨ (Rect.block (s := S150000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S150000x128.size a
  hwx2_4 : ∀ i : grid2.Coords, EltTy.bits .f32 = 32 ∨ (Rect.block (s := S150000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S150000x128.size a
  hwx3_0 : ∀ i : grid3.Coords, EltTy.bits .f32 = 32 ∨ (Rect.block (s := S150000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S150000x128.size a
  hwx3_1 : ∀ i : grid3.Coords, EltTy.bits .f32 = 32 ∨ (Rect.block (s := S150000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S150000x128.size a
  hwx3_2 : ∀ i : grid3.Coords, EltTy.bits .f32 = 32 ∨ (Rect.block (s := S150000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S150000x128.size a
  hwx3_3 : ∀ i : grid3.Coords, EltTy.bits .f32 = 32 ∨ (Rect.block (s := S150000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S150000x128.size a
  hwx3_4 : ∀ i : grid3.Coords, EltTy.bits .f32 = 32 ∨ (Rect.block (s := S150000x128) S5000x128.size (cc3_transform_4 i) (hinb3_4 i)).WholeWords (EltTy.packing .f32)

variable [Facts₀]

def scatter_S130000_S600000x1_S600000_n_0_0_1 : ScatterDims S130000 S600000x1 S600000 where
  updateWindowDims := []
  insertedWindowDims := [0]
  scatterDimsToOperandDims := [0]
  indexVectorDim := 1
  wf := scatter_S130000_S600000x1_S600000_n_0_0_1_wf
def gather_S130000_S600000x1_S600000_n_0_n_n_0_1_1 : GatherDims S130000 S600000x1 S600000 where
  offsetDims := []
  collapsedSliceDims := [0]
  operandBatchingDims := []
  startIndicesBatchingDims := []
  startIndexMap := [0]
  indexVectorDim := 1
  sliceSizes := ![1]
  wf := gather_S130000_S600000x1_S600000_n_0_n_n_0_1_1_wf
def gather_S130000x128_S600000x1_S600000x128_1_0_n_n_0_1_1128 : GatherDims S130000x128 S600000x1 S600000x128 where
  offsetDims := [1]
  collapsedSliceDims := [0]
  operandBatchingDims := []
  startIndicesBatchingDims := []
  startIndexMap := [0]
  indexVectorDim := 1
  sliceSizes := ![1, 128]
  wf := gather_S130000x128_S600000x1_S600000x128_1_0_n_n_0_1_1128_wf
def scatter_S130000x128_S600000x1_S600000x128_1_0_0_1 : ScatterDims S130000x128 S600000x1 S600000x128 where
  updateWindowDims := [1]
  insertedWindowDims := [0]
  scatterDimsToOperandDims := [0]
  indexVectorDim := 1
  wf := scatter_S130000x128_S600000x1_S600000x128_1_0_0_1_wf
def scatter_S150000_S1000000x1_S1000000_n_0_0_1 : ScatterDims S150000 S1000000x1 S1000000 where
  updateWindowDims := []
  insertedWindowDims := [0]
  scatterDimsToOperandDims := [0]
  indexVectorDim := 1
  wf := scatter_S150000_S1000000x1_S1000000_n_0_0_1_wf
def gather_S150000_S1000000x1_S1000000_n_0_n_n_0_1_1 : GatherDims S150000 S1000000x1 S1000000 where
  offsetDims := []
  collapsedSliceDims := [0]
  operandBatchingDims := []
  startIndicesBatchingDims := []
  startIndexMap := [0]
  indexVectorDim := 1
  sliceSizes := ![1]
  wf := gather_S150000_S1000000x1_S1000000_n_0_n_n_0_1_1_wf
def gather_S150000x128_S1000000x1_S1000000x128_1_0_n_n_0_1_1128 : GatherDims S150000x128 S1000000x1 S1000000x128 where
  offsetDims := [1]
  collapsedSliceDims := [0]
  operandBatchingDims := []
  startIndicesBatchingDims := []
  startIndexMap := [0]
  indexVectorDim := 1
  sliceSizes := ![1, 128]
  wf := gather_S150000x128_S1000000x1_S1000000x128_1_0_n_n_0_1_1128_wf
def scatter_S150000x128_S1000000x1_S1000000x128_1_0_0_1 : ScatterDims S150000x128 S1000000x1 S1000000x128 where
  updateWindowDims := [1]
  insertedWindowDims := [0]
  scatterDimsToOperandDims := [0]
  indexVectorDim := 1
  wf := scatter_S150000x128_S1000000x1_S1000000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S30000x128_S500000x1_S500000x128_1_0_0_1 : ScatterDims S30000x128 S500000x1 S500000x128 where
  updateWindowDims := [1]
  insertedWindowDims := [0]
  scatterDimsToOperandDims := [0]
  indexVectorDim := 1
  wf := scatter_S30000x128_S500000x1_S500000x128_1_0_0_1_wf

abbrev win0_0 : Pipeline.Window sig grid0 :=
  Pipeline.Window.ofSpec (Memref.whole main_v43) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44_0) S5000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44_1) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v44_2) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v57) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44_2) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44_1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v58_1) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v104) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v91) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v105_0) S5000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v105_1) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v105_2) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v118) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v105_2) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v105_1) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v119_0) S5000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v119_1) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where
  halias0_3 : Pipeline.Aliased win0 1 3
  halias1_4 : Pipeline.Aliased win1 2 4
  halias2_3 : Pipeline.Aliased win2 1 3
  halias3_4 : Pipeline.Aliased win3 2 4

variable [Facts]
-- ==== ReferenceIdeal.lean ====
abbrev S100000x128 : Shape := ⟨2, ![100000, 128]⟩
abbrev S30000x128 : Shape := ⟨2, ![30000, 128]⟩
abbrev S50000x128 : Shape := ⟨2, ![50000, 128]⟩
abbrev S500000 : Shape := ⟨1, ![500000]⟩
abbrev S300000 : Shape := ⟨1, ![300000]⟩
abbrev S_ : Shape := ⟨0, ![]⟩
abbrev S600000 : Shape := ⟨1, ![600000]⟩
abbrev S130000 : Shape := ⟨1, ![130000]⟩
abbrev S600000x1 : Shape := ⟨2, ![600000, 1]⟩
abbrev S130000x128 : Shape := ⟨2, ![130000, 128]⟩
abbrev S130000x1 : Shape := ⟨2, ![130000, 1]⟩
abbrev S600000x128 : Shape := ⟨2, ![600000, 128]⟩
abbrev S1000000 : Shape := ⟨1, ![1000000]⟩
abbrev S150000 : Shape := ⟨1, ![150000]⟩
abbrev S1000000x1 : Shape := ⟨2, ![1000000, 1]⟩
abbrev S150000x128 : Shape := ⟨2, ![150000, 128]⟩
abbrev S150000x1 : Shape := ⟨2, ![150000, 1]⟩
abbrev S1000000x128 : Shape := ⟨2, ![1000000, 128]⟩
abbrev S500000x1 : Shape := ⟨2, ![500000, 1]⟩
abbrev S500000x128 : Shape := ⟨2, ![500000, 128]⟩
abbrev S260000x128 : Shape := ⟨2, ![260000, 128]⟩

abbrev nBuf : Space → Nat
  | .hbm => 269
  | .vmem => 0
  | .smem => 0
  | _ => 0

abbrev hbmTy0_0 (i : Nat) : BufTy := match i % 128 with
  | 0 => ⟨S100000x128, .f32⟩
  | 1 => ⟨S30000x128, .f32⟩
  | 2 => ⟨S50000x128, .f32⟩
  | 3 => ⟨S500000, .f32⟩
  | 4 => ⟨S300000, .i32⟩
  | 5 => ⟨S300000, .i32⟩
  | 6 => ⟨S500000, .i32⟩
  | 7 => ⟨S500000, .i32⟩
  | 8 => ⟨S500000, .i32⟩
  | 9 => ⟨S500000, .i32⟩
  | 10 => ⟨S_, .i32⟩
  | 11 => ⟨S300000, .i32⟩
  | 12 => ⟨S300000, .i32⟩
  | 13 => ⟨S600000, .i32⟩
  | 14 => ⟨S_, .i32⟩
  | 15 => ⟨S300000, .i32⟩
  | 16 => ⟨S300000, .i32⟩
  | 17 => ⟨S600000, .i32⟩
  | 18 => ⟨S_, .f32⟩
  | 19 => ⟨S600000, .f32⟩
  | 20 => ⟨S_, .f32⟩
  | 21 => ⟨S130000, .f32⟩
  | 22 => ⟨S600000x1, .i32⟩
  | 23 => ⟨S130000, .f32⟩
  | 24 => ⟨S130000, .f32⟩
  | 25 => ⟨S_, .f32⟩
  | 26 => ⟨S130000, .f32⟩
  | 27 => ⟨S130000, .f32⟩
  | 28 => ⟨S_, .f32⟩
  | 29 => ⟨S130000, .f32⟩
  | 30 => ⟨S130000, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000, .f32⟩
  | 49 => ⟨S600000, .f32⟩
  | 50 => ⟨S130000x128, .f32⟩
  | 51 => ⟨S130000x128, .f32⟩
  | 52 => ⟨S_, .f32⟩
  | 53 => ⟨S130000, .f32⟩
  | 54 => ⟨S130000x1, .f32⟩
  | 55 => ⟨S130000x1, .f32⟩
  | 56 => ⟨S_, .f32⟩
  | 57 => ⟨S130000x1, .f32⟩
  | 58 => ⟨S130000x1, .f32⟩
  | 59 => ⟨S130000x128, .f32⟩
  | 60 => ⟨S130000x128, .f32⟩
  | 61 => ⟨S600000x1, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x128, .f32⟩
  | 71 => ⟨S600000x128, .f32⟩
  | 72 => ⟨S600000x128, .f32⟩
  | 73 => ⟨S_, .f32⟩
  | 74 => ⟨S130000x128, .f32⟩
  | 75 => ⟨S600000x1, .i32⟩
  | 76 => ⟨S130000x128, .f32⟩
  | 77 => ⟨S_, .f32⟩
  | 78 => ⟨S130000x128, .f32⟩
  | 79 => ⟨S130000x128, .f32⟩
  | 80 => ⟨S130000x128, .f32⟩
  | 81 => ⟨S_, .f32⟩
  | 82 => ⟨S130000x128, .f32⟩
  | 83 => ⟨S130000x128, .f32⟩
  | 84 => ⟨S130000x128, .f32⟩
  | 85 => ⟨S_, .f32⟩
  | 86 => ⟨S130000, .f32⟩
  | 87 => ⟨S130000x1, .f32⟩
  | 88 => ⟨S130000x1, .f32⟩
  | 89 => ⟨S_, .f32⟩
  | 90 => ⟨S130000x1, .f32⟩
  | 91 => ⟨S130000x1, .f32⟩
  | 92 => ⟨S130000x128, .f32⟩
  | 93 => ⟨S130000x128, .f32⟩
  | 94 => ⟨S130000x128, .f32⟩
  | 95 => ⟨S600000x1, .f32⟩
  | 96 => ⟨S_, .i32⟩
  | 97 => ⟨S600000, .i32⟩
  | 98 => ⟨S600000, .i1⟩
  | 99 => ⟨S_, .i32⟩
  | 100 => ⟨S600000, .i32⟩
  | 101 => ⟨S600000, .i32⟩
  | 102 => ⟨S600000, .i32⟩
  | 103 => ⟨S600000x1, .i32⟩
  | 104 => ⟨S600000x128, .f32⟩
  | 105 => ⟨S600000x128, .f32⟩
  | 106 => ⟨S600000x128, .f32⟩
  | 107 => ⟨S_, .f32⟩
  | 108 => ⟨S130000x128, .f32⟩
  | 109 => ⟨S600000x1, .i32⟩
  | 110 => ⟨S130000x128, .f32⟩
  | 111 => ⟨S_, .f32⟩
  | 112 => ⟨S130000x128, .f32⟩
  | 113 => ⟨S130000x128, .f32⟩
  | 114 => ⟨S130000x128, .f32⟩
  | 115 => ⟨S_, .f32⟩
  | 116 => ⟨S130000x128, .f32⟩
  | 117 => ⟨S130000x128, .f32⟩
  | 118 => ⟨S130000x128, .f32⟩
  | 119 => ⟨S_, .f32⟩
  | 120 => ⟨S130000, .f32⟩
  | 121 => ⟨S130000x1, .f32⟩
  | 122 => ⟨S130000x1, .f32⟩
  | 123 => ⟨S_, .f32⟩
  | 124 => ⟨S130000x1, .f32⟩
  | 125 => ⟨S130000x1, .f32⟩
  | 126 => ⟨S130000x128, .f32⟩
  | 127 => ⟨S130000x128, .f32⟩
  | _ => ⟨S100000x128, .f32⟩

abbrev hbmTy0_1 (i : Nat) : BufTy := match i % 128 with
  | 0 => ⟨S130000x128, .f32⟩
  | 1 => ⟨S100000x128, .f32⟩
  | 2 => ⟨S30000x128, .f32⟩
  | 3 => ⟨S_, .i32⟩
  | 4 => ⟨S500000, .i32⟩
  | 5 => ⟨S500000, .i32⟩
  | 6 => ⟨S1000000, .i32⟩
  | 7 => ⟨S_, .i32⟩
  | 8 => ⟨S500000, .i32⟩
  | 9 => ⟨S500000, .i32⟩
  | 10 => ⟨S1000000, .i32⟩
  | 11 => ⟨S_, .f32⟩
  | 12 => ⟨S1000000, .f32⟩
  | 13 => ⟨S_, .f32⟩
  | 14 => ⟨S150000, .f32⟩
  | 15 => ⟨S1000000x1, .i32⟩
  | 16 => ⟨S150000, .f32⟩
  | 17 => ⟨S150000, .f32⟩
  | 18 => ⟨S_, .f32⟩
  | 19 => ⟨S150000, .f32⟩
  | 20 => ⟨S150000, .f32⟩
  | 21 => ⟨S_, .f32⟩
  | 22 => ⟨S150000, .f32⟩
  | 23 => ⟨S150000, .f32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000, .f32⟩
  | 33 => ⟨S_, .i32⟩
  | 34 => ⟨S1000000, .i32⟩
  | 35 => ⟨S1000000, .i1⟩
  | 36 => ⟨S_, .i32⟩
  | 37 => ⟨S1000000, .i32⟩
  | 38 => ⟨S1000000, .i32⟩
  | 39 => ⟨S1000000, .i32⟩
  | 40 => ⟨S1000000x1, .i32⟩
  | 41 => ⟨S1000000, .f32⟩
  | 42 => ⟨S1000000, .f32⟩
  | 43 => ⟨S150000x128, .f32⟩
  | 44 => ⟨S150000x128, .f32⟩
  | 45 => ⟨S_, .f32⟩
  | 46 => ⟨S150000, .f32⟩
  | 47 => ⟨S150000x1, .f32⟩
  | 48 => ⟨S150000x1, .f32⟩
  | 49 => ⟨S_, .f32⟩
  | 50 => ⟨S150000x1, .f32⟩
  | 51 => ⟨S150000x1, .f32⟩
  | 52 => ⟨S150000x128, .f32⟩
  | 53 => ⟨S150000x128, .f32⟩
  | 54 => ⟨S1000000x1, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x128, .f32⟩
  | 64 => ⟨S1000000x128, .f32⟩
  | 65 => ⟨S1000000x128, .f32⟩
  | 66 => ⟨S_, .f32⟩
  | 67 => ⟨S150000x128, .f32⟩
  | 68 => ⟨S1000000x1, .i32⟩
  | 69 => ⟨S150000x128, .f32⟩
  | 70 => ⟨S_, .f32⟩
  | 71 => ⟨S150000x128, .f32⟩
  | 72 => ⟨S150000x128, .f32⟩
  | 73 => ⟨S150000x128, .f32⟩
  | 74 => ⟨S_, .f32⟩
  | 75 => ⟨S150000x128, .f32⟩
  | 76 => ⟨S150000x128, .f32⟩
  | 77 => ⟨S150000x128, .f32⟩
  | 78 => ⟨S_, .f32⟩
  | 79 => ⟨S150000, .f32⟩
  | 80 => ⟨S150000x1, .f32⟩
  | 81 => ⟨S150000x1, .f32⟩
  | 82 => ⟨S_, .f32⟩
  | 83 => ⟨S150000x1, .f32⟩
  | 84 => ⟨S150000x1, .f32⟩
  | 85 => ⟨S150000x128, .f32⟩
  | 86 => ⟨S150000x128, .f32⟩
  | 87 => ⟨S150000x128, .f32⟩
  | 88 => ⟨S1000000x1, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1000000x128, .f32⟩
  | 98 => ⟨S1000000x128, .f32⟩
  | 99 => ⟨S1000000x128, .f32⟩
  | 100 => ⟨S_, .f32⟩
  | 101 => ⟨S150000x128, .f32⟩
  | 102 => ⟨S1000000x1, .i32⟩
  | 103 => ⟨S150000x128, .f32⟩
  | 104 => ⟨S_, .f32⟩
  | 105 => ⟨S150000x128, .f32⟩
  | 106 => ⟨S150000x128, .f32⟩
  | 107 => ⟨S150000x128, .f32⟩
  | 108 => ⟨S_, .f32⟩
  | 109 => ⟨S150000x128, .f32⟩
  | 110 => ⟨S150000x128, .f32⟩
  | 111 => ⟨S150000x128, .f32⟩
  | 112 => ⟨S_, .f32⟩
  | 113 => ⟨S150000, .f32⟩
  | 114 => ⟨S150000x1, .f32⟩
  | 115 => ⟨S150000x1, .f32⟩
  | 116 => ⟨S_, .f32⟩
  | 117 => ⟨S150000x1, .f32⟩
  | 118 => ⟨S150000x1, .f32⟩
  | 119 => ⟨S150000x128, .f32⟩
  | 120 => ⟨S150000x128, .f32⟩
  | 121 => ⟨S150000x128, .f32⟩
  | 122 => ⟨S100000x128, .f32⟩
  | 123 => ⟨S50000x128, .f32⟩
  | 124 => ⟨S500000x1, .f32⟩
  | 125 => ⟨S_, .i32⟩
  | 126 => ⟨S500000, .i32⟩
  | 127 => ⟨S500000, .i1⟩
  | _ => ⟨S100000x128, .f32⟩

abbrev hbmTy0_2 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x128, .f32⟩
  | 6 => ⟨S500000x128, .f32⟩
  | 7 => ⟨S500000x128, .f32⟩
  | 8 => ⟨S_, .f32⟩
  | 9 => ⟨S30000x128, .f32⟩
  | 10 => ⟨S500000x1, .i32⟩
  | 11 => ⟨S30000x128, .f32⟩
  | 12 => ⟨S260000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_c_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_v0 : Ref sig .tc := ⟨.hbm, 51, rfl⟩
abbrev main_call0_cst : Ref sig .tc := ⟨.hbm, 52, rfl⟩
abbrev main_call0_v1 : Ref sig .tc := ⟨.hbm, 53, rfl⟩
abbrev main_call0_v2 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_13 : Ref sig .tc := ⟨.hbm, 81, rfl⟩
abbrev main_v52 : Ref sig .tc := ⟨.hbm, 82, rfl⟩
abbrev main_v53 : Ref sig .tc := ⟨.hbm, 83, rfl⟩
abbrev main_call1_v0 : Ref sig .tc := ⟨.hbm, 84, rfl⟩
abbrev main_call1_cst : Ref sig .tc := ⟨.hbm, 85, rfl⟩
abbrev main_call1_v1 : Ref sig .tc := ⟨.hbm, 86, rfl⟩
abbrev main_call1_v2 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_15 : Ref sig .tc := ⟨.hbm, 96, rfl⟩
abbrev main_v61 : Ref sig .tc := ⟨.hbm, 97, rfl⟩
abbrev main_v62 : Ref sig .tc := ⟨.hbm, 98, rfl⟩
abbrev main_c_16 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_17 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_18 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_19 : Ref sig .tc := ⟨.hbm, 115, rfl⟩
abbrev main_v76 : Ref sig .tc := ⟨.hbm, 116, rfl⟩
abbrev main_v77 : Ref sig .tc := ⟨.hbm, 117, rfl⟩
abbrev main_call2_v0 : Ref sig .tc := ⟨.hbm, 118, rfl⟩
abbrev main_call2_cst : Ref sig .tc := ⟨.hbm, 119, rfl⟩
abbrev main_call2_v1 : Ref sig .tc := ⟨.hbm, 120, rfl⟩
abbrev main_call2_v2 : Ref sig .tc := ⟨.hbm, 121, rfl⟩
abbrev main_v78 : Ref sig .tc := ⟨.hbm, 122, rfl⟩
abbrev main_cst_20 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_c_21 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_c_22 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_23 : Ref sig .tc := ⟨.hbm, 139, rfl⟩
abbrev main_v92 : Ref sig .tc := ⟨.hbm, 140, rfl⟩
abbrev main_cst_24 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_cst_25 : Ref sig .tc := ⟨.hbm, 146, rfl⟩
abbrev main_v97 : Ref sig .tc := ⟨.hbm, 147, rfl⟩
abbrev main_v98 : Ref sig .tc := ⟨.hbm, 148, rfl⟩
abbrev main_cst_26 : Ref sig .tc := ⟨.hbm, 149, rfl⟩
abbrev main_v99 : Ref sig .tc := ⟨.hbm, 150, rfl⟩
abbrev main_v100 : Ref sig .tc := ⟨.hbm, 151, rfl⟩
abbrev main_c_27 : Ref sig .tc := ⟨.hbm, 152, rfl⟩
abbrev main_v101 : Ref sig .tc := ⟨.hbm, 153, rfl⟩
abbrev main_v102 : Ref sig .tc := ⟨.hbm, 154, rfl⟩
abbrev main_c_28 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_c_29 : Ref sig .tc := ⟨.hbm, 161, rfl⟩
abbrev main_v108 : Ref sig .tc := ⟨.hbm, 162, rfl⟩
abbrev main_v109 : Ref sig .tc := ⟨.hbm, 163, rfl⟩
abbrev main_c_30 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_call3_v0 : Ref sig .tc := ⟨.hbm, 172, rfl⟩
abbrev main_call3_cst : Ref sig .tc := ⟨.hbm, 173, rfl⟩
abbrev main_call3_v1 : Ref sig .tc := ⟨.hbm, 174, rfl⟩
abbrev main_call3_v2 : Ref sig .tc := ⟨.hbm, 175, rfl⟩
abbrev main_v117 : Ref sig .tc := ⟨.hbm, 176, rfl⟩
abbrev main_cst_31 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_c_32 : Ref sig .tc := ⟨.hbm, 183, rfl⟩
abbrev main_v123 : Ref sig .tc := ⟨.hbm, 184, rfl⟩
abbrev main_v124 : Ref sig .tc := ⟨.hbm, 185, rfl⟩
abbrev main_c_33 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_cst_34 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_cst_35 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_cst_36 : Ref sig .tc := ⟨.hbm, 202, rfl⟩
abbrev main_v138 : Ref sig .tc := ⟨.hbm, 203, rfl⟩
abbrev main_v139 : Ref sig .tc := ⟨.hbm, 204, rfl⟩
abbrev main_call4_v0 : Ref sig .tc := ⟨.hbm, 205, rfl⟩
abbrev main_call4_cst : Ref sig .tc := ⟨.hbm, 206, rfl⟩
abbrev main_call4_v1 : Ref sig .tc := ⟨.hbm, 207, rfl⟩
abbrev main_call4_v2 : Ref sig .tc := ⟨.hbm, 208, rfl⟩
abbrev main_v140 : Ref sig .tc := ⟨.hbm, 209, rfl⟩
abbrev main_cst_37 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_c_38 : Ref sig .tc := ⟨.hbm, 217, rfl⟩
abbrev main_v147 : Ref sig .tc := ⟨.hbm, 218, rfl⟩
abbrev main_v148 : Ref sig .tc := ⟨.hbm, 219, rfl⟩
abbrev main_c_39 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_cst_40 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_cst_41 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_cst_42 : Ref sig .tc := ⟨.hbm, 236, rfl⟩
abbrev main_v162 : Ref sig .tc := ⟨.hbm, 237, rfl⟩
abbrev main_v163 : Ref sig .tc := ⟨.hbm, 238, rfl⟩
abbrev main_call5_v0 : Ref sig .tc := ⟨.hbm, 239, rfl⟩
abbrev main_call5_cst : Ref sig .tc := ⟨.hbm, 240, rfl⟩
abbrev main_call5_v1 : Ref sig .tc := ⟨.hbm, 241, rfl⟩
abbrev main_call5_v2 : Ref sig .tc := ⟨.hbm, 242, rfl⟩
abbrev main_v164 : Ref sig .tc := ⟨.hbm, 243, rfl⟩
abbrev main_cst_43 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_c_44 : Ref sig .tc := ⟨.hbm, 253, rfl⟩
abbrev main_v173 : Ref sig .tc := ⟨.hbm, 254, rfl⟩
abbrev main_v174 : Ref sig .tc := ⟨.hbm, 255, rfl⟩
abbrev main_c_45 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_cst_46 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  concatenates_S300000_S300000_S600000_d0 : Shape.Concatenates [S300000, S300000] S600000 0
  bcast_S_S600000 : S_.BroadcastsInDim S600000 (![] : Fin 0 → Fin S600000.rank)
  bcast_S_S130000 : S_.BroadcastsInDim S130000 (![] : Fin 0 → Fin S130000.rank)
  bcast_S600000_S600000x1_0 : S600000.BroadcastsInDim S600000x1 (![0] : Fin 1 → Fin S600000x1.rank)
  concatenates_S100000x128_S30000x128_S130000x128_d0 : Shape.Concatenates [S100000x128, S30000x128] S130000x128 0
  reducesTo_S130000x128_S130000_d1 : S130000x128.ReducesTo [1] S130000
  h_S_ : 0 < S_.numel
  bcast_S130000_S130000x1_0 : S130000.BroadcastsInDim S130000x1 (![0] : Fin 1 → Fin S130000x1.rank)
  bcast_S_S130000x1 : S_.BroadcastsInDim S130000x1 (![] : Fin 0 → Fin S130000x1.rank)
  bcast_S130000x1_S130000x128_0_1 : S130000x1.BroadcastsInDim S130000x128 (![0, 1] : Fin 2 → Fin S130000x128.rank)
  bcast_S600000x1_S600000x128_0_1 : S600000x1.BroadcastsInDim S600000x128 (![0, 1] : Fin 2 → Fin S600000x128.rank)
  bcast_S_S130000x128 : S_.BroadcastsInDim S130000x128 (![] : Fin 0 → Fin S130000x128.rank)
  slices_S130000x128_S100000x128_0_0 : S130000x128.Slices ![0, 0] S100000x128
  slices_S130000x128_S30000x128_100000_0 : S130000x128.Slices ![100000, 0] S30000x128
  bcast_S_S500000 : S_.BroadcastsInDim S500000 (![] : Fin 0 → Fin S500000.rank)
  concatenates_S500000_S500000_S1000000_d0 : Shape.Concatenates [S500000, S500000] S1000000 0
  bcast_S_S1000000 : S_.BroadcastsInDim S1000000 (![] : Fin 0 → Fin S1000000.rank)
  bcast_S_S150000 : S_.BroadcastsInDim S150000 (![] : Fin 0 → Fin S150000.rank)
  bcast_S1000000_S1000000x1_0 : S1000000.BroadcastsInDim S1000000x1 (![0] : Fin 1 → Fin S1000000x1.rank)
  concatenates_S100000x128_S50000x128_S150000x128_d0 : Shape.Concatenates [S100000x128, S50000x128] S150000x128 0
  reducesTo_S150000x128_S150000_d1 : S150000x128.ReducesTo [1] S150000
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x128_0_1 : S150000x1.BroadcastsInDim S150000x128 (![0, 1] : Fin 2 → Fin S150000x128.rank)
  bcast_S1000000x1_S1000000x128_0_1 : S1000000x1.BroadcastsInDim S1000000x128 (![0, 1] : Fin 2 → Fin S1000000x128.rank)
  bcast_S_S150000x128 : S_.BroadcastsInDim S150000x128 (![] : Fin 0 → Fin S150000x128.rank)
  slices_S150000x128_S100000x128_0_0 : S150000x128.Slices ![0, 0] S100000x128
  slices_S150000x128_S50000x128_100000_0 : S150000x128.Slices ![100000, 0] S50000x128
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S30000x128 : S_.BroadcastsInDim S30000x128 (![] : Fin 0 → Fin S30000x128.rank)
  concatenates_S100000x128_S100000x128_S30000x128_S30000x128_S260000x128_d0 : Shape.Concatenates [S100000x128, S100000x128, S30000x128, S30000x128] S260000x128 0
  scatter_S130000_S600000x1_S600000_n_0_0_1_wf : ScatterDims.WF S130000 S600000x1 S600000 [] [0] [0] 1
  gather_S130000_S600000x1_S600000_n_0_n_n_0_1_1_wf : GatherDims.WF S130000 S600000x1 S600000 [] [0] [] [0] [] 1 ![1]
  gather_S130000x128_S600000x1_S600000x128_1_0_n_n_0_1_1128_wf : GatherDims.WF S130000x128 S600000x1 S600000x128 [1] [0] [] [0] [] 1 ![1, 128]
  scatter_S130000x128_S600000x1_S600000x128_1_0_0_1_wf : ScatterDims.WF S130000x128 S600000x1 S600000x128 [1] [0] [0] 1
  scatter_S150000_S1000000x1_S1000000_n_0_0_1_wf : ScatterDims.WF S150000 S1000000x1 S1000000 [] [0] [0] 1
  gather_S150000_S1000000x1_S1000000_n_0_n_n_0_1_1_wf : GatherDims.WF S150000 S1000000x1 S1000000 [] [0] [] [0] [] 1 ![1]
  gather_S150000x128_S1000000x1_S1000000x128_1_0_n_n_0_1_1128_wf : GatherDims.WF S150000x128 S1000000x1 S1000000x128 [1] [0] [] [0] [] 1 ![1, 128]
  scatter_S150000x128_S1000000x1_S1000000x128_1_0_0_1_wf : ScatterDims.WF S150000x128 S1000000x1 S1000000x128 [1] [0] [0] 1
  gather_S50000x128_S500000x1_S500000x128_1_0_n_n_0_1_1128_wf : GatherDims.WF S50000x128 S500000x1 S500000x128 [1] [0] [] [0] [] 1 ![1, 128]
  scatter_S30000x128_S500000x1_S500000x128_1_0_0_1_wf : ScatterDims.WF S30000x128 S500000x1 S500000x128 [1] [0] [0] 1

variable [Facts₀]

def scatter_S130000_S600000x1_S600000_n_0_0_1 : ScatterDims S130000 S600000x1 S600000 where
  updateWindowDims := []
  insertedWindowDims := [0]
  scatterDimsToOperandDims := [0]
  indexVectorDim := 1
  wf := scatter_S130000_S600000x1_S600000_n_0_0_1_wf
def gather_S130000_S600000x1_S600000_n_0_n_n_0_1_1 : GatherDims S130000 S600000x1 S600000 where
  offsetDims := []
  collapsedSliceDims := [0]
  operandBatchingDims := []
  startIndicesBatchingDims := []
  startIndexMap := [0]
  indexVectorDim := 1
  sliceSizes := ![1]
  wf := gather_S130000_S600000x1_S600000_n_0_n_n_0_1_1_wf
def gather_S130000x128_S600000x1_S600000x128_1_0_n_n_0_1_1128 : GatherDims S130000x128 S600000x1 S600000x128 where
  offsetDims := [1]
  collapsedSliceDims := [0]
  operandBatchingDims := []
  startIndicesBatchingDims := []
  startIndexMap := [0]
  indexVectorDim := 1
  sliceSizes := ![1, 128]
  wf := gather_S130000x128_S600000x1_S600000x128_1_0_n_n_0_1_1128_wf
def scatter_S130000x128_S600000x1_S600000x128_1_0_0_1 : ScatterDims S130000x128 S600000x1 S600000x128 where
  updateWindowDims := [1]
  insertedWindowDims := [0]
  scatterDimsToOperandDims := [0]
  indexVectorDim := 1
  wf := scatter_S130000x128_S600000x1_S600000x128_1_0_0_1_wf
def scatter_S150000_S1000000x1_S1000000_n_0_0_1 : ScatterDims S150000 S1000000x1 S1000000 where
  updateWindowDims := []
  insertedWindowDims := [0]
  scatterDimsToOperandDims := [0]
  indexVectorDim := 1
  wf := scatter_S150000_S1000000x1_S1000000_n_0_0_1_wf
def gather_S150000_S1000000x1_S1000000_n_0_n_n_0_1_1 : GatherDims S150000 S1000000x1 S1000000 where
  offsetDims := []
  collapsedSliceDims := [0]
  operandBatchingDims := []
  startIndicesBatchingDims := []
  startIndexMap := [0]
  indexVectorDim := 1
  sliceSizes := ![1]
  wf := gather_S150000_S1000000x1_S1000000_n_0_n_n_0_1_1_wf
def gather_S150000x128_S1000000x1_S1000000x128_1_0_n_n_0_1_1128 : GatherDims S150000x128 S1000000x1 S1000000x128 where
  offsetDims := [1]
  collapsedSliceDims := [0]
  operandBatchingDims := []
  startIndicesBatchingDims := []
  startIndexMap := [0]
  indexVectorDim := 1
  sliceSizes := ![1, 128]
  wf := gather_S150000x128_S1000000x1_S1000000x128_1_0_n_n_0_1_1128_wf
def scatter_S150000x128_S1000000x1_S1000000x128_1_0_0_1 : ScatterDims S150000x128 S1000000x1 S1000000x128 where
  updateWindowDims := [1]
  insertedWindowDims := [0]
  scatterDimsToOperandDims := [0]
  indexVectorDim := 1
  wf := scatter_S150000x128_S1000000x1_S1000000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S30000x128_S500000x1_S500000x128_1_0_0_1 : ScatterDims S30000x128 S500000x1 S500000x128 where
  updateWindowDims := [1]
  insertedWindowDims := [0]
  scatterDimsToOperandDims := [0]
  indexVectorDim := 1
  wf := scatter_S30000x128_S500000x1_S500000x128_1_0_0_1_wf

class Facts : Prop extends Facts₀ where

variable [Facts]
-- ==== Proof.K.Region0.lean ====
import proofs.«137097_j42271068127574_2_alg».proof.Proof.Gen.Kernel.Launch
import proofs.«137097_j42271068127574_2_alg».proof.Proof.Gen.Kernel.Skeleton
import proofs.«137097_j42271068127574_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of the word-level program: the initial combine kernel's body obligation

The pipeline of region 0 has five windows, each a 5000x128 block of f32 staged whole: windows 0, 1 are inputs
(fetched at every point), windows 2, 3, 4 are outputs (written back at every point). The body reads the two
input blocks whole and overwrites the three output blocks whole, with the skeleton's payloads: window 2 gets
`k0_pay3` and window 3 gets `k0_pay4` (both of the block of window 1 first, then the block of window 0),
window 4 gets `k0_pay2` (of the block of window 1 alone). This module states the proof data of the pipeline
at arbitrary region-entry contents `V` and proves the library's body obligation for it. -/

-- membership in a rectangle of these extents: the elaborator's structural look recurses once per coordinate
-- of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body touches: the whole 5000x128 block. -/
abbrev r0 : Rect S5000x128 := Rect.unit (s := S5000x128) ![0, 0] S5000x128.size inb_S5000x128_S5000x128_0_0

/-! ## What the body leaves in each output window's buffer -/

/-- Window 2's staging buffer after the body, from the blocks of input windows 0 and 1: its one store. -/
def out0_2 (x0 x1 : Vec F S5000x128 .f32) : Vec F S5000x128 .f32 :=
  View.canon [⟨r0, k0_pay3 (View.ld x1 r0) (View.ld x0 r0)⟩]

/-- Window 3's staging buffer after the body, from the blocks of input windows 0 and 1: its one store. -/
def out0_3 (x0 x1 : Vec F S5000x128 .f32) : Vec F S5000x128 .f32 :=
  View.canon [⟨r0, k0_pay4 (View.ld x1 r0) (View.ld x0 r0)⟩]

/-- Window 4's staging buffer after the body, from the block of input window 1: its one store. -/
def out0_4 (x1 : Vec F S5000x128 .f32) : Vec F S5000x128 .f32 :=
  View.canon [⟨r0, k0_pay2 (View.ld x1 r0)⟩]

/-- The one store tiles the buffer, so it covers it. -/
theorem cover0 (p0 : Vec F S5000x128 .f32) (y : S5000x128.Idx) :
    ∃ pc ∈ ([⟨r0, p0⟩] : List (View.Piece (Elt F) S5000x128 .f32)), y ∈ pc.1.set :=
  View.cover_of_tiled [⟨r0, p0⟩] S5000x128.size (by rfl) y

/-! ## The body's triple -/

set_option maxHeartbeats 1000000 in
/-- The kernel body on whole staging memrefs, the inputs' at read contents `x0 x1` and the outputs' at anything,
    runs to the continuation holding the inputs' as they were and each output's at `out0_W` of the inputs'. The
    grid coordinate is not read. Each output buffer is loaded just before it is stored; the loaded value is unused. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S5000x128 .f32) (harg5 : arg5.IsWhole)
    (x0 x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x1)) -∗ K ⟨⟩))
      ⊢ wp frame (wpE (defs₀ (F := F)) Variants.none c none) E (cc0__combine_init_kernel i arg1 harg1 arg2 harg2 arg3 harg3 arg4 harg4 arg5 harg5) K := by
  simp only [cc0__combine_init_kernel_eq_skeleton]; unfold cc0__combine_init_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The pipeline's proof data -/

/-- The proof data of the pipeline on core `c`: the arrays as the region finds them (`V`); after the body at
    point `t` each input's buffer at its block and each output's at `out0_W` of the input blocks; the class's
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
import proofs.«137097_j42271068127574_2_alg».proof.Proof.Gen.Kernel.Launch
import proofs.«137097_j42271068127574_2_alg».proof.Proof.Gen.Kernel.Skeleton
import proofs.«137097_j42271068127574_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of the word-level program: the combine kernel's body obligation

The pipeline of region 1 has five windows, each a 5000x128 block of f32 staged whole: windows 0, 1, 2 are
inputs (fetched at every point), windows 3, 4 are outputs (written back at every point). The body reads the
three input blocks whole and overwrites the two output blocks whole, with the skeleton's payloads
`k1_pay1` (of inputs 0, 1) and `k1_pay2` (of inputs 0, 1, 2). This module states the proof data of the
pipeline at arbitrary region-entry contents `V` and proves the library's body obligation for it. -/

-- membership in a rectangle of these extents: the elaborator's structural look recurses once per coordinate
-- of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place: the window is fetched at every point, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The one rectangle the body touches: the whole 5000x128 block. -/
abbrev r1 : Rect S5000x128 := Rect.unit (s := S5000x128) ![0, 0] S5000x128.size inb_S5000x128_S5000x128_0_0

/-! ## What the body leaves in each output window's buffer -/

/-- Window 3's staging buffer after the body, from the blocks of input windows 0 and 1: its one store. -/
def out1_3 (x0 x1 : Vec F S5000x128 .f32) : Vec F S5000x128 .f32 :=
  View.canon [⟨r1, k1_pay1 (View.ld x0 r1) (View.ld x1 r1)⟩]

/-- Window 4's staging buffer after the body, from the blocks of input windows 0, 1 and 2: its one store. -/
def out1_4 (x0 x1 x2 : Vec F S5000x128 .f32) : Vec F S5000x128 .f32 :=
  View.canon [⟨r1, k1_pay2 (View.ld x0 r1) (View.ld x1 r1) (View.ld x2 r1)⟩]

/-- The one store tiles the buffer, so it covers it. -/
theorem cover1 (p0 : Vec F S5000x128 .f32) (y : S5000x128.Idx) :
    ∃ pc ∈ ([⟨r1, p0⟩] : List (View.Piece (Elt F) S5000x128 .f32)), y ∈ pc.1.set :=
  View.cover_of_tiled [⟨r1, p0⟩] S5000x128.size (by rfl) y

/-! ## The body's triple -/

set_option maxHeartbeats 1000000 in
/-- The kernel body on whole staging memrefs, the inputs' at read contents `x0 x1 x2` and the outputs' at anything,
    runs to the continuation holding the inputs' as they were and each output's at `out1_W` of the inputs'. The
    grid coordinate is not read. Each output buffer is loaded just before it is stored; the loaded value is unused. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S5000x128 .f32) (harg5 : arg5.IsWhole)
    (x0 x1 x2 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x1 x2)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1 _)
  iexists _; isplitr
  swap; · iexact H4
  ipureintro
  exact View.read_writes_eq_canon _ _ _ (cover1 _)

/-! ## The pipeline's proof data -/

/-- The proof data of the pipeline on core `c`: the arrays as the region finds them (`V`); after the body at
    point `t` each input's buffer at its block and each output's at `out1_W` of the input blocks; the class's
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
import proofs.«137097_j42271068127574_2_alg».proof.Proof.Gen.Kernel.Launch
import proofs.«137097_j42271068127574_2_alg».proof.Proof.Gen.Kernel.Skeleton
import proofs.«137097_j42271068127574_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of the word-level program: the initial combine kernel's body obligation

The pipeline of region 2 has five windows, each a 5000x128 block of f32 staged whole: windows 0, 1 are inputs
(fetched at every point), windows 2, 3, 4 are outputs (written back at every point). The body reads the two
input blocks whole and overwrites the three output blocks whole, with the skeleton's payloads: window 2 gets
`k2_pay3` and window 3 gets `k2_pay4` (both of the block of window 1 first, then the block of window 0),
window 4 gets `k2_pay2` (of the block of window 1 alone). This module states the proof data of the pipeline
at arbitrary region-entry contents `V` and proves the library's body obligation for it. -/

-- membership in a rectangle of these extents: the elaborator's structural look recurses once per coordinate
-- of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s and whose body leaves the block in place: the window is fetched at every point, uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The one rectangle the body touches: the whole 5000x128 block. -/
abbrev r2 : Rect S5000x128 := Rect.unit (s := S5000x128) ![0, 0] S5000x128.size inb_S5000x128_S5000x128_0_0

/-! ## What the body leaves in each output window's buffer -/

/-- Window 2's staging buffer after the body, from the blocks of input windows 0 and 1: its one store. -/
def out2_2 (x0 x1 : Vec F S5000x128 .f32) : Vec F S5000x128 .f32 :=
  View.canon [⟨r2, k2_pay3 (View.ld x1 r2) (View.ld x0 r2)⟩]

/-- Window 3's staging buffer after the body, from the blocks of input windows 0 and 1: its one store. -/
def out2_3 (x0 x1 : Vec F S5000x128 .f32) : Vec F S5000x128 .f32 :=
  View.canon [⟨r2, k2_pay4 (View.ld x1 r2) (View.ld x0 r2)⟩]

/-- Window 4's staging buffer after the body, from the block of input window 1: its one store. -/
def out2_4 (x1 : Vec F S5000x128 .f32) : Vec F S5000x128 .f32 :=
  View.canon [⟨r2, k2_pay2 (View.ld x1 r2)⟩]

/-- The one store tiles the buffer, so it covers it. -/
theorem cover2 (p0 : Vec F S5000x128 .f32) (y : S5000x128.Idx) :
    ∃ pc ∈ ([⟨r2, p0⟩] : List (View.Piece (Elt F) S5000x128 .f32)), y ∈ pc.1.set :=
  View.cover_of_tiled [⟨r2, p0⟩] S5000x128.size (by rfl) y

/-! ## The body's triple -/

set_option maxHeartbeats 1000000 in
/-- The kernel body on whole staging memrefs, the inputs' at read contents `x0 x1` and the outputs' at anything,
    runs to the continuation holding the inputs' as they were and each output's at `out2_W` of the inputs'. The
    grid coordinate is not read. Each output buffer is loaded just before it is stored; the loaded value is unused. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S5000x128 .f32) (harg5 : arg5.IsWhole)
    (x0 x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out2_2 x0 x1) ∗ owns (c : Thread nD τ) arg4 fullShare (out2_3 x0 x1)
            ∗ owns (c : Thread nD τ) arg5 fullShare (out2_4 x1)) -∗ K ⟨⟩))
      ⊢ wp frame (wpE (defs₀ (F := F)) Variants.none c none) E (cc2__combine_init_kernel i arg1 harg1 arg2 harg2 arg3 harg3 arg4 harg4 arg5 harg5) K := by
  simp only [cc2__combine_init_kernel_eq_skeleton]; unfold cc2__combine_init_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  isplitl [H3]
  · iexists _; isplitr
    swap; · iexact H3
    ipureintro
    exact View.read_writes_eq_canon _ _ _ (cover2 _)
  iexists _; isplitr
  swap; · iexact H4
  ipureintro
  exact View.read_writes_eq_canon _ _ _ (cover2 _)

/-! ## The pipeline's proof data -/

/-- The proof data of the pipeline on core `c`: the arrays as the region finds them (`V`); after the body at
    point `t` each input's buffer at its block and each output's at `out2_W` of the input blocks; the class's
    invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
    | ⟨4, _⟩ => out2_4 (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
import proofs.«137097_j42271068127574_2_alg».proof.Proof.Gen.Kernel.Launch
import proofs.«137097_j42271068127574_2_alg».proof.Proof.Gen.Kernel.Skeleton
import proofs.«137097_j42271068127574_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of the word-level program: the combine kernel's body obligation

The pipeline of region 3 has five windows, each a 5000x128 block of f32 staged whole: windows 0, 1, 2 are
inputs (fetched at every point), windows 3, 4 are outputs (written back at every point). The body reads the
three input blocks whole and overwrites the two output blocks whole, with the skeleton's payloads
`k3_pay1` (of inputs 0, 1) and `k3_pay2` (of inputs 0, 1, 2). This module states the proof data of the
pipeline at arbitrary region-entry contents `V` and proves the library's body obligation for it. -/

-- membership in a rectangle of these extents: the elaborator's structural look recurses once per coordinate
-- of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place: the window is fetched at every point, uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The same for input window 2. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The one rectangle the body touches: the whole 5000x128 block. -/
abbrev r3 : Rect S5000x128 := Rect.unit (s := S5000x128) ![0, 0] S5000x128.size inb_S5000x128_S5000x128_0_0

/-! ## What the body leaves in each output window's buffer -/

/-- Window 3's staging buffer after the body, from the blocks of input windows 0 and 1: its one store. -/
def out3_3 (x0 x1 : Vec F S5000x128 .f32) : Vec F S5000x128 .f32 :=
  View.canon [⟨r3, k3_pay1 (View.ld x0 r3) (View.ld x1 r3)⟩]

/-- Window 4's staging buffer after the body, from the blocks of input windows 0, 1 and 2: its one store. -/
def out3_4 (x0 x1 x2 : Vec F S5000x128 .f32) : Vec F S5000x128 .f32 :=
  View.canon [⟨r3, k3_pay2 (View.ld x0 r3) (View.ld x1 r3) (View.ld x2 r3)⟩]

/-- The one store tiles the buffer, so it covers it. -/
theorem cover3 (p0 : Vec F S5000x128 .f32) (y : S5000x128.Idx) :
    ∃ pc ∈ ([⟨r3, p0⟩] : List (View.Piece (Elt F) S5000x128 .f32)), y ∈ pc.1.set :=
  View.cover_of_tiled [⟨r3, p0⟩] S5000x128.size (by rfl) y

/-! ## The body's triple -/

set_option maxHeartbeats 1000000 in
/-- The kernel body on whole staging memrefs, the inputs' at read contents `x0 x1 x2` and the outputs' at anything,
    runs to the continuation holding the inputs' as they were and each output's at `out3_W` of the inputs'. The
    grid coordinate is not read. Each output buffer is loaded just before it is stored; the loaded value is unused. -/
theorem sound_kernel3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S5000x128 .f32) (harg5 : arg5.IsWhole)
    (x0 x1 x2 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1) ∗ owns (c : Thread nD τ) arg5 fullShare (out3_4 x0 x1 x2)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3 _)
  iexists _; isplitr
  swap; · iexact H4
  ipureintro
  exact View.read_writes_eq_canon _ _ _ (cover3 _)

/-! ## The pipeline's proof data -/

/-- The proof data of the pipeline on core `c`: the arrays as the region finds them (`V`); after the body at
    point `t` each input's buffer at its block and each output's at `out3_W` of the input blocks; the class's
    invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
import proofs.«137097_j42271068127574_2_alg».proof.Proof.K.Region0
import proofs.«137097_j42271068127574_2_alg».proof.Proof.K.Region1
import proofs.«137097_j42271068127574_2_alg».proof.Proof.K.Region2
import proofs.«137097_j42271068127574_2_alg».proof.Proof.K.Region3
import proofs.«137097_j42271068127574_2_alg».proof.Proof.Gen.Kernel.Regions

/-! # The run of @main: four kernel regions among five stretches of host operations

The contents of every unscoped buffer at each boundary between two items of @main are a fold from the launch memory:
a stretch of host operations applies its operations in order; a kernel region leaves its windows' arrays at what the
pipeline's write-backs leave (the input arrays as entered, each output array with every grid point's block written
back) and every other buffer as entered. The run theorem says that every weakly fair execution terminates with the
result buffer at the last boundary's contents and every argument buffer as launched: no host operation and no region
writes an argument. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the core's references (what region 0's proof data take). -/
abbrev At1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (At1 m ρ) c).arrAt w cfg0.N
theorem W2_arr (c : Dev nD) (w : Fin cfg0.W) :
    W2 m ρ c (Proc.devRef .tc (Pipeline.arrRef spec0 w)) = (dat0 (At1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (region 0's exit contents). -/
abbrev At2 : (c : Dev nD) → (b : Ref sig .tc) → Buf (Elt F) ((c : Thread nD τ).loc b) := fun c b => W2 m ρ c b
theorem hF0 (c : Dev nD) (w : Fin cfg0.W) : (dat0 (At1 m ρ) c).arrAt w cfg0.N = At2 m ρ c (Pipeline.arrRef spec0 w) :=
  (W2_arr m ρ c w).symm
theorem hrest0 (c : Dev nD) : ∀ b, b ∉ Finset.univ.image (Pipeline.arrRef spec0) → At2 m ρ c b = At1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the core's references (what region 1's proof data take). -/
abbrev At3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (At3 m ρ) c).arrAt w cfg1.N
theorem W4_arr (c : Dev nD) (w : Fin cfg1.W) :
    W4 m ρ c (Proc.devRef .tc (Pipeline.arrRef spec1 w)) = (dat1 (At3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references (region 1's exit contents). -/
abbrev At4 : (c : Dev nD) → (b : Ref sig .tc) → Buf (Elt F) ((c : Thread nD τ).loc b) := fun c b => W4 m ρ c b
theorem hF1 (c : Dev nD) (w : Fin cfg1.W) : (dat1 (At3 m ρ) c).arrAt w cfg1.N = At4 m ρ c (Pipeline.arrRef spec1 w) :=
  (W4_arr m ρ c w).symm
theorem hrest1 (c : Dev nD) : ∀ b, b ∉ Finset.univ.image (Pipeline.arrRef spec1) → At4 m ρ c b = At3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the core's references (what region 2's proof data take). -/
abbrev At5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (At5 m ρ) c).arrAt w cfg2.N
theorem W6_arr (c : Dev nD) (w : Fin cfg2.W) :
    W6 m ρ c (Proc.devRef .tc (Pipeline.arrRef spec2 w)) = (dat2 (At5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the core's references (region 2's exit contents). -/
abbrev At6 : (c : Dev nD) → (b : Ref sig .tc) → Buf (Elt F) ((c : Thread nD τ).loc b) := fun c b => W6 m ρ c b
theorem hF2 (c : Dev nD) (w : Fin cfg2.W) : (dat2 (At5 m ρ) c).arrAt w cfg2.N = At6 m ρ c (Pipeline.arrRef spec2 w) :=
  (W6_arr m ρ c w).symm
theorem hrest2 (c : Dev nD) : ∀ b, b ∉ Finset.univ.image (Pipeline.arrRef spec2) → At6 m ρ c b = At5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the core's references (what region 3's proof data take). -/
abbrev At7 : (c : Dev nD) → (b : Ref sig .tc) → Buf (Elt F) ((c : Thread nD τ).loc b) := fun c b => W7 m ρ c b
/-- At region 3's exit: its arrays at what the pipeline leaves (the inputs as entered, each output's write-backs
    folded), every other buffer as entered. -/
def W8 (c : Dev nD) : Valuation τ sig (Elt F) :=
  Pipeline.withArrays spec3 c (W7 m ρ c) fun w => (dat3 (At7 m ρ) c).arrAt w cfg3.N
theorem W8_arr (c : Dev nD) (w : Fin cfg3.W) :
    W8 m ρ c (Proc.devRef .tc (Pipeline.arrRef spec3 w)) = (dat3 (At7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the core's references (region 3's exit contents). -/
abbrev At8 : (c : Dev nD) → (b : Ref sig .tc) → Buf (Elt F) ((c : Thread nD τ).loc b) := fun c b => W8 m ρ c b
theorem hF3 (c : Dev nD) (w : Fin cfg3.W) : (dat3 (At7 m ρ) c).arrAt w cfg3.N = At8 m ρ c (Pipeline.arrRef spec3 w) :=
  (W8_arr m ρ c w).symm
theorem hrest3 (c : Dev nD) : ∀ b, b ∉ Finset.univ.image (Pipeline.arrRef spec3) → At8 m ρ c b = At7 m ρ c b :=
  fun b hb => W8_of_ne m ρ c b fun w e => hb (Finset.mem_image.mpr ⟨w, Finset.mem_univ _, e⟩)

/-- After `hostOps4` (the return). -/
abbrev W9 : Dev nD → Valuation τ sig (Elt F) := fun c => StableHlo.after hostOps4 (W8 m ρ c)

/-- A buffer that no host operation writes and that is no window's array ends as launched. -/
theorem W9_keep (c : Dev nD) (r : Ref sig .tc) (h0 : r ∉ hostOps0_W) (h1 : r ∉ hostOps1_W) (h2 : r ∉ hostOps2_W) (h3 : r ∉ hostOps3_W) (h4 : r ∉ hostOps4_W) (a0 : ∀ w, Pipeline.arrRef spec0 w ≠ r) (a1 : ∀ w, Pipeline.arrRef spec1 w ≠ r) (a2 : ∀ w, Pipeline.arrRef spec2 w ≠ r) (a3 : ∀ w, Pipeline.arrRef spec3 w ≠ r) :
    W9 m ρ c (Proc.devRef .tc r) = m ((c : Thread nD τ).loc r) :=
  calc W9 m ρ c (Proc.devRef .tc r)
    _ = W8 m ρ c (Proc.devRef .tc r) := StableHlo.after_of_writes_sub hostOps4 _ hostOps4_writes h4
    _ = W7 m ρ c (Proc.devRef .tc r) := W8_of_ne m ρ c r a3
    _ = W6 m ρ c (Proc.devRef .tc r) := StableHlo.after_of_writes_sub hostOps3 _ hostOps3_writes h3
    _ = W5 m ρ c (Proc.devRef .tc r) := W6_of_ne m ρ c r a2
    _ = W4 m ρ c (Proc.devRef .tc r) := StableHlo.after_of_writes_sub hostOps2 _ hostOps2_writes h2
    _ = W3 m ρ c (Proc.devRef .tc r) := W4_of_ne m ρ c r a1
    _ = W2 m ρ c (Proc.devRef .tc r) := StableHlo.after_of_writes_sub hostOps1 _ hostOps1_writes h1
    _ = W1 m ρ c (Proc.devRef .tc r) := W2_of_ne m ρ c r a0
    _ = W0 m ρ c (Proc.devRef .tc r) := StableHlo.after_of_writes_sub hostOps0 _ hostOps0_writes h0
    _ = m ((c : Thread nD τ).loc r) := rfl

/-- The same up to each earlier boundary. -/
theorem W1_keep (c : Dev nD) (r : Ref sig .tc) (h0 : r ∉ hostOps0_W) :
    W1 m ρ c (Proc.devRef .tc r) = m ((c : Thread nD τ).loc r) :=
  (StableHlo.after_of_writes_sub hostOps0 _ hostOps0_writes h0).trans rfl
theorem W3_keep (c : Dev nD) (r : Ref sig .tc) (h0 : r ∉ hostOps0_W) (h1 : r ∉ hostOps1_W) (a0 : ∀ w, Pipeline.arrRef spec0 w ≠ r) :
    W3 m ρ c (Proc.devRef .tc r) = m ((c : Thread nD τ).loc r) :=
  (StableHlo.after_of_writes_sub hostOps1 _ hostOps1_writes h1).trans ((W2_of_ne m ρ c r a0).trans (W1_keep m ρ c r h0))
theorem W4_keep (c : Dev nD) (r : Ref sig .tc) (h0 : r ∉ hostOps0_W) (h1 : r ∉ hostOps1_W) (a0 : ∀ w, Pipeline.arrRef spec0 w ≠ r)
    (a1 : ∀ w, Pipeline.arrRef spec1 w ≠ r) : W4 m ρ c (Proc.devRef .tc r) = m ((c : Thread nD τ).loc r) :=
  (W4_of_ne m ρ c r a1).trans (W3_keep m ρ c r h0 h1 a0)
theorem W6_keep (c : Dev nD) (r : Ref sig .tc) (h0 : r ∉ hostOps0_W) (h1 : r ∉ hostOps1_W) (h2 : r ∉ hostOps2_W) (a0 : ∀ w, Pipeline.arrRef spec0 w ≠ r)
    (a1 : ∀ w, Pipeline.arrRef spec1 w ≠ r) (a2 : ∀ w, Pipeline.arrRef spec2 w ≠ r) : W6 m ρ c (Proc.devRef .tc r) = m ((c : Thread nD τ).loc r) :=
  (W6_of_ne m ρ c r a2).trans ((StableHlo.after_of_writes_sub hostOps2 _ hostOps2_writes h2).trans (W4_keep m ρ c r h0 h1 a0 a1))
theorem W8_keep (c : Dev nD) (r : Ref sig .tc) (h0 : r ∉ hostOps0_W) (h1 : r ∉ hostOps1_W) (h2 : r ∉ hostOps2_W) (h3 : r ∉ hostOps3_W) (a0 : ∀ w, Pipeline.arrRef spec0 w ≠ r)
    (a1 : ∀ w, Pipeline.arrRef spec1 w ≠ r) (a2 : ∀ w, Pipeline.arrRef spec2 w ≠ r) (a3 : ∀ w, Pipeline.arrRef spec3 w ≠ r) : W8 m ρ c (Proc.devRef .tc r) = m ((c : Thread nD τ).loc r) :=
  (W8_of_ne m ρ c r a3).trans ((StableHlo.after_of_writes_sub hostOps3 _ hostOps3_writes h3).trans (W6_keep m ρ c r h0 h1 h2 a0 a1 a2))

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (At1 m ρ) c
  | ⟨1, _⟩ => fun c => dat1 (At3 m ρ) c
  | ⟨2, _⟩ => fun c => dat2 (At5 m ρ) c
  | ⟨3, _⟩ => fun c => dat3 (At7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as an item of the run, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W9 m ρ c) ∗ ∃ r, prngReg c r)

/-! ## The regions as items of the run -/

set_option backward.isDefEq.respectTransparency.types false in
/-- Region 0 over the thread state: entered from every unscoped buffer at `W1`, left at `W2`. Its arrays are split
    out of the unscoped buffers and put back at the exit contents; the generator register goes into the class invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (At1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (At1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (At1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (At1 m ρ c) (At2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the class invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (At3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (At3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (At3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (At3 m ρ c) (At4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the class invariant
    and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (At5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (At5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (At5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (At5 m ρ c) (At6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the generator register goes into the class invariant
    and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (At7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (At7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (At7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (At7 m ρ c) (At8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- @main's nine items in order. -/
abbrev items : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main is the run of its items. -/
theorem main_run (c : Dev nD) : main (F := F) c = Pipeline.Seg.run (items m ρ) := (main_chain c).trans (by chain_rfl)

set_option backward.isDefEq.respectTransparency.types false in
/-- THE RUN. From any memory with zero counters every weakly fair execution of @main terminates, nothing faulting, and
    the final state holds the result buffer at the last boundary's contents and every argument buffer as launched. -/
theorem run_main : θ_run defs (onTc (τ := τ) (main (F := F))) ⟨m, fun _ => 0, ρ⟩ (fun r => ∀ c : Dev nD,
      r.2.mem ((c.tc : Thread nD τ).loc main_v135) = W9 m ρ c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      show iprop(StableHlo.held (c.tc : Thread nD τ) (Pipeline.ucRefs τ sig) (StableHlo.after hostOps4 (W8 m ρ c)) ∗ R c) ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v135 (by decide)),
       (h c _ (mem_uc main_arg0 (by decide))).trans (W9_keep m ρ c main_arg0 (by decide) (by decide) (by decide) (by decide) (by decide) (by decide) (by decide) (by decide) (by decide)),
       (h c _ (mem_uc main_arg1 (by decide))).trans (W9_keep m ρ c main_arg1 (by decide) (by decide) (by decide) (by decide) (by decide) (by decide) (by decide) (by decide) (by decide)),
       (h c _ (mem_uc main_arg2 (by decide))).trans (W9_keep m ρ c main_arg2 (by decide) (by decide) (by decide) (by decide) (by decide) (by decide) (by decide) (by decide) (by decide)),
       (h c _ (mem_uc main_arg3 (by decide))).trans (W9_keep m ρ c main_arg3 (by decide) (by decide) (by decide) (by decide) (by decide) (by decide) (by decide) (by decide) (by decide)),
       (h c _ (mem_uc main_arg4 (by decide))).trans (W9_keep m ρ c main_arg4 (by decide) (by decide) (by decide) (by decide) (by decide) (by decide) (by decide) (by decide) (by decide)),
       (h c _ (mem_uc main_arg5 (by decide))).trans (W9_keep m ρ c main_arg5 (by decide) (by decide) (by decide) (by decide) (by decide) (by decide) (by decide) (by decide) (by decide)),
       (h c _ (mem_uc main_arg6 (by decide))).trans (W9_keep m ρ c main_arg6 (by decide) (by decide) (by decide) (by decide) (by decide) (by decide) (by decide) (by decide) (by decide)),
       (h c _ (mem_uc main_arg7 (by decide))).trans (W9_keep m ρ c main_arg7 (by decide) (by decide) (by decide) (by decide) (by decide) (by decide) (by decide) (by decide) (by decide)),
       (h c _ (mem_uc main_arg8 (by decide))).trans (W9_keep m ρ c main_arg8 (by decide) (by decide) (by decide) (by decide) (by decide) (by decide) (by decide) (by decide) (by decide)),
       (h c _ (mem_uc main_arg9 (by decide))).trans (W9_keep m ρ c main_arg9 (by decide) (by decide) (by decide) (by decide) (by decide) (by decide) (by decide) (by decide) (by decide))⟩)

end Cert.Kernel.Hand

end
-- ==== Proof.KI.Region0.lean ====
import proofs.«137097_j42271068127574_2_alg».proof.Proof.Gen.KernelIdeal.Launch
import proofs.«137097_j42271068127574_2_alg».proof.Proof.Gen.KernelIdeal.Skeleton
import proofs.«137097_j42271068127574_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of the ideal-instance program: the initial combine kernel's body obligation

The pipeline of region 0 has five windows, each a 5000x128 block of f32 staged whole: windows 0, 1 are inputs
(fetched at every point), windows 2, 3, 4 are outputs (written back at every point). The body reads the two
input blocks whole and overwrites the three output blocks whole, with the skeleton's payloads: window 2 gets
`k0_pay3` and window 3 gets `k0_pay4` (both of the block of window 1 first, then the block of window 0),
window 4 gets `k0_pay2` (of the block of window 1 alone). This module states the proof data of the pipeline
at arbitrary region-entry contents `V` and proves the library's body obligation for it. -/

-- membership in a rectangle of these extents: the elaborator's structural look recurses once per coordinate
-- of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body touches: the whole 5000x128 block. -/
abbrev r0 : Rect S5000x128 := Rect.unit (s := S5000x128) ![0, 0] S5000x128.size inb_S5000x128_S5000x128_0_0

/-! ## What the body leaves in each output window's buffer -/

/-- Window 2's staging buffer after the body, from the blocks of input windows 0 and 1: its one store. -/
def out0_2 (x0 x1 : Vec F S5000x128 .f32) : Vec F S5000x128 .f32 :=
  View.canon [⟨r0, k0_pay3 (View.ld x1 r0) (View.ld x0 r0)⟩]

/-- Window 3's staging buffer after the body, from the blocks of input windows 0 and 1: its one store. -/
def out0_3 (x0 x1 : Vec F S5000x128 .f32) : Vec F S5000x128 .f32 :=
  View.canon [⟨r0, k0_pay4 (View.ld x1 r0) (View.ld x0 r0)⟩]

/-- Window 4's staging buffer after the body, from the block of input window 1: its one store. -/
def out0_4 (x1 : Vec F S5000x128 .f32) : Vec F S5000x128 .f32 :=
  View.canon [⟨r0, k0_pay2 (View.ld x1 r0)⟩]

/-- The one store tiles the buffer, so it covers it. -/
theorem cover0 (p0 : Vec F S5000x128 .f32) (y : S5000x128.Idx) :
    ∃ pc ∈ ([⟨r0, p0⟩] : List (View.Piece (Elt F) S5000x128 .f32)), y ∈ pc.1.set :=
  View.cover_of_tiled [⟨r0, p0⟩] S5000x128.size (by rfl) y

/-! ## The body's triple -/

set_option maxHeartbeats 1000000 in
/-- The kernel body on whole staging memrefs, the inputs' at read contents `x0 x1` and the outputs' at anything,
    runs to the continuation holding the inputs' as they were and each output's at `out0_W` of the inputs'. The
    grid coordinate is not read. Each output buffer is loaded just before it is stored; the loaded value is unused. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S5000x128 .f32) (harg5 : arg5.IsWhole)
    (x0 x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x1)) -∗ K ⟨⟩))
      ⊢ wp frame (wpE (defs₀ (F := F)) Variants.none c none) E (cc0__combine_init_kernel i arg1 harg1 arg2 harg2 arg3 harg3 arg4 harg4 arg5 harg5) K := by
  simp only [cc0__combine_init_kernel_eq_skeleton]; unfold cc0__combine_init_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The pipeline's proof data -/

/-- The proof data of the pipeline on core `c`: the arrays as the region finds them (`V`); after the body at
    point `t` each input's buffer at its block and each output's at `out0_W` of the input blocks; the class's
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«137097_j42271068127574_2_alg».proof.Proof.Gen.KernelIdeal.Launch
import proofs.«137097_j42271068127574_2_alg».proof.Proof.Gen.KernelIdeal.Skeleton
import proofs.«137097_j42271068127574_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of the ideal-instance program: the combine kernel's body obligation

The pipeline of region 1 has five windows, each a 5000x128 block of f32 staged whole: windows 0, 1, 2 are
inputs (fetched at every point), windows 3, 4 are outputs (written back at every point). The body reads the
three input blocks whole and overwrites the two output blocks whole, with the skeleton's payloads
`k1_pay1` (of inputs 0, 1) and `k1_pay2` (of inputs 0, 1, 2). This module states the proof data of the
pipeline at arbitrary region-entry contents `V` and proves the library's body obligation for it. -/

-- membership in a rectangle of these extents: the elaborator's structural look recurses once per coordinate
-- of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place: the window is fetched at every point, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The one rectangle the body touches: the whole 5000x128 block. -/
abbrev r1 : Rect S5000x128 := Rect.unit (s := S5000x128) ![0, 0] S5000x128.size inb_S5000x128_S5000x128_0_0

/-! ## What the body leaves in each output window's buffer -/

/-- Window 3's staging buffer after the body, from the blocks of input windows 0 and 1: its one store. -/
def out1_3 (x0 x1 : Vec F S5000x128 .f32) : Vec F S5000x128 .f32 :=
  View.canon [⟨r1, k1_pay1 (View.ld x0 r1) (View.ld x1 r1)⟩]

/-- Window 4's staging buffer after the body, from the blocks of input windows 0, 1 and 2: its one store. -/
def out1_4 (x0 x1 x2 : Vec F S5000x128 .f32) : Vec F S5000x128 .f32 :=
  View.canon [⟨r1, k1_pay2 (View.ld x0 r1) (View.ld x1 r1) (View.ld x2 r1)⟩]

/-- The one store tiles the buffer, so it covers it. -/
theorem cover1 (p0 : Vec F S5000x128 .f32) (y : S5000x128.Idx) :
    ∃ pc ∈ ([⟨r1, p0⟩] : List (View.Piece (Elt F) S5000x128 .f32)), y ∈ pc.1.set :=
  View.cover_of_tiled [⟨r1, p0⟩] S5000x128.size (by rfl) y

/-! ## The body's triple -/

set_option maxHeartbeats 1000000 in
/-- The kernel body on whole staging memrefs, the inputs' at read contents `x0 x1 x2` and the outputs' at anything,
    runs to the continuation holding the inputs' as they were and each output's at `out1_W` of the inputs'. The
    grid coordinate is not read. Each output buffer is loaded just before it is stored; the loaded value is unused. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S5000x128 .f32) (harg5 : arg5.IsWhole)
    (x0 x1 x2 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x1 x2)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1 _)
  iexists _; isplitr
  swap; · iexact H4
  ipureintro
  exact View.read_writes_eq_canon _ _ _ (cover1 _)

/-! ## The pipeline's proof data -/

/-- The proof data of the pipeline on core `c`: the arrays as the region finds them (`V`); after the body at
    point `t` each input's buffer at its block and each output's at `out1_W` of the input blocks; the class's
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«137097_j42271068127574_2_alg».proof.Proof.Gen.KernelIdeal.Launch
import proofs.«137097_j42271068127574_2_alg».proof.Proof.Gen.KernelIdeal.Skeleton
import proofs.«137097_j42271068127574_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of the ideal-instance program: the initial combine kernel's body obligation

The pipeline of region 2 has five windows, each a 5000x128 block of f32 staged whole: windows 0, 1 are inputs
(fetched at every point), windows 2, 3, 4 are outputs (written back at every point). The body reads the two
input blocks whole and overwrites the three output blocks whole, with the skeleton's payloads: window 2 gets
`k2_pay3` and window 3 gets `k2_pay4` (both of the block of window 1 first, then the block of window 0),
window 4 gets `k2_pay2` (of the block of window 1 alone). This module states the proof data of the pipeline
at arbitrary region-entry contents `V` and proves the library's body obligation for it. -/

-- membership in a rectangle of these extents: the elaborator's structural look recurses once per coordinate
-- of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s and whose body leaves the block in place: the window is fetched at every point, uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The one rectangle the body touches: the whole 5000x128 block. -/
abbrev r2 : Rect S5000x128 := Rect.unit (s := S5000x128) ![0, 0] S5000x128.size inb_S5000x128_S5000x128_0_0

/-! ## What the body leaves in each output window's buffer -/

/-- Window 2's staging buffer after the body, from the blocks of input windows 0 and 1: its one store. -/
def out2_2 (x0 x1 : Vec F S5000x128 .f32) : Vec F S5000x128 .f32 :=
  View.canon [⟨r2, k2_pay3 (View.ld x1 r2) (View.ld x0 r2)⟩]

/-- Window 3's staging buffer after the body, from the blocks of input windows 0 and 1: its one store. -/
def out2_3 (x0 x1 : Vec F S5000x128 .f32) : Vec F S5000x128 .f32 :=
  View.canon [⟨r2, k2_pay4 (View.ld x1 r2) (View.ld x0 r2)⟩]

/-- Window 4's staging buffer after the body, from the block of input window 1: its one store. -/
def out2_4 (x1 : Vec F S5000x128 .f32) : Vec F S5000x128 .f32 :=
  View.canon [⟨r2, k2_pay2 (View.ld x1 r2)⟩]

/-- The one store tiles the buffer, so it covers it. -/
theorem cover2 (p0 : Vec F S5000x128 .f32) (y : S5000x128.Idx) :
    ∃ pc ∈ ([⟨r2, p0⟩] : List (View.Piece (Elt F) S5000x128 .f32)), y ∈ pc.1.set :=
  View.cover_of_tiled [⟨r2, p0⟩] S5000x128.size (by rfl) y

/-! ## The body's triple -/

set_option maxHeartbeats 1000000 in
/-- The kernel body on whole staging memrefs, the inputs' at read contents `x0 x1` and the outputs' at anything,
    runs to the continuation holding the inputs' as they were and each output's at `out2_W` of the inputs'. The
    grid coordinate is not read. Each output buffer is loaded just before it is stored; the loaded value is unused. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S5000x128 .f32) (harg5 : arg5.IsWhole)
    (x0 x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out2_2 x0 x1) ∗ owns (c : Thread nD τ) arg4 fullShare (out2_3 x0 x1)
            ∗ owns (c : Thread nD τ) arg5 fullShare (out2_4 x1)) -∗ K ⟨⟩))
      ⊢ wp frame (wpE (defs₀ (F := F)) Variants.none c none) E (cc2__combine_init_kernel i arg1 harg1 arg2 harg2 arg3 harg3 arg4 harg4 arg5 harg5) K := by
  simp only [cc2__combine_init_kernel_eq_skeleton]; unfold cc2__combine_init_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  isplitl [H3]
  · iexists _; isplitr
    swap; · iexact H3
    ipureintro
    exact View.read_writes_eq_canon _ _ _ (cover2 _)
  iexists _; isplitr
  swap; · iexact H4
  ipureintro
  exact View.read_writes_eq_canon _ _ _ (cover2 _)

/-! ## The pipeline's proof data -/

/-- The proof data of the pipeline on core `c`: the arrays as the region finds them (`V`); after the body at
    point `t` each input's buffer at its block and each output's at `out2_W` of the input blocks; the class's
    invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
    | ⟨4, _⟩ => out2_4 (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
import proofs.«137097_j42271068127574_2_alg».proof.Proof.Gen.KernelIdeal.Launch
import proofs.«137097_j42271068127574_2_alg».proof.Proof.Gen.KernelIdeal.Skeleton
import proofs.«137097_j42271068127574_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of the ideal-instance program: the combine kernel's body obligation

The pipeline of region 3 has five windows, each a 5000x128 block of f32 staged whole: windows 0, 1, 2 are
inputs (fetched at every point), windows 3, 4 are outputs (written back at every point). The body reads the
three input blocks whole and overwrites the two output blocks whole, with the skeleton's payloads
`k3_pay1` (of inputs 0, 1) and `k3_pay2` (of inputs 0, 1, 2). This module states the proof data of the
pipeline at arbitrary region-entry contents `V` and proves the library's body obligation for it. -/

-- membership in a rectangle of these extents: the elaborator's structural look recurses once per coordinate
-- of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place: the window is fetched at every point, uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The same for input window 2. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The one rectangle the body touches: the whole 5000x128 block. -/
abbrev r3 : Rect S5000x128 := Rect.unit (s := S5000x128) ![0, 0] S5000x128.size inb_S5000x128_S5000x128_0_0

/-! ## What the body leaves in each output window's buffer -/

/-- Window 3's staging buffer after the body, from the blocks of input windows 0 and 1: its one store. -/
def out3_3 (x0 x1 : Vec F S5000x128 .f32) : Vec F S5000x128 .f32 :=
  View.canon [⟨r3, k3_pay1 (View.ld x0 r3) (View.ld x1 r3)⟩]

/-- Window 4's staging buffer after the body, from the blocks of input windows 0, 1 and 2: its one store. -/
def out3_4 (x0 x1 x2 : Vec F S5000x128 .f32) : Vec F S5000x128 .f32 :=
  View.canon [⟨r3, k3_pay2 (View.ld x0 r3) (View.ld x1 r3) (View.ld x2 r3)⟩]

/-- The one store tiles the buffer, so it covers it. -/
theorem cover3 (p0 : Vec F S5000x128 .f32) (y : S5000x128.Idx) :
    ∃ pc ∈ ([⟨r3, p0⟩] : List (View.Piece (Elt F) S5000x128 .f32)), y ∈ pc.1.set :=
  View.cover_of_tiled [⟨r3, p0⟩] S5000x128.size (by rfl) y

/-! ## The body's triple -/

set_option maxHeartbeats 1000000 in
/-- The kernel body on whole staging memrefs, the inputs' at read contents `x0 x1 x2` and the outputs' at anything,
    runs to the continuation holding the inputs' as they were and each output's at `out3_W` of the inputs'. The
    grid coordinate is not read. Each output buffer is loaded just before it is stored; the loaded value is unused. -/
theorem sound_kernel3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S5000x128 .f32) (harg5 : arg5.IsWhole)
    (x0 x1 x2 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1) ∗ owns (c : Thread nD τ) arg5 fullShare (out3_4 x0 x1 x2)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3 _)
  iexists _; isplitr
  swap; · iexact H4
  ipureintro
  exact View.read_writes_eq_canon _ _ _ (cover3 _)

/-! ## The pipeline's proof data -/

/-- The proof data of the pipeline on core `c`: the arrays as the region finds them (`V`); after the body at
    point `t` each input's buffer at its block and each output's at `out3_W` of the input blocks; the class's
    invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
import proofs.«137097_j42271068127574_2_alg».proof.Proof.KI.Region0
import proofs.«137097_j42271068127574_2_alg».proof.Proof.KI.Region1
import proofs.«137097_j42271068127574_2_alg».proof.Proof.KI.Region2
import proofs.«137097_j42271068127574_2_alg».proof.Proof.KI.Region3
import proofs.«137097_j42271068127574_2_alg».proof.Proof.Gen.KernelIdeal.Regions

/-! # The run of @main: four kernel regions among five stretches of host operations

The contents of every unscoped buffer at each boundary between two items of @main are a fold from the launch memory:
a stretch of host operations applies its operations in order; a kernel region leaves its windows' arrays at what the
pipeline's write-backs leave (the input arrays as entered, each output array with every grid point's block written
back) and every other buffer as entered. The run theorem says that every weakly fair execution terminates with the
result buffer at the last boundary's contents and every argument buffer as launched: no host operation and no region
writes an argument. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the core's references (what region 0's proof data take). -/
abbrev At1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (At1 m ρ) c).arrAt w cfg0.N
theorem W2_arr (c : Dev nD) (w : Fin cfg0.W) :
    W2 m ρ c (Proc.devRef .tc (Pipeline.arrRef spec0 w)) = (dat0 (At1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (region 0's exit contents). -/
abbrev At2 : (c : Dev nD) → (b : Ref sig .tc) → Buf (Elt F) ((c : Thread nD τ).loc b) := fun c b => W2 m ρ c b
theorem hF0 (c : Dev nD) (w : Fin cfg0.W) : (dat0 (At1 m ρ) c).arrAt w cfg0.N = At2 m ρ c (Pipeline.arrRef spec0 w) :=
  (W2_arr m ρ c w).symm
theorem hrest0 (c : Dev nD) : ∀ b, b ∉ Finset.univ.image (Pipeline.arrRef spec0) → At2 m ρ c b = At1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the core's references (what region 1's proof data take). -/
abbrev At3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (At3 m ρ) c).arrAt w cfg1.N
theorem W4_arr (c : Dev nD) (w : Fin cfg1.W) :
    W4 m ρ c (Proc.devRef .tc (Pipeline.arrRef spec1 w)) = (dat1 (At3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references (region 1's exit contents). -/
abbrev At4 : (c : Dev nD) → (b : Ref sig .tc) → Buf (Elt F) ((c : Thread nD τ).loc b) := fun c b => W4 m ρ c b
theorem hF1 (c : Dev nD) (w : Fin cfg1.W) : (dat1 (At3 m ρ) c).arrAt w cfg1.N = At4 m ρ c (Pipeline.arrRef spec1 w) :=
  (W4_arr m ρ c w).symm
theorem hrest1 (c : Dev nD) : ∀ b, b ∉ Finset.univ.image (Pipeline.arrRef spec1) → At4 m ρ c b = At3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the core's references (what region 2's proof data take). -/
abbrev At5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (At5 m ρ) c).arrAt w cfg2.N
theorem W6_arr (c : Dev nD) (w : Fin cfg2.W) :
    W6 m ρ c (Proc.devRef .tc (Pipeline.arrRef spec2 w)) = (dat2 (At5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the core's references (region 2's exit contents). -/
abbrev At6 : (c : Dev nD) → (b : Ref sig .tc) → Buf (Elt F) ((c : Thread nD τ).loc b) := fun c b => W6 m ρ c b
theorem hF2 (c : Dev nD) (w : Fin cfg2.W) : (dat2 (At5 m ρ) c).arrAt w cfg2.N = At6 m ρ c (Pipeline.arrRef spec2 w) :=
  (W6_arr m ρ c w).symm
theorem hrest2 (c : Dev nD) : ∀ b, b ∉ Finset.univ.image (Pipeline.arrRef spec2) → At6 m ρ c b = At5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the core's references (what region 3's proof data take). -/
abbrev At7 : (c : Dev nD) → (b : Ref sig .tc) → Buf (Elt F) ((c : Thread nD τ).loc b) := fun c b => W7 m ρ c b
/-- At region 3's exit: its arrays at what the pipeline leaves (the inputs as entered, each output's write-backs
    folded), every other buffer as entered. -/
def W8 (c : Dev nD) : Valuation τ sig (Elt F) :=
  Pipeline.withArrays spec3 c (W7 m ρ c) fun w => (dat3 (At7 m ρ) c).arrAt w cfg3.N
theorem W8_arr (c : Dev nD) (w : Fin cfg3.W) :
    W8 m ρ c (Proc.devRef .tc (Pipeline.arrRef spec3 w)) = (dat3 (At7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the core's references (region 3's exit contents). -/
abbrev At8 : (c : Dev nD) → (b : Ref sig .tc) → Buf (Elt F) ((c : Thread nD τ).loc b) := fun c b => W8 m ρ c b
theorem hF3 (c : Dev nD) (w : Fin cfg3.W) : (dat3 (At7 m ρ) c).arrAt w cfg3.N = At8 m ρ c (Pipeline.arrRef spec3 w) :=
  (W8_arr m ρ c w).symm
theorem hrest3 (c : Dev nD) : ∀ b, b ∉ Finset.univ.image (Pipeline.arrRef spec3) → At8 m ρ c b = At7 m ρ c b :=
  fun b hb => W8_of_ne m ρ c b fun w e => hb (Finset.mem_image.mpr ⟨w, Finset.mem_univ _, e⟩)

/-- After `hostOps4` (the return). -/
abbrev W9 : Dev nD → Valuation τ sig (Elt F) := fun c => StableHlo.after hostOps4 (W8 m ρ c)

/-- A buffer that no host operation writes and that is no window's array ends as launched. -/
theorem W9_keep (c : Dev nD) (r : Ref sig .tc) (h0 : r ∉ hostOps0_W) (h1 : r ∉ hostOps1_W) (h2 : r ∉ hostOps2_W) (h3 : r ∉ hostOps3_W) (h4 : r ∉ hostOps4_W) (a0 : ∀ w, Pipeline.arrRef spec0 w ≠ r) (a1 : ∀ w, Pipeline.arrRef spec1 w ≠ r) (a2 : ∀ w, Pipeline.arrRef spec2 w ≠ r) (a3 : ∀ w, Pipeline.arrRef spec3 w ≠ r) :
    W9 m ρ c (Proc.devRef .tc r) = m ((c : Thread nD τ).loc r) :=
  calc W9 m ρ c (Proc.devRef .tc r)
    _ = W8 m ρ c (Proc.devRef .tc r) := StableHlo.after_of_writes_sub hostOps4 _ hostOps4_writes h4
    _ = W7 m ρ c (Proc.devRef .tc r) := W8_of_ne m ρ c r a3
    _ = W6 m ρ c (Proc.devRef .tc r) := StableHlo.after_of_writes_sub hostOps3 _ hostOps3_writes h3
    _ = W5 m ρ c (Proc.devRef .tc r) := W6_of_ne m ρ c r a2
    _ = W4 m ρ c (Proc.devRef .tc r) := StableHlo.after_of_writes_sub hostOps2 _ hostOps2_writes h2
    _ = W3 m ρ c (Proc.devRef .tc r) := W4_of_ne m ρ c r a1
    _ = W2 m ρ c (Proc.devRef .tc r) := StableHlo.after_of_writes_sub hostOps1 _ hostOps1_writes h1
    _ = W1 m ρ c (Proc.devRef .tc r) := W2_of_ne m ρ c r a0
    _ = W0 m ρ c (Proc.devRef .tc r) := StableHlo.after_of_writes_sub hostOps0 _ hostOps0_writes h0
    _ = m ((c : Thread nD τ).loc r) := rfl

/-- The same up to each earlier boundary. -/
theorem W1_keep (c : Dev nD) (r : Ref sig .tc) (h0 : r ∉ hostOps0_W) :
    W1 m ρ c (Proc.devRef .tc r) = m ((c : Thread nD τ).loc r) :=
  (StableHlo.after_of_writes_sub hostOps0 _ hostOps0_writes h0).trans rfl
theorem W3_keep (c : Dev nD) (r : Ref sig .tc) (h0 : r ∉ hostOps0_W) (h1 : r ∉ hostOps1_W) (a0 : ∀ w, Pipeline.arrRef spec0 w ≠ r) :
    W3 m ρ c (Proc.devRef .tc r) = m ((c : Thread nD τ).loc r) :=
  (StableHlo.after_of_writes_sub hostOps1 _ hostOps1_writes h1).trans ((W2_of_ne m ρ c r a0).trans (W1_keep m ρ c r h0))
theorem W4_keep (c : Dev nD) (r : Ref sig .tc) (h0 : r ∉ hostOps0_W) (h1 : r ∉ hostOps1_W) (a0 : ∀ w, Pipeline.arrRef spec0 w ≠ r)
    (a1 : ∀ w, Pipeline.arrRef spec1 w ≠ r) : W4 m ρ c (Proc.devRef .tc r) = m ((c : Thread nD τ).loc r) :=
  (W4_of_ne m ρ c r a1).trans (W3_keep m ρ c r h0 h1 a0)
theorem W6_keep (c : Dev nD) (r : Ref sig .tc) (h0 : r ∉ hostOps0_W) (h1 : r ∉ hostOps1_W) (h2 : r ∉ hostOps2_W) (a0 : ∀ w, Pipeline.arrRef spec0 w ≠ r)
    (a1 : ∀ w, Pipeline.arrRef spec1 w ≠ r) (a2 : ∀ w, Pipeline.arrRef spec2 w ≠ r) : W6 m ρ c (Proc.devRef .tc r) = m ((c : Thread nD τ).loc r) :=
  (W6_of_ne m ρ c r a2).trans ((StableHlo.after_of_writes_sub hostOps2 _ hostOps2_writes h2).trans (W4_keep m ρ c r h0 h1 a0 a1))
theorem W8_keep (c : Dev nD) (r : Ref sig .tc) (h0 : r ∉ hostOps0_W) (h1 : r ∉ hostOps1_W) (h2 : r ∉ hostOps2_W) (h3 : r ∉ hostOps3_W) (a0 : ∀ w, Pipeline.arrRef spec0 w ≠ r)
    (a1 : ∀ w, Pipeline.arrRef spec1 w ≠ r) (a2 : ∀ w, Pipeline.arrRef spec2 w ≠ r) (a3 : ∀ w, Pipeline.arrRef spec3 w ≠ r) : W8 m ρ c (Proc.devRef .tc r) = m ((c : Thread nD τ).loc r) :=
  (W8_of_ne m ρ c r a3).trans ((StableHlo.after_of_writes_sub hostOps3 _ hostOps3_writes h3).trans (W6_keep m ρ c r h0 h1 h2 a0 a1 a2))

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (At1 m ρ) c
  | ⟨1, _⟩ => fun c => dat1 (At3 m ρ) c
  | ⟨2, _⟩ => fun c => dat2 (At5 m ρ) c
  | ⟨3, _⟩ => fun c => dat3 (At7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as an item of the run, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W9 m ρ c) ∗ ∃ r, prngReg c r)

/-! ## The regions as items of the run -/

set_option backward.isDefEq.respectTransparency.types false in
/-- Region 0 over the thread state: entered from every unscoped buffer at `W1`, left at `W2`. Its arrays are split
    out of the unscoped buffers and put back at the exit contents; the generator register goes into the class invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (At1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (At1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (At1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (At1 m ρ c) (At2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the class invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (At3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (At3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (At3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (At3 m ρ c) (At4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the class invariant
    and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (At5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (At5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (At5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (At5 m ρ c) (At6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the generator register goes into the class invariant
    and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (At7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (At7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (At7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (At7 m ρ c) (At8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- @main's nine items in order. -/
abbrev items : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main is the run of its items. -/
theorem main_run (c : Dev nD) : main (F := F) c = Pipeline.Seg.run (items m ρ) := (main_chain c).trans (by chain_rfl)

set_option backward.isDefEq.respectTransparency.types false in
/-- THE RUN. From any memory with zero counters every weakly fair execution of @main terminates, nothing faulting, and
    the final state holds the result buffer at the last boundary's contents and every argument buffer as launched. -/
theorem run_main : θ_run defs (onTc (τ := τ) (main (F := F))) ⟨m, fun _ => 0, ρ⟩ (fun r => ∀ c : Dev nD,
      r.2.mem ((c.tc : Thread nD τ).loc main_v135) = W9 m ρ c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      show iprop(StableHlo.held (c.tc : Thread nD τ) (Pipeline.ucRefs τ sig) (StableHlo.after hostOps4 (W8 m ρ c)) ∗ R c) ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v135 (by decide)),
       (h c _ (mem_uc main_arg0 (by decide))).trans (W9_keep m ρ c main_arg0 (by decide) (by decide) (by decide) (by decide) (by decide) (by decide) (by decide) (by decide) (by decide)),
       (h c _ (mem_uc main_arg1 (by decide))).trans (W9_keep m ρ c main_arg1 (by decide) (by decide) (by decide) (by decide) (by decide) (by decide) (by decide) (by decide) (by decide)),
       (h c _ (mem_uc main_arg2 (by decide))).trans (W9_keep m ρ c main_arg2 (by decide) (by decide) (by decide) (by decide) (by decide) (by decide) (by decide) (by decide) (by decide)),
       (h c _ (mem_uc main_arg3 (by decide))).trans (W9_keep m ρ c main_arg3 (by decide) (by decide) (by decide) (by decide) (by decide) (by decide) (by decide) (by decide) (by decide)),
       (h c _ (mem_uc main_arg4 (by decide))).trans (W9_keep m ρ c main_arg4 (by decide) (by decide) (by decide) (by decide) (by decide) (by decide) (by decide) (by decide) (by decide)),
       (h c _ (mem_uc main_arg5 (by decide))).trans (W9_keep m ρ c main_arg5 (by decide) (by decide) (by decide) (by decide) (by decide) (by decide) (by decide) (by decide) (by decide)),
       (h c _ (mem_uc main_arg6 (by decide))).trans (W9_keep m ρ c main_arg6 (by decide) (by decide) (by decide) (by decide) (by decide) (by decide) (by decide) (by decide) (by decide)),
       (h c _ (mem_uc main_arg7 (by decide))).trans (W9_keep m ρ c main_arg7 (by decide) (by decide) (by decide) (by decide) (by decide) (by decide) (by decide) (by decide) (by decide)),
       (h c _ (mem_uc main_arg8 (by decide))).trans (W9_keep m ρ c main_arg8 (by decide) (by decide) (by decide) (by decide) (by decide) (by decide) (by decide) (by decide) (by decide)),
       (h c _ (mem_uc main_arg9 (by decide))).trans (W9_keep m ρ c main_arg9 (by decide) (by decide) (by decide) (by decide) (by decide) (by decide) (by decide) (by decide) (by decide))⟩)

end Cert.KernelIdeal.Hand

end
-- ==== Proof.LibRowNormalize.lean ====
import Idealize.ShloMosaic.PureOps.Ideal
import Mathlib.Data.EReal.Operations
import Mathlib.Algebra.BigOperators.Fin

/-!
# Rows of extended reals: normalisation by a floored Euclidean norm, and a residual mix

A row is a function `x : ι → EReal` on a finite index type. `unit z e x` is the row divided, entry by
entry, by `max (sqrt (z + ∑ x j * x j)) e` — the row scaled to unit Euclidean length, the length floored
at `e` so that the zero row stays zero (`z` is the value the sum starts from, kept as a parameter so that
a sum written with an explicit initial value and one written without meet by `zero_add`).

`mix_eq` is the one algebraic law a residual combination needs: weighting the two summands separately,
`a · s + u · r`, is dividing their weighted sum by a real, `(a + h · u) / d`, when `s = 1/d` and
`r = h/d` with `d > 0`. It holds on ALL extended reals: multiplying a sum by a non-negative real
distributes even at the infinities.  Nothing here mentions a shape or a program.
-/

namespace RowNormalize

open Idealize.ShloMosaic

variable {ι : Type} [Fintype ι]

/-- The sum of a row's squares, started from `z`. -/
noncomputable def sumsq (z : EReal) (x : ι → EReal) : EReal := z + ∑ j, x j * x j

/-- The row's Euclidean length, floored at `e`. -/
noncomputable def fnorm (z e : EReal) (x : ι → EReal) : EReal := max (Ideal.sqrt (sumsq z x)) e

/-- The row over its floored length. -/
noncomputable def unit (z e : EReal) (x : ι → EReal) : ι → EReal := fun j => Ideal.div (x j) (fnorm z e x)

theorem sumsq_zero (x : ι → EReal) : sumsq 0 x = ∑ j, x j * x j := zero_add _

theorem unit_congr {z e : EReal} {x y : ι → EReal} (h : ∀ j, x j = y j) : unit z e x = unit z e y := by
  have : x = y := funext h
  rw [this]

/-- Separate weights are a division of the weighted sum: `a·s + u·r = (a + h·u)/d` for `s = 1/d`,
    `r = h/d`, `d > 0`, on all extended reals. -/
theorem mix_eq (a u : EReal) {s r h d : ℝ} (hd : 0 < d) (hs : s = 1 / d) (hr : r = h / d) :
    a * (s : EReal) + u * (r : EReal) = Ideal.div (a + (h : EReal) * u) (d : EReal) := by
  have hnn : (0 : EReal) ≤ ((1 / d : ℝ) : EReal) := by
    exact_mod_cast (one_div_pos.mpr hd).le
  rw [Ideal.div_coe hd.ne', EReal.right_distrib_of_nonneg_of_ne_top hnn (EReal.coe_ne_top _), hs, hr,
    mul_comm (h : EReal) u, mul_assoc, ← EReal.coe_mul, div_eq_mul_one_div h d]

end RowNormalize
-- ==== Proof.KI.Payload.lean ====
import proofs.«137097_j42271068127574_2_alg».proof.Proof.LibRowNormalize
import proofs.«137097_j42271068127574_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

/-!
# The payloads of the two kernel functions, read at one entry of a block

Each payload is a block of 5000 rows of 128 entries. Read at row `p`, entry `q`, every one of them is a
row scaled to unit Euclidean length (`RowNormalize.unit`, the length floored at `eps`), of either a
loaded row or an entrywise weighted sum of two rows, possibly added to a loaded entry. The lane sum of
squares is a sum over `Fin 128`; the column of row lengths is kept as a `5000 × 1` block and laid back
over the 128 lanes, which at an index is reading the row's own length.
-/

noncomputable section

namespace Cert.KernelIdeal.Hand

open Idealize.ShloMosaic Idealize.ShloMosaic.ValueIdx Cert.KernelIdeal Cert.KernelIdeal.Gen RowNormalize

/-- The floor of a row's length, `1e-12` as an f32 word. -/
abbrev eps : EReal := Ideal.ofBits .f32 0x2B8CBCCC#32
/-- The weight of the propagated row in the first mix. -/
abbrev cHalf : EReal := Ideal.ofBits .f32 0x3F000000#32
/-- The weight of the normalised raw row in the first mix. -/
abbrev cQuarter : EReal := Ideal.ofBits .f32 0x3E800000#32
/-- The weight of the propagated row in a later mix: the named constant "inv_3". -/
abbrev cThird : EReal := Named.named (F := Ideal) Cert.KernelIdeal.κ "inv_3" (φ := .f32) 0x3EAAAAAB#32
/-- The weight of the normalised initial row in a later mix: the named constant "inv_6". -/
abbrev cSixth : EReal := Named.named (F := Ideal) Cert.KernelIdeal.κ "inv_6" (φ := .f32) 0x3E2AAAAB#32

/-- Row `p` of a block, as a function of the lane. -/
def row (x : Vec Ideal S5000x128 .f32) (p : Fin 5000) : Fin 128 → EReal := fun j => x (ValueIdx.ix2 p j)

/-! ## The layout operations at an index -/

/-- The reduced index `p` with lane `k` put back is `(p, k)`. -/
theorem lift_ix (p : Fin 5000) (k : Fin 128) :
    reduces_S5000x128_S5000.lift (ix1 p) k = ix2 p k := by
  funext c
  apply Fin.ext
  match c with
  | ⟨0, _⟩ => rfl
  | ⟨1, _⟩ => rfl

/-- A column of 5000 entries viewed as a `5000 × 1` block reads, at `(p, u)`, its entry `p`. -/
theorem shapeCast_col_apply {α : Type} (x : S5000.Idx → α) (p : Fin 5000) (u : Fin 1) :
    shapeCast S5000x1 x shapeCasts_S5000_S5000x1 (ix2 p u) = x (ix1 p) :=
  shapeCast_apply x _ _ _ (by
    have hu : u.val = 0 := by omega
    rw [Shape.rowMajor_val_two, Shape.rowMajor_val_one]
    show p.val = p.val * 1 + u.val
    rw [hu, Nat.mul_one, Nat.add_zero])

/-- A `5000 × 1` block laid over 128 lanes reads, at `(p, q)`, its entry `(p, 0)`. -/
theorem broadcastTo_col_apply {α : Type} (v : S5000x1.Idx → α) (p : Fin 5000) (q : Fin 128) :
    broadcastTo S5000x128 v broadcasts_S5000x1_S5000x128 (ix2 p q) = v (ix2 p (0 : Fin 1)) := by
  refine broadcastTo_apply v _ (ix2 p q) (ix2 p (0 : Fin 1)) fun ax => ?_
  match ax with
  | ⟨0, _⟩ =>
    exact (if_neg (fun h => absurd h (show ¬ (5000 : ℕ) = 1 by decide))).symm
  | ⟨1, _⟩ =>
    exact (if_pos rfl).symm

/-! ## A row's floored length, and the row over it -/

/-- The lane sum of squares of row `p`, read through the reduction over the lane axis. -/
theorem sumsq_apply (y : FVec Ideal S5000x128 .f32) (p : Fin 5000) :
    multiReduction .add [1] S5000 (mulf y y) 0x00000000#32 reduces_S5000x128_S5000 (.inl rfl) rfl (ix1 p)
      = sumsq 0 (fun j => y (ix2 p j)) := by
  refine (Ideal.multiReduction_add_single (mulf y y) 0x00000000#32 reduces_S5000x128_S5000 (.inl rfl) rfl (ix1 p)).trans ?_
  rw [sumsq_zero]
  refine Finset.sum_congr rfl fun k _ => ?_
  exact congrArg (fun z => y z * y z) (lift_ix p k)

/-- The block of row lengths (the column of floored lengths laid over the lanes), at `(p, q)`, is row
    `p`'s floored length. -/
theorem rownorm_apply (y : FVec Ideal S5000x128 .f32) (p : Fin 5000) (q : Fin 128) :
    (broadcastTo S5000x128 (maximumf (sqrt (shapeCast S5000x1 (multiReduction .add [1] S5000 (mulf y y) 0x00000000#32 reduces_S5000x128_S5000 (.inl rfl) rfl) shapeCasts_S5000_S5000x1)) (broadcast S5000x1 (Scalar.ofBits .f32 0x2B8CBCCC#32))) broadcasts_S5000x1_S5000x128) (ix2 p q)
      = fnorm 0 eps (fun j => y (ix2 p j)) := by
  refine (broadcastTo_col_apply _ p q).trans ?_
  show max (Ideal.sqrt (shapeCast S5000x1 _ shapeCasts_S5000_S5000x1 (ix2 p (0 : Fin 1)))) eps = _
  rw [shapeCast_col_apply, sumsq_apply]
  rfl

/-- A block over its block of row lengths, at `(p, q)`, is entry `q` of row `p` scaled to unit length. -/
theorem normalize_apply (y : FVec Ideal S5000x128 .f32) (p : Fin 5000) (q : Fin 128) :
    divf y (broadcastTo S5000x128 (maximumf (sqrt (shapeCast S5000x1 (multiReduction .add [1] S5000 (mulf y y) 0x00000000#32 reduces_S5000x128_S5000 (.inl rfl) rfl) shapeCasts_S5000_S5000x1)) (broadcast S5000x1 (Scalar.ofBits .f32 0x2B8CBCCC#32))) broadcasts_S5000x1_S5000x128) (ix2 p q)
      = unit 0 eps (fun j => y (ix2 p j)) q := by
  rw [divf_apply, rownorm_apply]
  rfl

/-! ## The init kernel's payloads -/

theorem pay1_eq (x0 : Vec Ideal S5000x128 .f32) : k0_pay1 (F := Ideal) x0 = x0 :=
  shapeCast_self x0 _

theorem pay_ini (x0 : Vec Ideal S5000x128 .f32) (p : Fin 5000) (q : Fin 128) :
    k0_pay2 (F := Ideal) x0 (ValueIdx.ix2 p q) = unit 0 eps (row x0 p) q := by
  unfold k0_pay2
  rw [pay1_eq]
  exact normalize_apply x0 p q

theorem pay_feat (x0 x1 : Vec Ideal S5000x128 .f32) (p : Fin 5000) (q : Fin 128) :
    k0_pay3 (F := Ideal) x0 x1 (ValueIdx.ix2 p q)
      = unit 0 eps (fun j => row x1 p j * cHalf + unit 0 eps (row x0 p) j * cQuarter) q := by
  refine (normalize_apply (addf (mulf (shapeCast S5000x128 x1 shapeCasts_S5000x128_S5000x128) (broadcast S5000x128 (Scalar.ofBits .f32 0x3F000000#32))) (mulf (k0_pay2 (F := Ideal) x0) (broadcast S5000x128 (Scalar.ofBits .f32 0x3E800000#32)))) p q).trans ?_
  refine congrFun (unit_congr fun j => ?_) q
  show shapeCast S5000x128 x1 shapeCasts_S5000x128_S5000x128 (ix2 p j) * cHalf + k0_pay2 (F := Ideal) x0 (ix2 p j) * cQuarter = _
  rw [shapeCast_self, pay_ini]
  rfl

theorem pay_acc (x0 x1 : Vec Ideal S5000x128 .f32) (p : Fin 5000) (q : Fin 128) :
    k0_pay4 (F := Ideal) x0 x1 (ValueIdx.ix2 p q)
      = x0 (ValueIdx.ix2 p q) + unit 0 eps (fun j => row x1 p j * cHalf + unit 0 eps (row x0 p) j * cQuarter) q := by
  show k0_pay1 (F := Ideal) x0 (ix2 p q) + k0_pay3 (F := Ideal) x0 x1 (ix2 p q) = _
  rw [pay1_eq, pay_feat]

/-! ## The combine kernel's payloads -/

theorem pay_feat' (x0 x2 : Vec Ideal S5000x128 .f32) (p : Fin 5000) (q : Fin 128) :
    k1_pay1 (F := Ideal) x0 x2 (ValueIdx.ix2 p q)
      = unit 0 eps (fun j => row x0 p j * cThird + row x2 p j * cSixth) q := by
  refine (normalize_apply (addf (mulf (shapeCast S5000x128 x0 shapeCasts_S5000x128_S5000x128) (broadcast S5000x128 (Named.named (F := Ideal) κ "inv_3" (φ := .f32) 0x3EAAAAAB#32))) (mulf (shapeCast S5000x128 x2 shapeCasts_S5000x128_S5000x128) (broadcast S5000x128 (Named.named (F := Ideal) κ "inv_6" (φ := .f32) 0x3E2AAAAB#32)))) p q).trans ?_
  refine congrFun (unit_congr fun j => ?_) q
  show shapeCast S5000x128 x0 shapeCasts_S5000x128_S5000x128 (ix2 p j) * cThird + shapeCast S5000x128 x2 shapeCasts_S5000x128_S5000x128 (ix2 p j) * cSixth = _
  rw [shapeCast_self, shapeCast_self]
  rfl

theorem pay_acc' (x0 x2 x4 : Vec Ideal S5000x128 .f32) (p : Fin 5000) (q : Fin 128) :
    k1_pay2 (F := Ideal) x0 x2 x4 (ValueIdx.ix2 p q)
      = x4 (ValueIdx.ix2 p q) + unit 0 eps (fun j => row x0 p j * cThird + row x2 p j * cSixth) q := by
  show shapeCast S5000x128 x4 shapeCasts_S5000x128_S5000x128 (ix2 p q) + k1_pay1 (F := Ideal) x0 x2 (ix2 p q) = _
  rw [shapeCast_self, pay_feat']

/-! ## The second pair of regions: the same two kernel functions again -/

theorem pay2_ini (x0 : Vec Ideal S5000x128 .f32) (p : Fin 5000) (q : Fin 128) :
    k2_pay2 (F := Ideal) x0 (ValueIdx.ix2 p q) = unit 0 eps (row x0 p) q :=
  pay_ini x0 p q

theorem pay2_feat (x0 x1 : Vec Ideal S5000x128 .f32) (p : Fin 5000) (q : Fin 128) :
    k2_pay3 (F := Ideal) x0 x1 (ValueIdx.ix2 p q)
      = unit 0 eps (fun j => row x1 p j * cHalf + unit 0 eps (row x0 p) j * cQuarter) q :=
  pay_feat x0 x1 p q

theorem pay2_acc (x0 x1 : Vec Ideal S5000x128 .f32) (p : Fin 5000) (q : Fin 128) :
    k2_pay4 (F := Ideal) x0 x1 (ValueIdx.ix2 p q)
      = x0 (ValueIdx.ix2 p q) + unit 0 eps (fun j => row x1 p j * cHalf + unit 0 eps (row x0 p) j * cQuarter) q :=
  pay_acc x0 x1 p q

theorem pay3_feat' (x0 x2 : Vec Ideal S5000x128 .f32) (p : Fin 5000) (q : Fin 128) :
    k3_pay1 (F := Ideal) x0 x2 (ValueIdx.ix2 p q)
      = unit 0 eps (fun j => row x0 p j * cThird + row x2 p j * cSixth) q :=
  pay_feat' x0 x2 p q

theorem pay3_acc' (x0 x2 x4 : Vec Ideal S5000x128 .f32) (p : Fin 5000) (q : Fin 128) :
    k3_pay2 (F := Ideal) x0 x2 x4 (ValueIdx.ix2 p q)
      = x4 (ValueIdx.ix2 p q) + unit 0 eps (fun j => row x0 p j * cThird + row x2 p j * cSixth) q :=
  pay_acc' x0 x2 x4 p q

/-! ## The constants as reals -/

theorem cHalf_eq : cHalf = ((1 / 2 : ℝ) : EReal) := by
  simp [Ideal.ofBits, Ideal.ieee, -EReal.coe_mul]; norm_num

theorem cQuarter_eq : cQuarter = ((1 / 4 : ℝ) : EReal) := by
  simp [Ideal.ofBits, Ideal.ieee, -EReal.coe_mul]; norm_num

/-- The named weight "inv_3" denotes the rational 1/3. -/
theorem cThird_eq : cThird = ((1 / 3 : ℝ) : EReal) :=
  IdealRules.named_const.ideal_named_scalar _ _ _ _ rfl

/-- The named weight "inv_6" denotes the rational 1/6. -/
theorem cSixth_eq : cSixth = ((1 / 6 : ℝ) : EReal) :=
  IdealRules.named_const.ideal_named_scalar _ _ _ _ rfl

theorem two_eq : Ideal.ofBits .f32 0x40000000#32 = ((2 : ℝ) : EReal) := by
  simp [Ideal.ofBits, Ideal.ieee, -EReal.coe_mul]; norm_num

theorem three_eq : Ideal.ofBits .f32 0x40400000#32 = ((3 : ℝ) : EReal) := by
  simp [Ideal.ofBits, Ideal.ieee, -EReal.coe_mul]; norm_num

end Cert.KernelIdeal.Hand

end
-- ==== Proof.KI.Blocks.lean ====
import proofs.«137097_j42271068127574_2_alg».proof.Proof.KI.Region0
import proofs.«137097_j42271068127574_2_alg».proof.Proof.KI.Region1
import proofs.«137097_j42271068127574_2_alg».proof.Proof.KI.Region2
import proofs.«137097_j42271068127574_2_alg».proof.Proof.KI.Region3
import proofs.«137097_j42271068127574_2_alg».proof.Proof.KI.Payload
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open RowNormalize ValueIdx

/-! # From blocks to the array: each output array after a region, read at an index

Every window of the four regions moves a 5000x128 block along the rows of its array: at point `t` the block is
rows `5000 t … 5000 t + 4999`, all 128 columns (`idx_factsK`, decided over the grid), and the blocks tile the array.
So an element `(p, q)` of a block at point `t` is the array's element `(5000 t + p, q)` (`embK_w`, `read_blkK_w`), and
the array's row `r` is covered by point `r / 5000` (`coverK_w`). The bodies' payloads are row-wise: the value
stored at `(p, q)` depends on the whole row `p` of each input block, which is the whole row `5000 t + p` of the
input's array (`row_iblkK_w`). Hence each output array after the region is one row-wise function (`gK_*`) of the
input arrays as the region finds them (`finalK_w`, `arrK_*`). All at the ideal instance. -/

variable (V : (c : Dev nD) → (b : Ref sig .tc) → Buf (Elt Ideal) ((c : Thread nD τ).loc b))

theorem blk_hz : (![0, 0] : Fin 2 → Nat) = fun _ => 0 := funext fun a => by fin_cases a <;> rfl

/-- Two blocks that agree at every `(p, q)` are equal. -/
theorem blk_ext {X Y : Vec Ideal S5000x128 .f32} (h : ∀ (p : Fin 5000) (q : Fin 128), X (ix2 p q) = Y (ix2 p q)) : X = Y :=
  funext fun y => by rw [eq_ix2 y]; exact h _ _

/-- The raw row, normalised. -/
def g0_ini (A1 : S130000x128.Idx → EReal) (r : Fin 130000) (j : Fin 128) : EReal :=
  unit 0 eps (fun k => A1 (ix2 r k)) j
/-- The first mix of the propagated row and the normalised raw row, normalised. -/
def g0_feat (A0 A1 : S130000x128.Idx → EReal) (r : Fin 130000) (j : Fin 128) : EReal :=
  unit 0 eps (fun k => A0 (ix2 r k) * cHalf + unit 0 eps (fun k' => A1 (ix2 r k')) k * cQuarter) j
/-- The raw row plus that. -/
def g0_acc (A0 A1 : S130000x128.Idx → EReal) (r : Fin 130000) (j : Fin 128) : EReal :=
  A1 (ix2 r j) + unit 0 eps (fun k => A0 (ix2 r k) * cHalf + unit 0 eps (fun k' => A1 (ix2 r k')) k * cQuarter) j

/-! ## Region 0 -/

/-- Region 0's index maps, decided over the grid: every window's block index at point `t` is `(t, 0)`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem lt_N0 (t : Fin cfg0.N) : t.val < 26 := lt_of_lt_of_eq t.isLt N_0

/-- Where window 0's block at point `t` sits in its array: block index `(p, q)` is array index `(5000 t + p, q)`. -/
theorem emb0_0 (t : Fin cfg0.N) (p : Fin 5000) (q : Fin 128) (r : Fin 130000) (hr : r.val = 5000 * t.val + p.val) :
    ((cfg0.win 0).blk t).view.emb (ix2 p q) = (ix2 r q : S130000x128.Idx) := by
  obtain ⟨e00, e01, e10, e11, e20, e21, e30, e31, e40, e41⟩ := idx_facts0 t
  funext a
  apply Fin.ext
  match a with
  | ⟨0, _⟩ => show win0_0.index t (0 : Fin 2) * 5000 + 1 * p.val = r.val; omega
  | ⟨1, _⟩ => show win0_0.index t (1 : Fin 2) * 128 + 1 * q.val = q.val; omega

/-- So an array read through that block, at `(p, q)`, is the array at `(5000 t + p, q)`. -/
theorem read_blk0_0 (G : S130000x128.Idx → EReal) (t : Fin cfg0.N) (p : Fin 5000) (q : Fin 128) (r : Fin 130000) (hr : r.val = 5000 * t.val + p.val) :
    (((cfg0.win 0).blk t).view.read (Elt Ideal) G : Vec Ideal S5000x128 .f32) (ix2 p q) = G (ix2 r q) := by
  rw [View.read_apply, emb0_0 t p q r hr]
  rfl

/-- Where window 1's block at point `t` sits in its array: block index `(p, q)` is array index `(5000 t + p, q)`. -/
theorem emb0_1 (t : Fin cfg0.N) (p : Fin 5000) (q : Fin 128) (r : Fin 130000) (hr : r.val = 5000 * t.val + p.val) :
    ((cfg0.win 1).blk t).view.emb (ix2 p q) = (ix2 r q : S130000x128.Idx) := by
  obtain ⟨e00, e01, e10, e11, e20, e21, e30, e31, e40, e41⟩ := idx_facts0 t
  funext a
  apply Fin.ext
  match a with
  | ⟨0, _⟩ => show win0_1.index t (0 : Fin 2) * 5000 + 1 * p.val = r.val; omega
  | ⟨1, _⟩ => show win0_1.index t (1 : Fin 2) * 128 + 1 * q.val = q.val; omega

/-- So an array read through that block, at `(p, q)`, is the array at `(5000 t + p, q)`. -/
theorem read_blk0_1 (G : S130000x128.Idx → EReal) (t : Fin cfg0.N) (p : Fin 5000) (q : Fin 128) (r : Fin 130000) (hr : r.val = 5000 * t.val + p.val) :
    (((cfg0.win 1).blk t).view.read (Elt Ideal) G : Vec Ideal S5000x128 .f32) (ix2 p q) = G (ix2 r q) := by
  rw [View.read_apply, emb0_1 t p q r hr]
  rfl

/-- Where window 2's block at point `t` sits in its array: block index `(p, q)` is array index `(5000 t + p, q)`. -/
theorem emb0_2 (t : Fin cfg0.N) (p : Fin 5000) (q : Fin 128) (r : Fin 130000) (hr : r.val = 5000 * t.val + p.val) :
    ((cfg0.win 2).blk t).view.emb (ix2 p q) = (ix2 r q : S130000x128.Idx) := by
  obtain ⟨e00, e01, e10, e11, e20, e21, e30, e31, e40, e41⟩ := idx_facts0 t
  funext a
  apply Fin.ext
  match a with
  | ⟨0, _⟩ => show win0_2.index t (0 : Fin 2) * 5000 + 1 * p.val = r.val; omega
  | ⟨1, _⟩ => show win0_2.index t (1 : Fin 2) * 128 + 1 * q.val = q.val; omega

/-- So an array read through that block, at `(p, q)`, is the array at `(5000 t + p, q)`. -/
theorem read_blk0_2 (G : S130000x128.Idx → EReal) (t : Fin cfg0.N) (p : Fin 5000) (q : Fin 128) (r : Fin 130000) (hr : r.val = 5000 * t.val + p.val) :
    (((cfg0.win 2).blk t).view.read (Elt Ideal) G : Vec Ideal S5000x128 .f32) (ix2 p q) = G (ix2 r q) := by
  rw [View.read_apply, emb0_2 t p q r hr]
  rfl

/-- Where window 3's block at point `t` sits in its array: block index `(p, q)` is array index `(5000 t + p, q)`. -/
theorem emb0_3 (t : Fin cfg0.N) (p : Fin 5000) (q : Fin 128) (r : Fin 130000) (hr : r.val = 5000 * t.val + p.val) :
    ((cfg0.win 3).blk t).view.emb (ix2 p q) = (ix2 r q : S130000x128.Idx) := by
  obtain ⟨e00, e01, e10, e11, e20, e21, e30, e31, e40, e41⟩ := idx_facts0 t
  funext a
  apply Fin.ext
  match a with
  | ⟨0, _⟩ => show win0_3.index t (0 : Fin 2) * 5000 + 1 * p.val = r.val; omega
  | ⟨1, _⟩ => show win0_3.index t (1 : Fin 2) * 128 + 1 * q.val = q.val; omega

/-- So an array read through that block, at `(p, q)`, is the array at `(5000 t + p, q)`. -/
theorem read_blk0_3 (G : S130000x128.Idx → EReal) (t : Fin cfg0.N) (p : Fin 5000) (q : Fin 128) (r : Fin 130000) (hr : r.val = 5000 * t.val + p.val) :
    (((cfg0.win 3).blk t).view.read (Elt Ideal) G : Vec Ideal S5000x128 .f32) (ix2 p q) = G (ix2 r q) := by
  rw [View.read_apply, emb0_3 t p q r hr]
  rfl

/-- Where window 4's block at point `t` sits in its array: block index `(p, q)` is array index `(5000 t + p, q)`. -/
theorem emb0_4 (t : Fin cfg0.N) (p : Fin 5000) (q : Fin 128) (r : Fin 130000) (hr : r.val = 5000 * t.val + p.val) :
    ((cfg0.win 4).blk t).view.emb (ix2 p q) = (ix2 r q : S130000x128.Idx) := by
  obtain ⟨e00, e01, e10, e11, e20, e21, e30, e31, e40, e41⟩ := idx_facts0 t
  funext a
  apply Fin.ext
  match a with
  | ⟨0, _⟩ => show win0_4.index t (0 : Fin 2) * 5000 + 1 * p.val = r.val; omega
  | ⟨1, _⟩ => show win0_4.index t (1 : Fin 2) * 128 + 1 * q.val = q.val; omega

/-- So an array read through that block, at `(p, q)`, is the array at `(5000 t + p, q)`. -/
theorem read_blk0_4 (G : S130000x128.Idx → EReal) (t : Fin cfg0.N) (p : Fin 5000) (q : Fin 128) (r : Fin 130000) (hr : r.val = 5000 * t.val + p.val) :
    (((cfg0.win 4).blk t).view.read (Elt Ideal) G : Vec Ideal S5000x128 .f32) (ix2 p q) = G (ix2 r q) := by
  rw [View.read_apply, emb0_4 t p q r hr]
  rfl

/-- Input window 0's block at point `t`, at `(p, k)`, is its array at row `5000 t + p`, column `k`. -/
theorem iblk0_0_apply (c : Dev nD) (t : Fin cfg0.N) (p : Fin 5000) (k : Fin 128) (r : Fin 130000) (hr : r.val = 5000 * t.val + p.val) :
    (iblk0 V c 0 t : Vec Ideal S5000x128 .f32) (ix2 p k) = (V c (Pipeline.arrRef spec0 0) : S130000x128.Idx → EReal) (ix2 r k) :=
  read_blk0_0 (V c (Pipeline.arrRef spec0 0)) t p k r hr

/-- Input window 1's block at point `t`, at `(p, k)`, is its array at row `5000 t + p`, column `k`. -/
theorem iblk0_1_apply (c : Dev nD) (t : Fin cfg0.N) (p : Fin 5000) (k : Fin 128) (r : Fin 130000) (hr : r.val = 5000 * t.val + p.val) :
    (iblk0 V c 1 t : Vec Ideal S5000x128 .f32) (ix2 p k) = (V c (Pipeline.arrRef spec0 1) : S130000x128.Idx → EReal) (ix2 r k) :=
  read_blk0_1 (V c (Pipeline.arrRef spec0 1)) t p k r hr

/-- Row `p` of input window 0's block at point `t` is row `5000 t + p` of its array. -/
theorem row_iblk0_0 (c : Dev nD) (t : Fin cfg0.N) (p : Fin 5000) (r : Fin 130000) (hr : r.val = 5000 * t.val + p.val) :
    row (iblk0 V c 0 t) p = fun k => (V c (Pipeline.arrRef spec0 0) : S130000x128.Idx → EReal) (ix2 r k) :=
  funext fun k => iblk0_0_apply V c t p k r hr

/-- Row `p` of input window 1's block at point `t` is row `5000 t + p` of its array. -/
theorem row_iblk0_1 (c : Dev nD) (t : Fin cfg0.N) (p : Fin 5000) (r : Fin 130000) (hr : r.val = 5000 * t.val + p.val) :
    row (iblk0 V c 1 t) p = fun k => (V c (Pipeline.arrRef spec0 1) : S130000x128.Idx → EReal) (ix2 r k) :=
  funext fun k => iblk0_1_apply V c t p k r hr

/-- An index of the array is in point `t`'s block of window 4 iff each coordinate is in the block's range on its axis. -/
theorem mem_blk0_4 (t : Fin cfg0.N) (i : S130000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v44_2).slice (win0_4.rect t)).set ↔ _
  rw [View.set_slice_whole, Rect.mem_set_unit]
  exact Iff.rfl

/-- Window 4's blocks tile its array: row `r` is in the block of point `r / 5000`. -/
theorem cover0_4 (i : S130000x128.Idx) : ∃ t : Fin cfg0.N, (cfg0.win 4).flush t = true ∧ i ∈ ((cfg0.win 4).blk t).view.set := by
  have hi0 : (i 0).val < 130000 := idx2_lt0 i
  have hi1 : (i 1).val < 128 := idx2_lt1 i
  have hN : cfg0.N = 26 := N_0
  let t : Fin cfg0.N := ⟨(i 0).val / 5000, by rw [hN]; omega⟩
  have htv : t.val = (i 0).val / 5000 := rfl
  obtain ⟨e00, e01, e10, e11, e20, e21, e30, e31, e40, e41⟩ := idx_facts0 t
  refine ⟨t, flush0_4 t, ?_⟩
  rw [mem_blk0_4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- What window 4's array ends holding, row by row, as a function of the input arrays. -/
def G0_ini (A1 : S130000x128.Idx → EReal) : S130000x128.Idx → EReal :=
  fun i => g0_ini A1 (i 0) (i 1)

/-- The payload of window 4's store at point `t`, at `(p, q)`: the target at row `5000 t + p`. -/
theorem pay0_4_at (c : Dev nD) (t : Fin cfg0.N) (p : Fin 5000) (q : Fin 128) (r : Fin 130000) (hr : r.val = 5000 * t.val + p.val) :
    k0_pay2 (F := Ideal) (iblk0 V c 1 t) (ix2 p q) = g0_ini (V c (Pipeline.arrRef spec0 1)) r q := by
  rw [pay_ini]
  unfold g0_ini
  rw [row_iblk0_1 V c t p r hr]

/-- What point `t` writes back through window 4 is block `t` of `G0_ini` of the input arrays. -/
theorem flushed0_4_eq (c : Dev nD) (t : Fin cfg0.N) (hf : (cfg0.win 4).flush t = true) :
    (dat0 (F := Ideal) V c).flushed 4 t = ((cfg0.win 4).blk t).view.read (Elt Ideal) (G0_ini (V c (Pipeline.arrRef spec0 1))) := by
  show (cfg0.win 4).cut (grid0.coords t) ((dat0 V c).after 4 t) = _
  rw [after0_4]
  unfold out0_4
  rw [View.canon_unit_zero blk_hz]
  simp only [View.ld_unit_zero (S := S5000x128) blk_hz]
  refine blk_ext (fun p q => ?_)
  have ht := lt_N0 t
  have hp := p.isLt
  obtain ⟨r, hr⟩ : ∃ r : Fin 130000, r.val = 5000 * t.val + p.val := ⟨⟨5000 * t.val + p.val, by omega⟩, rfl⟩
  rw [read_blk0_4 _ t p q r hr]
  exact pay0_4_at V c t p q r hr

/-- Window 4's array after the region. -/
theorem final0_4 (c : Dev nD) : (dat0 (F := Ideal) V c).arrAt 4 cfg0.N = G0_ini (V c (Pipeline.arrRef spec0 1)) :=
  (dat0 (F := Ideal) V c).arrAt_eq_of_cover 4 _ (flushed0_4_eq V c) cover0_4

/-- An index of the array is in point `t`'s block of window 2 iff each coordinate is in the block's range on its axis. -/
theorem mem_blk0_2 (t : Fin cfg0.N) (i : S130000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v44_0).slice (win0_2.rect t)).set ↔ _
  rw [View.set_slice_whole, Rect.mem_set_unit]
  exact Iff.rfl

/-- Window 2's blocks tile its array: row `r` is in the block of point `r / 5000`. -/
theorem cover0_2 (i : S130000x128.Idx) : ∃ t : Fin cfg0.N, (cfg0.win 2).flush t = true ∧ i ∈ ((cfg0.win 2).blk t).view.set := by
  have hi0 : (i 0).val < 130000 := idx2_lt0 i
  have hi1 : (i 1).val < 128 := idx2_lt1 i
  have hN : cfg0.N = 26 := N_0
  let t : Fin cfg0.N := ⟨(i 0).val / 5000, by rw [hN]; omega⟩
  have htv : t.val = (i 0).val / 5000 := rfl
  obtain ⟨e00, e01, e10, e11, e20, e21, e30, e31, e40, e41⟩ := idx_facts0 t
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- What window 2's array ends holding, row by row, as a function of the input arrays. -/
def G0_feat (A0 : S130000x128.Idx → EReal) (A1 : S130000x128.Idx → EReal) : S130000x128.Idx → EReal :=
  fun i => g0_feat A0 A1 (i 0) (i 1)

/-- The payload of window 2's store at point `t`, at `(p, q)`: the target at row `5000 t + p`. -/
theorem pay0_2_at (c : Dev nD) (t : Fin cfg0.N) (p : Fin 5000) (q : Fin 128) (r : Fin 130000) (hr : r.val = 5000 * t.val + p.val) :
    k0_pay3 (F := Ideal) (iblk0 V c 1 t) (iblk0 V c 0 t) (ix2 p q) = g0_feat (V c (Pipeline.arrRef spec0 0)) (V c (Pipeline.arrRef spec0 1)) r q := by
  rw [pay_feat]
  unfold g0_feat
  rw [row_iblk0_0 V c t p r hr, row_iblk0_1 V c t p r hr]

/-- What point `t` writes back through window 2 is block `t` of `G0_feat` of the input arrays. -/
theorem flushed0_2_eq (c : Dev nD) (t : Fin cfg0.N) (hf : (cfg0.win 2).flush t = true) :
    (dat0 (F := Ideal) V c).flushed 2 t = ((cfg0.win 2).blk t).view.read (Elt Ideal) (G0_feat (V c (Pipeline.arrRef spec0 0)) (V c (Pipeline.arrRef spec0 1))) := by
  show (cfg0.win 2).cut (grid0.coords t) ((dat0 V c).after 2 t) = _
  rw [after0_2]
  unfold out0_2
  rw [View.canon_unit_zero blk_hz]
  simp only [View.ld_unit_zero (S := S5000x128) blk_hz]
  refine blk_ext (fun p q => ?_)
  have ht := lt_N0 t
  have hp := p.isLt
  obtain ⟨r, hr⟩ : ∃ r : Fin 130000, r.val = 5000 * t.val + p.val := ⟨⟨5000 * t.val + p.val, by omega⟩, rfl⟩
  rw [read_blk0_2 _ t p q r hr]
  exact pay0_2_at V c t p q r hr

/-- Window 2's array after the region. -/
theorem final0_2 (c : Dev nD) : (dat0 (F := Ideal) V c).arrAt 2 cfg0.N = G0_feat (V c (Pipeline.arrRef spec0 0)) (V c (Pipeline.arrRef spec0 1)) :=
  (dat0 (F := Ideal) V c).arrAt_eq_of_cover 2 _ (flushed0_2_eq V c) cover0_2

/-- An index of the array is in point `t`'s block of window 3 iff each coordinate is in the block's range on its axis. -/
theorem mem_blk0_3 (t : Fin cfg0.N) (i : S130000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v44_1).slice (win0_3.rect t)).set ↔ _
  rw [View.set_slice_whole, Rect.mem_set_unit]
  exact Iff.rfl

/-- Window 3's blocks tile its array: row `r` is in the block of point `r / 5000`. -/
theorem cover0_3 (i : S130000x128.Idx) : ∃ t : Fin cfg0.N, (cfg0.win 3).flush t = true ∧ i ∈ ((cfg0.win 3).blk t).view.set := by
  have hi0 : (i 0).val < 130000 := idx2_lt0 i
  have hi1 : (i 1).val < 128 := idx2_lt1 i
  have hN : cfg0.N = 26 := N_0
  let t : Fin cfg0.N := ⟨(i 0).val / 5000, by rw [hN]; omega⟩
  have htv : t.val = (i 0).val / 5000 := rfl
  obtain ⟨e00, e01, e10, e11, e20, e21, e30, e31, e40, e41⟩ := idx_facts0 t
  refine ⟨t, flush0_3 t, ?_⟩
  rw [mem_blk0_3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- What window 3's array ends holding, row by row, as a function of the input arrays. -/
def G0_acc (A0 : S130000x128.Idx → EReal) (A1 : S130000x128.Idx → EReal) : S130000x128.Idx → EReal :=
  fun i => g0_acc A0 A1 (i 0) (i 1)

/-- The payload of window 3's store at point `t`, at `(p, q)`: the target at row `5000 t + p`. -/
theorem pay0_3_at (c : Dev nD) (t : Fin cfg0.N) (p : Fin 5000) (q : Fin 128) (r : Fin 130000) (hr : r.val = 5000 * t.val + p.val) :
    k0_pay4 (F := Ideal) (iblk0 V c 1 t) (iblk0 V c 0 t) (ix2 p q) = g0_acc (V c (Pipeline.arrRef spec0 0)) (V c (Pipeline.arrRef spec0 1)) r q := by
  rw [pay_acc]
  unfold g0_acc
  rw [iblk0_1_apply V c t p q r hr, row_iblk0_0 V c t p r hr, row_iblk0_1 V c t p r hr]

/-- What point `t` writes back through window 3 is block `t` of `G0_acc` of the input arrays. -/
theorem flushed0_3_eq (c : Dev nD) (t : Fin cfg0.N) (hf : (cfg0.win 3).flush t = true) :
    (dat0 (F := Ideal) V c).flushed 3 t = ((cfg0.win 3).blk t).view.read (Elt Ideal) (G0_acc (V c (Pipeline.arrRef spec0 0)) (V c (Pipeline.arrRef spec0 1))) := by
  show (cfg0.win 3).cut (grid0.coords t) ((dat0 V c).after 3 t) = _
  rw [after0_3]
  unfold out0_3
  rw [View.canon_unit_zero blk_hz]
  simp only [View.ld_unit_zero (S := S5000x128) blk_hz]
  refine blk_ext (fun p q => ?_)
  have ht := lt_N0 t
  have hp := p.isLt
  obtain ⟨r, hr⟩ : ∃ r : Fin 130000, r.val = 5000 * t.val + p.val := ⟨⟨5000 * t.val + p.val, by omega⟩, rfl⟩
  rw [read_blk0_3 _ t p q r hr]
  exact pay0_3_at V c t p q r hr

/-- Window 3's array after the region. -/
theorem final0_3 (c : Dev nD) : (dat0 (F := Ideal) V c).arrAt 3 cfg0.N = G0_acc (V c (Pipeline.arrRef spec0 0)) (V c (Pipeline.arrRef spec0 1)) :=
  (dat0 (F := Ideal) V c).arrAt_eq_of_cover 3 _ (flushed0_3_eq V c) cover0_3

/-- The normalised raw features after region 0, at row `r`, column `j`. -/
theorem arr0_ini (c : Dev nD) (r : Fin 130000) (j : Fin 128) : (dat0 (F := Ideal) V c).arrAt 4 cfg0.N (ix2 r j) = g0_ini (V c (Pipeline.arrRef spec0 1)) r j :=
  congrFun (final0_4 V c) (ix2 r j)
/-- The new features after region 0, at row `r`, column `j`. -/
theorem arr0_feat (c : Dev nD) (r : Fin 130000) (j : Fin 128) : (dat0 (F := Ideal) V c).arrAt 2 cfg0.N (ix2 r j) = g0_feat (V c (Pipeline.arrRef spec0 0)) (V c (Pipeline.arrRef spec0 1)) r j :=
  congrFun (final0_2 V c) (ix2 r j)
/-- The running sum after region 0, at row `r`, column `j`. -/
theorem arr0_acc (c : Dev nD) (r : Fin 130000) (j : Fin 128) : (dat0 (F := Ideal) V c).arrAt 3 cfg0.N (ix2 r j) = g0_acc (V c (Pipeline.arrRef spec0 0)) (V c (Pipeline.arrRef spec0 1)) r j :=
  congrFun (final0_3 V c) (ix2 r j)

/-- The later mix of the propagated row and the normalised initial row, normalised. -/
def g1_feat (A0 A1 : S130000x128.Idx → EReal) (r : Fin 130000) (j : Fin 128) : EReal :=
  unit 0 eps (fun k => A0 (ix2 r k) * cThird + A1 (ix2 r k) * cSixth) j
/-- The running sum's row plus that. -/
def g1_acc (A0 A1 A2 : S130000x128.Idx → EReal) (r : Fin 130000) (j : Fin 128) : EReal :=
  A2 (ix2 r j) + unit 0 eps (fun k => A0 (ix2 r k) * cThird + A1 (ix2 r k) * cSixth) j

/-! ## Region 1 -/

/-- Region 1's index maps, decided over the grid: every window's block index at point `t` is `(t, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem lt_N1 (t : Fin cfg1.N) : t.val < 26 := lt_of_lt_of_eq t.isLt N_1

/-- Where window 0's block at point `t` sits in its array: block index `(p, q)` is array index `(5000 t + p, q)`. -/
theorem emb1_0 (t : Fin cfg1.N) (p : Fin 5000) (q : Fin 128) (r : Fin 130000) (hr : r.val = 5000 * t.val + p.val) :
    ((cfg1.win 0).blk t).view.emb (ix2 p q) = (ix2 r q : S130000x128.Idx) := by
  obtain ⟨e00, e01, e10, e11, e20, e21, e30, e31, e40, e41⟩ := idx_facts1 t
  funext a
  apply Fin.ext
  match a with
  | ⟨0, _⟩ => show win1_0.index t (0 : Fin 2) * 5000 + 1 * p.val = r.val; omega
  | ⟨1, _⟩ => show win1_0.index t (1 : Fin 2) * 128 + 1 * q.val = q.val; omega

/-- So an array read through that block, at `(p, q)`, is the array at `(5000 t + p, q)`. -/
theorem read_blk1_0 (G : S130000x128.Idx → EReal) (t : Fin cfg1.N) (p : Fin 5000) (q : Fin 128) (r : Fin 130000) (hr : r.val = 5000 * t.val + p.val) :
    (((cfg1.win 0).blk t).view.read (Elt Ideal) G : Vec Ideal S5000x128 .f32) (ix2 p q) = G (ix2 r q) := by
  rw [View.read_apply, emb1_0 t p q r hr]
  rfl

/-- Where window 1's block at point `t` sits in its array: block index `(p, q)` is array index `(5000 t + p, q)`. -/
theorem emb1_1 (t : Fin cfg1.N) (p : Fin 5000) (q : Fin 128) (r : Fin 130000) (hr : r.val = 5000 * t.val + p.val) :
    ((cfg1.win 1).blk t).view.emb (ix2 p q) = (ix2 r q : S130000x128.Idx) := by
  obtain ⟨e00, e01, e10, e11, e20, e21, e30, e31, e40, e41⟩ := idx_facts1 t
  funext a
  apply Fin.ext
  match a with
  | ⟨0, _⟩ => show win1_1.index t (0 : Fin 2) * 5000 + 1 * p.val = r.val; omega
  | ⟨1, _⟩ => show win1_1.index t (1 : Fin 2) * 128 + 1 * q.val = q.val; omega

/-- So an array read through that block, at `(p, q)`, is the array at `(5000 t + p, q)`. -/
theorem read_blk1_1 (G : S130000x128.Idx → EReal) (t : Fin cfg1.N) (p : Fin 5000) (q : Fin 128) (r : Fin 130000) (hr : r.val = 5000 * t.val + p.val) :
    (((cfg1.win 1).blk t).view.read (Elt Ideal) G : Vec Ideal S5000x128 .f32) (ix2 p q) = G (ix2 r q) := by
  rw [View.read_apply, emb1_1 t p q r hr]
  rfl

/-- Where window 2's block at point `t` sits in its array: block index `(p, q)` is array index `(5000 t + p, q)`. -/
theorem emb1_2 (t : Fin cfg1.N) (p : Fin 5000) (q : Fin 128) (r : Fin 130000) (hr : r.val = 5000 * t.val + p.val) :
    ((cfg1.win 2).blk t).view.emb (ix2 p q) = (ix2 r q : S130000x128.Idx) := by
  obtain ⟨e00, e01, e10, e11, e20, e21, e30, e31, e40, e41⟩ := idx_facts1 t
  funext a
  apply Fin.ext
  match a with
  | ⟨0, _⟩ => show win1_2.index t (0 : Fin 2) * 5000 + 1 * p.val = r.val; omega
  | ⟨1, _⟩ => show win1_2.index t (1 : Fin 2) * 128 + 1 * q.val = q.val; omega

/-- So an array read through that block, at `(p, q)`, is the array at `(5000 t + p, q)`. -/
theorem read_blk1_2 (G : S130000x128.Idx → EReal) (t : Fin cfg1.N) (p : Fin 5000) (q : Fin 128) (r : Fin 130000) (hr : r.val = 5000 * t.val + p.val) :
    (((cfg1.win 2).blk t).view.read (Elt Ideal) G : Vec Ideal S5000x128 .f32) (ix2 p q) = G (ix2 r q) := by
  rw [View.read_apply, emb1_2 t p q r hr]
  rfl

/-- Where window 3's block at point `t` sits in its array: block index `(p, q)` is array index `(5000 t + p, q)`. -/
theorem emb1_3 (t : Fin cfg1.N) (p : Fin 5000) (q : Fin 128) (r : Fin 130000) (hr : r.val = 5000 * t.val + p.val) :
    ((cfg1.win 3).blk t).view.emb (ix2 p q) = (ix2 r q : S130000x128.Idx) := by
  obtain ⟨e00, e01, e10, e11, e20, e21, e30, e31, e40, e41⟩ := idx_facts1 t
  funext a
  apply Fin.ext
  match a with
  | ⟨0, _⟩ => show win1_3.index t (0 : Fin 2) * 5000 + 1 * p.val = r.val; omega
  | ⟨1, _⟩ => show win1_3.index t (1 : Fin 2) * 128 + 1 * q.val = q.val; omega

/-- So an array read through that block, at `(p, q)`, is the array at `(5000 t + p, q)`. -/
theorem read_blk1_3 (G : S130000x128.Idx → EReal) (t : Fin cfg1.N) (p : Fin 5000) (q : Fin 128) (r : Fin 130000) (hr : r.val = 5000 * t.val + p.val) :
    (((cfg1.win 3).blk t).view.read (Elt Ideal) G : Vec Ideal S5000x128 .f32) (ix2 p q) = G (ix2 r q) := by
  rw [View.read_apply, emb1_3 t p q r hr]
  rfl

/-- Where window 4's block at point `t` sits in its array: block index `(p, q)` is array index `(5000 t + p, q)`. -/
theorem emb1_4 (t : Fin cfg1.N) (p : Fin 5000) (q : Fin 128) (r : Fin 130000) (hr : r.val = 5000 * t.val + p.val) :
    ((cfg1.win 4).blk t).view.emb (ix2 p q) = (ix2 r q : S130000x128.Idx) := by
  obtain ⟨e00, e01, e10, e11, e20, e21, e30, e31, e40, e41⟩ := idx_facts1 t
  funext a
  apply Fin.ext
  match a with
  | ⟨0, _⟩ => show win1_4.index t (0 : Fin 2) * 5000 + 1 * p.val = r.val; omega
  | ⟨1, _⟩ => show win1_4.index t (1 : Fin 2) * 128 + 1 * q.val = q.val; omega

/-- So an array read through that block, at `(p, q)`, is the array at `(5000 t + p, q)`. -/
theorem read_blk1_4 (G : S130000x128.Idx → EReal) (t : Fin cfg1.N) (p : Fin 5000) (q : Fin 128) (r : Fin 130000) (hr : r.val = 5000 * t.val + p.val) :
    (((cfg1.win 4).blk t).view.read (Elt Ideal) G : Vec Ideal S5000x128 .f32) (ix2 p q) = G (ix2 r q) := by
  rw [View.read_apply, emb1_4 t p q r hr]
  rfl

/-- Input window 0's block at point `t`, at `(p, k)`, is its array at row `5000 t + p`, column `k`. -/
theorem iblk1_0_apply (c : Dev nD) (t : Fin cfg1.N) (p : Fin 5000) (k : Fin 128) (r : Fin 130000) (hr : r.val = 5000 * t.val + p.val) :
    (iblk1 V c 0 t : Vec Ideal S5000x128 .f32) (ix2 p k) = (V c (Pipeline.arrRef spec1 0) : S130000x128.Idx → EReal) (ix2 r k) :=
  read_blk1_0 (V c (Pipeline.arrRef spec1 0)) t p k r hr

/-- Input window 1's block at point `t`, at `(p, k)`, is its array at row `5000 t + p`, column `k`. -/
theorem iblk1_1_apply (c : Dev nD) (t : Fin cfg1.N) (p : Fin 5000) (k : Fin 128) (r : Fin 130000) (hr : r.val = 5000 * t.val + p.val) :
    (iblk1 V c 1 t : Vec Ideal S5000x128 .f32) (ix2 p k) = (V c (Pipeline.arrRef spec1 1) : S130000x128.Idx → EReal) (ix2 r k) :=
  read_blk1_1 (V c (Pipeline.arrRef spec1 1)) t p k r hr

/-- Input window 2's block at point `t`, at `(p, k)`, is its array at row `5000 t + p`, column `k`. -/
theorem iblk1_2_apply (c : Dev nD) (t : Fin cfg1.N) (p : Fin 5000) (k : Fin 128) (r : Fin 130000) (hr : r.val = 5000 * t.val + p.val) :
    (iblk1 V c 2 t : Vec Ideal S5000x128 .f32) (ix2 p k) = (V c (Pipeline.arrRef spec1 2) : S130000x128.Idx → EReal) (ix2 r k) :=
  read_blk1_2 (V c (Pipeline.arrRef spec1 2)) t p k r hr

/-- Row `p` of input window 0's block at point `t` is row `5000 t + p` of its array. -/
theorem row_iblk1_0 (c : Dev nD) (t : Fin cfg1.N) (p : Fin 5000) (r : Fin 130000) (hr : r.val = 5000 * t.val + p.val) :
    row (iblk1 V c 0 t) p = fun k => (V c (Pipeline.arrRef spec1 0) : S130000x128.Idx → EReal) (ix2 r k) :=
  funext fun k => iblk1_0_apply V c t p k r hr

/-- Row `p` of input window 1's block at point `t` is row `5000 t + p` of its array. -/
theorem row_iblk1_1 (c : Dev nD) (t : Fin cfg1.N) (p : Fin 5000) (r : Fin 130000) (hr : r.val = 5000 * t.val + p.val) :
    row (iblk1 V c 1 t) p = fun k => (V c (Pipeline.arrRef spec1 1) : S130000x128.Idx → EReal) (ix2 r k) :=
  funext fun k => iblk1_1_apply V c t p k r hr

/-- Row `p` of input window 2's block at point `t` is row `5000 t + p` of its array. -/
theorem row_iblk1_2 (c : Dev nD) (t : Fin cfg1.N) (p : Fin 5000) (r : Fin 130000) (hr : r.val = 5000 * t.val + p.val) :
    row (iblk1 V c 2 t) p = fun k => (V c (Pipeline.arrRef spec1 2) : S130000x128.Idx → EReal) (ix2 r k) :=
  funext fun k => iblk1_2_apply V c t p k r hr

/-- An index of the array is in point `t`'s block of window 4 iff each coordinate is in the block's range on its axis. -/
theorem mem_blk1_4 (t : Fin cfg1.N) (i : S130000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v58_1).slice (win1_4.rect t)).set ↔ _
  rw [View.set_slice_whole, Rect.mem_set_unit]
  exact Iff.rfl

/-- Window 4's blocks tile its array: row `r` is in the block of point `r / 5000`. -/
theorem cover1_4 (i : S130000x128.Idx) : ∃ t : Fin cfg1.N, (cfg1.win 4).flush t = true ∧ i ∈ ((cfg1.win 4).blk t).view.set := by
  have hi0 : (i 0).val < 130000 := idx2_lt0 i
  have hi1 : (i 1).val < 128 := idx2_lt1 i
  have hN : cfg1.N = 26 := N_1
  let t : Fin cfg1.N := ⟨(i 0).val / 5000, by rw [hN]; omega⟩
  have htv : t.val = (i 0).val / 5000 := rfl
  obtain ⟨e00, e01, e10, e11, e20, e21, e30, e31, e40, e41⟩ := idx_facts1 t
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- What window 4's array ends holding, row by row, as a function of the input arrays. -/
def G1_acc (A0 : S130000x128.Idx → EReal) (A1 : S130000x128.Idx → EReal) (A2 : S130000x128.Idx → EReal) : S130000x128.Idx → EReal :=
  fun i => g1_acc A0 A1 A2 (i 0) (i 1)

/-- The payload of window 4's store at point `t`, at `(p, q)`: the target at row `5000 t + p`. -/
theorem pay1_4_at (c : Dev nD) (t : Fin cfg1.N) (p : Fin 5000) (q : Fin 128) (r : Fin 130000) (hr : r.val = 5000 * t.val + p.val) :
    k1_pay2 (F := Ideal) (iblk1 V c 0 t) (iblk1 V c 1 t) (iblk1 V c 2 t) (ix2 p q) = g1_acc (V c (Pipeline.arrRef spec1 0)) (V c (Pipeline.arrRef spec1 1)) (V c (Pipeline.arrRef spec1 2)) r q := by
  rw [pay_acc']
  unfold g1_acc
  rw [iblk1_2_apply V c t p q r hr, row_iblk1_0 V c t p r hr, row_iblk1_1 V c t p r hr]

/-- What point `t` writes back through window 4 is block `t` of `G1_acc` of the input arrays. -/
theorem flushed1_4_eq (c : Dev nD) (t : Fin cfg1.N) (hf : (cfg1.win 4).flush t = true) :
    (dat1 (F := Ideal) V c).flushed 4 t = ((cfg1.win 4).blk t).view.read (Elt Ideal) (G1_acc (V c (Pipeline.arrRef spec1 0)) (V c (Pipeline.arrRef spec1 1)) (V c (Pipeline.arrRef spec1 2))) := by
  show (cfg1.win 4).cut (grid1.coords t) ((dat1 V c).after 4 t) = _
  rw [after1_4]
  unfold out1_4
  rw [View.canon_unit_zero blk_hz]
  simp only [View.ld_unit_zero (S := S5000x128) blk_hz]
  refine blk_ext (fun p q => ?_)
  have ht := lt_N1 t
  have hp := p.isLt
  obtain ⟨r, hr⟩ : ∃ r : Fin 130000, r.val = 5000 * t.val + p.val := ⟨⟨5000 * t.val + p.val, by omega⟩, rfl⟩
  rw [read_blk1_4 _ t p q r hr]
  exact pay1_4_at V c t p q r hr

/-- Window 4's array after the region. -/
theorem final1_4 (c : Dev nD) : (dat1 (F := Ideal) V c).arrAt 4 cfg1.N = G1_acc (V c (Pipeline.arrRef spec1 0)) (V c (Pipeline.arrRef spec1 1)) (V c (Pipeline.arrRef spec1 2)) :=
  (dat1 (F := Ideal) V c).arrAt_eq_of_cover 4 _ (flushed1_4_eq V c) cover1_4

/-- An index of the array is in point `t`'s block of window 3 iff each coordinate is in the block's range on its axis. -/
theorem mem_blk1_3 (t : Fin cfg1.N) (i : S130000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v58_0).slice (win1_3.rect t)).set ↔ _
  rw [View.set_slice_whole, Rect.mem_set_unit]
  exact Iff.rfl

/-- Window 3's blocks tile its array: row `r` is in the block of point `r / 5000`. -/
theorem cover1_3 (i : S130000x128.Idx) : ∃ t : Fin cfg1.N, (cfg1.win 3).flush t = true ∧ i ∈ ((cfg1.win 3).blk t).view.set := by
  have hi0 : (i 0).val < 130000 := idx2_lt0 i
  have hi1 : (i 1).val < 128 := idx2_lt1 i
  have hN : cfg1.N = 26 := N_1
  let t : Fin cfg1.N := ⟨(i 0).val / 5000, by rw [hN]; omega⟩
  have htv : t.val = (i 0).val / 5000 := rfl
  obtain ⟨e00, e01, e10, e11, e20, e21, e30, e31, e40, e41⟩ := idx_facts1 t
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- What window 3's array ends holding, row by row, as a function of the input arrays. -/
def G1_feat (A0 : S130000x128.Idx → EReal) (A1 : S130000x128.Idx → EReal) : S130000x128.Idx → EReal :=
  fun i => g1_feat A0 A1 (i 0) (i 1)

/-- The payload of window 3's store at point `t`, at `(p, q)`: the target at row `5000 t + p`. -/
theorem pay1_3_at (c : Dev nD) (t : Fin cfg1.N) (p : Fin 5000) (q : Fin 128) (r : Fin 130000) (hr : r.val = 5000 * t.val + p.val) :
    k1_pay1 (F := Ideal) (iblk1 V c 0 t) (iblk1 V c 1 t) (ix2 p q) = g1_feat (V c (Pipeline.arrRef spec1 0)) (V c (Pipeline.arrRef spec1 1)) r q := by
  rw [pay_feat']
  unfold g1_feat
  rw [row_iblk1_0 V c t p r hr, row_iblk1_1 V c t p r hr]

/-- What point `t` writes back through window 3 is block `t` of `G1_feat` of the input arrays. -/
theorem flushed1_3_eq (c : Dev nD) (t : Fin cfg1.N) (hf : (cfg1.win 3).flush t = true) :
    (dat1 (F := Ideal) V c).flushed 3 t = ((cfg1.win 3).blk t).view.read (Elt Ideal) (G1_feat (V c (Pipeline.arrRef spec1 0)) (V c (Pipeline.arrRef spec1 1))) := by
  show (cfg1.win 3).cut (grid1.coords t) ((dat1 V c).after 3 t) = _
  rw [after1_3]
  unfold out1_3
  rw [View.canon_unit_zero blk_hz]
  simp only [View.ld_unit_zero (S := S5000x128) blk_hz]
  refine blk_ext (fun p q => ?_)
  have ht := lt_N1 t
  have hp := p.isLt
  obtain ⟨r, hr⟩ : ∃ r : Fin 130000, r.val = 5000 * t.val + p.val := ⟨⟨5000 * t.val + p.val, by omega⟩, rfl⟩
  rw [read_blk1_3 _ t p q r hr]
  exact pay1_3_at V c t p q r hr

/-- Window 3's array after the region. -/
theorem final1_3 (c : Dev nD) : (dat1 (F := Ideal) V c).arrAt 3 cfg1.N = G1_feat (V c (Pipeline.arrRef spec1 0)) (V c (Pipeline.arrRef spec1 1)) :=
  (dat1 (F := Ideal) V c).arrAt_eq_of_cover 3 _ (flushed1_3_eq V c) cover1_3

/-- The running sum after region 1, at row `r`, column `j`. -/
theorem arr1_acc (c : Dev nD) (r : Fin 130000) (j : Fin 128) : (dat1 (F := Ideal) V c).arrAt 4 cfg1.N (ix2 r j) = g1_acc (V c (Pipeline.arrRef spec1 0)) (V c (Pipeline.arrRef spec1 1)) (V c (Pipeline.arrRef spec1 2)) r j :=
  congrFun (final1_4 V c) (ix2 r j)
/-- The new features after region 1, at row `r`, column `j`. -/
theorem arr1_feat (c : Dev nD) (r : Fin 130000) (j : Fin 128) : (dat1 (F := Ideal) V c).arrAt 3 cfg1.N (ix2 r j) = g1_feat (V c (Pipeline.arrRef spec1 0)) (V c (Pipeline.arrRef spec1 1)) r j :=
  congrFun (final1_3 V c) (ix2 r j)

/-- The raw row, normalised. -/
def g2_ini (A1 : S150000x128.Idx → EReal) (r : Fin 150000) (j : Fin 128) : EReal :=
  unit 0 eps (fun k => A1 (ix2 r k)) j
/-- The first mix of the propagated row and the normalised raw row, normalised. -/
def g2_feat (A0 A1 : S150000x128.Idx → EReal) (r : Fin 150000) (j : Fin 128) : EReal :=
  unit 0 eps (fun k => A0 (ix2 r k) * cHalf + unit 0 eps (fun k' => A1 (ix2 r k')) k * cQuarter) j
/-- The raw row plus that. -/
def g2_acc (A0 A1 : S150000x128.Idx → EReal) (r : Fin 150000) (j : Fin 128) : EReal :=
  A1 (ix2 r j) + unit 0 eps (fun k => A0 (ix2 r k) * cHalf + unit 0 eps (fun k' => A1 (ix2 r k')) k * cQuarter) j

/-! ## Region 2 -/

/-- Region 2's index maps, decided over the grid: every window's block index at point `t` is `(t, 0)`. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem lt_N2 (t : Fin cfg2.N) : t.val < 30 := lt_of_lt_of_eq t.isLt N_2

/-- Where window 0's block at point `t` sits in its array: block index `(p, q)` is array index `(5000 t + p, q)`. -/
theorem emb2_0 (t : Fin cfg2.N) (p : Fin 5000) (q : Fin 128) (r : Fin 150000) (hr : r.val = 5000 * t.val + p.val) :
    ((cfg2.win 0).blk t).view.emb (ix2 p q) = (ix2 r q : S150000x128.Idx) := by
  obtain ⟨e00, e01, e10, e11, e20, e21, e30, e31, e40, e41⟩ := idx_facts2 t
  funext a
  apply Fin.ext
  match a with
  | ⟨0, _⟩ => show win2_0.index t (0 : Fin 2) * 5000 + 1 * p.val = r.val; omega
  | ⟨1, _⟩ => show win2_0.index t (1 : Fin 2) * 128 + 1 * q.val = q.val; omega

/-- So an array read through that block, at `(p, q)`, is the array at `(5000 t + p, q)`. -/
theorem read_blk2_0 (G : S150000x128.Idx → EReal) (t : Fin cfg2.N) (p : Fin 5000) (q : Fin 128) (r : Fin 150000) (hr : r.val = 5000 * t.val + p.val) :
    (((cfg2.win 0).blk t).view.read (Elt Ideal) G : Vec Ideal S5000x128 .f32) (ix2 p q) = G (ix2 r q) := by
  rw [View.read_apply, emb2_0 t p q r hr]
  rfl

/-- Where window 1's block at point `t` sits in its array: block index `(p, q)` is array index `(5000 t + p, q)`. -/
theorem emb2_1 (t : Fin cfg2.N) (p : Fin 5000) (q : Fin 128) (r : Fin 150000) (hr : r.val = 5000 * t.val + p.val) :
    ((cfg2.win 1).blk t).view.emb (ix2 p q) = (ix2 r q : S150000x128.Idx) := by
  obtain ⟨e00, e01, e10, e11, e20, e21, e30, e31, e40, e41⟩ := idx_facts2 t
  funext a
  apply Fin.ext
  match a with
  | ⟨0, _⟩ => show win2_1.index t (0 : Fin 2) * 5000 + 1 * p.val = r.val; omega
  | ⟨1, _⟩ => show win2_1.index t (1 : Fin 2) * 128 + 1 * q.val = q.val; omega

/-- So an array read through that block, at `(p, q)`, is the array at `(5000 t + p, q)`. -/
theorem read_blk2_1 (G : S150000x128.Idx → EReal) (t : Fin cfg2.N) (p : Fin 5000) (q : Fin 128) (r : Fin 150000) (hr : r.val = 5000 * t.val + p.val) :
    (((cfg2.win 1).blk t).view.read (Elt Ideal) G : Vec Ideal S5000x128 .f32) (ix2 p q) = G (ix2 r q) := by
  rw [View.read_apply, emb2_1 t p q r hr]
  rfl

/-- Where window 2's block at point `t` sits in its array: block index `(p, q)` is array index `(5000 t + p, q)`. -/
theorem emb2_2 (t : Fin cfg2.N) (p : Fin 5000) (q : Fin 128) (r : Fin 150000) (hr : r.val = 5000 * t.val + p.val) :
    ((cfg2.win 2).blk t).view.emb (ix2 p q) = (ix2 r q : S150000x128.Idx) := by
  obtain ⟨e00, e01, e10, e11, e20, e21, e30, e31, e40, e41⟩ := idx_facts2 t
  funext a
  apply Fin.ext
  match a with
  | ⟨0, _⟩ => show win2_2.index t (0 : Fin 2) * 5000 + 1 * p.val = r.val; omega
  | ⟨1, _⟩ => show win2_2.index t (1 : Fin 2) * 128 + 1 * q.val = q.val; omega

/-- So an array read through that block, at `(p, q)`, is the array at `(5000 t + p, q)`. -/
theorem read_blk2_2 (G : S150000x128.Idx → EReal) (t : Fin cfg2.N) (p : Fin 5000) (q : Fin 128) (r : Fin 150000) (hr : r.val = 5000 * t.val + p.val) :
    (((cfg2.win 2).blk t).view.read (Elt Ideal) G : Vec Ideal S5000x128 .f32) (ix2 p q) = G (ix2 r q) := by
  rw [View.read_apply, emb2_2 t p q r hr]
  rfl

/-- Where window 3's block at point `t` sits in its array: block index `(p, q)` is array index `(5000 t + p, q)`. -/
theorem emb2_3 (t : Fin cfg2.N) (p : Fin 5000) (q : Fin 128) (r : Fin 150000) (hr : r.val = 5000 * t.val + p.val) :
    ((cfg2.win 3).blk t).view.emb (ix2 p q) = (ix2 r q : S150000x128.Idx) := by
  obtain ⟨e00, e01, e10, e11, e20, e21, e30, e31, e40, e41⟩ := idx_facts2 t
  funext a
  apply Fin.ext
  match a with
  | ⟨0, _⟩ => show win2_3.index t (0 : Fin 2) * 5000 + 1 * p.val = r.val; omega
  | ⟨1, _⟩ => show win2_3.index t (1 : Fin 2) * 128 + 1 * q.val = q.val; omega

/-- So an array read through that block, at `(p, q)`, is the array at `(5000 t + p, q)`. -/
theorem read_blk2_3 (G : S150000x128.Idx → EReal) (t : Fin cfg2.N) (p : Fin 5000) (q : Fin 128) (r : Fin 150000) (hr : r.val = 5000 * t.val + p.val) :
    (((cfg2.win 3).blk t).view.read (Elt Ideal) G : Vec Ideal S5000x128 .f32) (ix2 p q) = G (ix2 r q) := by
  rw [View.read_apply, emb2_3 t p q r hr]
  rfl

/-- Where window 4's block at point `t` sits in its array: block index `(p, q)` is array index `(5000 t + p, q)`. -/
theorem emb2_4 (t : Fin cfg2.N) (p : Fin 5000) (q : Fin 128) (r : Fin 150000) (hr : r.val = 5000 * t.val + p.val) :
    ((cfg2.win 4).blk t).view.emb (ix2 p q) = (ix2 r q : S150000x128.Idx) := by
  obtain ⟨e00, e01, e10, e11, e20, e21, e30, e31, e40, e41⟩ := idx_facts2 t
  funext a
  apply Fin.ext
  match a with
  | ⟨0, _⟩ => show win2_4.index t (0 : Fin 2) * 5000 + 1 * p.val = r.val; omega
  | ⟨1, _⟩ => show win2_4.index t (1 : Fin 2) * 128 + 1 * q.val = q.val; omega

/-- So an array read through that block, at `(p, q)`, is the array at `(5000 t + p, q)`. -/
theorem read_blk2_4 (G : S150000x128.Idx → EReal) (t : Fin cfg2.N) (p : Fin 5000) (q : Fin 128) (r : Fin 150000) (hr : r.val = 5000 * t.val + p.val) :
    (((cfg2.win 4).blk t).view.read (Elt Ideal) G : Vec Ideal S5000x128 .f32) (ix2 p q) = G (ix2 r q) := by
  rw [View.read_apply, emb2_4 t p q r hr]
  rfl

/-- Input window 0's block at point `t`, at `(p, k)`, is its array at row `5000 t + p`, column `k`. -/
theorem iblk2_0_apply (c : Dev nD) (t : Fin cfg2.N) (p : Fin 5000) (k : Fin 128) (r : Fin 150000) (hr : r.val = 5000 * t.val + p.val) :
    (iblk2 V c 0 t : Vec Ideal S5000x128 .f32) (ix2 p k) = (V c (Pipeline.arrRef spec2 0) : S150000x128.Idx → EReal) (ix2 r k) :=
  read_blk2_0 (V c (Pipeline.arrRef spec2 0)) t p k r hr

/-- Input window 1's block at point `t`, at `(p, k)`, is its array at row `5000 t + p`, column `k`. -/
theorem iblk2_1_apply (c : Dev nD) (t : Fin cfg2.N) (p : Fin 5000) (k : Fin 128) (r : Fin 150000) (hr : r.val = 5000 * t.val + p.val) :
    (iblk2 V c 1 t : Vec Ideal S5000x128 .f32) (ix2 p k) = (V c (Pipeline.arrRef spec2 1) : S150000x128.Idx → EReal) (ix2 r k) :=
  read_blk2_1 (V c (Pipeline.arrRef spec2 1)) t p k r hr

/-- Row `p` of input window 0's block at point `t` is row `5000 t + p` of its array. -/
theorem row_iblk2_0 (c : Dev nD) (t : Fin cfg2.N) (p : Fin 5000) (r : Fin 150000) (hr : r.val = 5000 * t.val + p.val) :
    row (iblk2 V c 0 t) p = fun k => (V c (Pipeline.arrRef spec2 0) : S150000x128.Idx → EReal) (ix2 r k) :=
  funext fun k => iblk2_0_apply V c t p k r hr

/-- Row `p` of input window 1's block at point `t` is row `5000 t + p` of its array. -/
theorem row_iblk2_1 (c : Dev nD) (t : Fin cfg2.N) (p : Fin 5000) (r : Fin 150000) (hr : r.val = 5000 * t.val + p.val) :
    row (iblk2 V c 1 t) p = fun k => (V c (Pipeline.arrRef spec2 1) : S150000x128.Idx → EReal) (ix2 r k) :=
  funext fun k => iblk2_1_apply V c t p k r hr

/-- An index of the array is in point `t`'s block of window 4 iff each coordinate is in the block's range on its axis. -/
theorem mem_blk2_4 (t : Fin cfg2.N) (i : S150000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v105_2).slice (win2_4.rect t)).set ↔ _
  rw [View.set_slice_whole, Rect.mem_set_unit]
  exact Iff.rfl

/-- Window 4's blocks tile its array: row `r` is in the block of point `r / 5000`. -/
theorem cover2_4 (i : S150000x128.Idx) : ∃ t : Fin cfg2.N, (cfg2.win 4).flush t = true ∧ i ∈ ((cfg2.win 4).blk t).view.set := by
  have hi0 : (i 0).val < 150000 := idx2_lt0 i
  have hi1 : (i 1).val < 128 := idx2_lt1 i
  have hN : cfg2.N = 30 := N_2
  let t : Fin cfg2.N := ⟨(i 0).val / 5000, by rw [hN]; omega⟩
  have htv : t.val = (i 0).val / 5000 := rfl
  obtain ⟨e00, e01, e10, e11, e20, e21, e30, e31, e40, e41⟩ := idx_facts2 t
  refine ⟨t, flush2_4 t, ?_⟩
  rw [mem_blk2_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- What window 4's array ends holding, row by row, as a function of the input arrays. -/
def G2_ini (A1 : S150000x128.Idx → EReal) : S150000x128.Idx → EReal :=
  fun i => g2_ini A1 (i 0) (i 1)

/-- The payload of window 4's store at point `t`, at `(p, q)`: the target at row `5000 t + p`. -/
theorem pay2_4_at (c : Dev nD) (t : Fin cfg2.N) (p : Fin 5000) (q : Fin 128) (r : Fin 150000) (hr : r.val = 5000 * t.val + p.val) :
    k2_pay2 (F := Ideal) (iblk2 V c 1 t) (ix2 p q) = g2_ini (V c (Pipeline.arrRef spec2 1)) r q := by
  rw [pay2_ini]
  unfold g2_ini
  rw [row_iblk2_1 V c t p r hr]

/-- What point `t` writes back through window 4 is block `t` of `G2_ini` of the input arrays. -/
theorem flushed2_4_eq (c : Dev nD) (t : Fin cfg2.N) (hf : (cfg2.win 4).flush t = true) :
    (dat2 (F := Ideal) V c).flushed 4 t = ((cfg2.win 4).blk t).view.read (Elt Ideal) (G2_ini (V c (Pipeline.arrRef spec2 1))) := by
  show (cfg2.win 4).cut (grid2.coords t) ((dat2 V c).after 4 t) = _
  rw [after2_4]
  unfold out2_4
  rw [View.canon_unit_zero blk_hz]
  simp only [View.ld_unit_zero (S := S5000x128) blk_hz]
  refine blk_ext (fun p q => ?_)
  have ht := lt_N2 t
  have hp := p.isLt
  obtain ⟨r, hr⟩ : ∃ r : Fin 150000, r.val = 5000 * t.val + p.val := ⟨⟨5000 * t.val + p.val, by omega⟩, rfl⟩
  rw [read_blk2_4 _ t p q r hr]
  exact pay2_4_at V c t p q r hr

/-- Window 4's array after the region. -/
theorem final2_4 (c : Dev nD) : (dat2 (F := Ideal) V c).arrAt 4 cfg2.N = G2_ini (V c (Pipeline.arrRef spec2 1)) :=
  (dat2 (F := Ideal) V c).arrAt_eq_of_cover 4 _ (flushed2_4_eq V c) cover2_4

/-- An index of the array is in point `t`'s block of window 2 iff each coordinate is in the block's range on its axis. -/
theorem mem_blk2_2 (t : Fin cfg2.N) (i : S150000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v105_0).slice (win2_2.rect t)).set ↔ _
  rw [View.set_slice_whole, Rect.mem_set_unit]
  exact Iff.rfl

/-- Window 2's blocks tile its array: row `r` is in the block of point `r / 5000`. -/
theorem cover2_2 (i : S150000x128.Idx) : ∃ t : Fin cfg2.N, (cfg2.win 2).flush t = true ∧ i ∈ ((cfg2.win 2).blk t).view.set := by
  have hi0 : (i 0).val < 150000 := idx2_lt0 i
  have hi1 : (i 1).val < 128 := idx2_lt1 i
  have hN : cfg2.N = 30 := N_2
  let t : Fin cfg2.N := ⟨(i 0).val / 5000, by rw [hN]; omega⟩
  have htv : t.val = (i 0).val / 5000 := rfl
  obtain ⟨e00, e01, e10, e11, e20, e21, e30, e31, e40, e41⟩ := idx_facts2 t
  refine ⟨t, flush2_2 t, ?_⟩
  rw [mem_blk2_2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- What window 2's array ends holding, row by row, as a function of the input arrays. -/
def G2_feat (A0 : S150000x128.Idx → EReal) (A1 : S150000x128.Idx → EReal) : S150000x128.Idx → EReal :=
  fun i => g2_feat A0 A1 (i 0) (i 1)

/-- The payload of window 2's store at point `t`, at `(p, q)`: the target at row `5000 t + p`. -/
theorem pay2_2_at (c : Dev nD) (t : Fin cfg2.N) (p : Fin 5000) (q : Fin 128) (r : Fin 150000) (hr : r.val = 5000 * t.val + p.val) :
    k2_pay3 (F := Ideal) (iblk2 V c 1 t) (iblk2 V c 0 t) (ix2 p q) = g2_feat (V c (Pipeline.arrRef spec2 0)) (V c (Pipeline.arrRef spec2 1)) r q := by
  rw [pay2_feat]
  unfold g2_feat
  rw [row_iblk2_0 V c t p r hr, row_iblk2_1 V c t p r hr]

/-- What point `t` writes back through window 2 is block `t` of `G2_feat` of the input arrays. -/
theorem flushed2_2_eq (c : Dev nD) (t : Fin cfg2.N) (hf : (cfg2.win 2).flush t = true) :
    (dat2 (F := Ideal) V c).flushed 2 t = ((cfg2.win 2).blk t).view.read (Elt Ideal) (G2_feat (V c (Pipeline.arrRef spec2 0)) (V c (Pipeline.arrRef spec2 1))) := by
  show (cfg2.win 2).cut (grid2.coords t) ((dat2 V c).after 2 t) = _
  rw [after2_2]
  unfold out2_2
  rw [View.canon_unit_zero blk_hz]
  simp only [View.ld_unit_zero (S := S5000x128) blk_hz]
  refine blk_ext (fun p q => ?_)
  have ht := lt_N2 t
  have hp := p.isLt
  obtain ⟨r, hr⟩ : ∃ r : Fin 150000, r.val = 5000 * t.val + p.val := ⟨⟨5000 * t.val + p.val, by omega⟩, rfl⟩
  rw [read_blk2_2 _ t p q r hr]
  exact pay2_2_at V c t p q r hr

/-- Window 2's array after the region. -/
theorem final2_2 (c : Dev nD) : (dat2 (F := Ideal) V c).arrAt 2 cfg2.N = G2_feat (V c (Pipeline.arrRef spec2 0)) (V c (Pipeline.arrRef spec2 1)) :=
  (dat2 (F := Ideal) V c).arrAt_eq_of_cover 2 _ (flushed2_2_eq V c) cover2_2

/-- An index of the array is in point `t`'s block of window 3 iff each coordinate is in the block's range on its axis. -/
theorem mem_blk2_3 (t : Fin cfg2.N) (i : S150000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v105_1).slice (win2_3.rect t)).set ↔ _
  rw [View.set_slice_whole, Rect.mem_set_unit]
  exact Iff.rfl

/-- Window 3's blocks tile its array: row `r` is in the block of point `r / 5000`. -/
theorem cover2_3 (i : S150000x128.Idx) : ∃ t : Fin cfg2.N, (cfg2.win 3).flush t = true ∧ i ∈ ((cfg2.win 3).blk t).view.set := by
  have hi0 : (i 0).val < 150000 := idx2_lt0 i
  have hi1 : (i 1).val < 128 := idx2_lt1 i
  have hN : cfg2.N = 30 := N_2
  let t : Fin cfg2.N := ⟨(i 0).val / 5000, by rw [hN]; omega⟩
  have htv : t.val = (i 0).val / 5000 := rfl
  obtain ⟨e00, e01, e10, e11, e20, e21, e30, e31, e40, e41⟩ := idx_facts2 t
  refine ⟨t, flush2_3 t, ?_⟩
  rw [mem_blk2_3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- What window 3's array ends holding, row by row, as a function of the input arrays. -/
def G2_acc (A0 : S150000x128.Idx → EReal) (A1 : S150000x128.Idx → EReal) : S150000x128.Idx → EReal :=
  fun i => g2_acc A0 A1 (i 0) (i 1)

/-- The payload of window 3's store at point `t`, at `(p, q)`: the target at row `5000 t + p`. -/
theorem pay2_3_at (c : Dev nD) (t : Fin cfg2.N) (p : Fin 5000) (q : Fin 128) (r : Fin 150000) (hr : r.val = 5000 * t.val + p.val) :
    k2_pay4 (F := Ideal) (iblk2 V c 1 t) (iblk2 V c 0 t) (ix2 p q) = g2_acc (V c (Pipeline.arrRef spec2 0)) (V c (Pipeline.arrRef spec2 1)) r q := by
  rw [pay2_acc]
  unfold g2_acc
  rw [iblk2_1_apply V c t p q r hr, row_iblk2_0 V c t p r hr, row_iblk2_1 V c t p r hr]

/-- What point `t` writes back through window 3 is block `t` of `G2_acc` of the input arrays. -/
theorem flushed2_3_eq (c : Dev nD) (t : Fin cfg2.N) (hf : (cfg2.win 3).flush t = true) :
    (dat2 (F := Ideal) V c).flushed 3 t = ((cfg2.win 3).blk t).view.read (Elt Ideal) (G2_acc (V c (Pipeline.arrRef spec2 0)) (V c (Pipeline.arrRef spec2 1))) := by
  show (cfg2.win 3).cut (grid2.coords t) ((dat2 V c).after 3 t) = _
  rw [after2_3]
  unfold out2_3
  rw [View.canon_unit_zero blk_hz]
  simp only [View.ld_unit_zero (S := S5000x128) blk_hz]
  refine blk_ext (fun p q => ?_)
  have ht := lt_N2 t
  have hp := p.isLt
  obtain ⟨r, hr⟩ : ∃ r : Fin 150000, r.val = 5000 * t.val + p.val := ⟨⟨5000 * t.val + p.val, by omega⟩, rfl⟩
  rw [read_blk2_3 _ t p q r hr]
  exact pay2_3_at V c t p q r hr

/-- Window 3's array after the region. -/
theorem final2_3 (c : Dev nD) : (dat2 (F := Ideal) V c).arrAt 3 cfg2.N = G2_acc (V c (Pipeline.arrRef spec2 0)) (V c (Pipeline.arrRef spec2 1)) :=
  (dat2 (F := Ideal) V c).arrAt_eq_of_cover 3 _ (flushed2_3_eq V c) cover2_3

/-- The normalised raw features after region 2, at row `r`, column `j`. -/
theorem arr2_ini (c : Dev nD) (r : Fin 150000) (j : Fin 128) : (dat2 (F := Ideal) V c).arrAt 4 cfg2.N (ix2 r j) = g2_ini (V c (Pipeline.arrRef spec2 1)) r j :=
  congrFun (final2_4 V c) (ix2 r j)
/-- The new features after region 2, at row `r`, column `j`. -/
theorem arr2_feat (c : Dev nD) (r : Fin 150000) (j : Fin 128) : (dat2 (F := Ideal) V c).arrAt 2 cfg2.N (ix2 r j) = g2_feat (V c (Pipeline.arrRef spec2 0)) (V c (Pipeline.arrRef spec2 1)) r j :=
  congrFun (final2_2 V c) (ix2 r j)
/-- The running sum after region 2, at row `r`, column `j`. -/
theorem arr2_acc (c : Dev nD) (r : Fin 150000) (j : Fin 128) : (dat2 (F := Ideal) V c).arrAt 3 cfg2.N (ix2 r j) = g2_acc (V c (Pipeline.arrRef spec2 0)) (V c (Pipeline.arrRef spec2 1)) r j :=
  congrFun (final2_3 V c) (ix2 r j)

/-- The later mix of the propagated row and the normalised initial row, normalised. -/
def g3_feat (A0 A1 : S150000x128.Idx → EReal) (r : Fin 150000) (j : Fin 128) : EReal :=
  unit 0 eps (fun k => A0 (ix2 r k) * cThird + A1 (ix2 r k) * cSixth) j
/-- The running sum's row plus that. -/
def g3_acc (A0 A1 A2 : S150000x128.Idx → EReal) (r : Fin 150000) (j : Fin 128) : EReal :=
  A2 (ix2 r j) + unit 0 eps (fun k => A0 (ix2 r k) * cThird + A1 (ix2 r k) * cSixth) j

/-! ## Region 3 -/

/-- Region 3's index maps, decided over the grid: every window's block index at point `t` is `(t, 0)`. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

theorem lt_N3 (t : Fin cfg3.N) : t.val < 30 := lt_of_lt_of_eq t.isLt N_3

/-- Where window 0's block at point `t` sits in its array: block index `(p, q)` is array index `(5000 t + p, q)`. -/
theorem emb3_0 (t : Fin cfg3.N) (p : Fin 5000) (q : Fin 128) (r : Fin 150000) (hr : r.val = 5000 * t.val + p.val) :
    ((cfg3.win 0).blk t).view.emb (ix2 p q) = (ix2 r q : S150000x128.Idx) := by
  obtain ⟨e00, e01, e10, e11, e20, e21, e30, e31, e40, e41⟩ := idx_facts3 t
  funext a
  apply Fin.ext
  match a with
  | ⟨0, _⟩ => show win3_0.index t (0 : Fin 2) * 5000 + 1 * p.val = r.val; omega
  | ⟨1, _⟩ => show win3_0.index t (1 : Fin 2) * 128 + 1 * q.val = q.val; omega

/-- So an array read through that block, at `(p, q)`, is the array at `(5000 t + p, q)`. -/
theorem read_blk3_0 (G : S150000x128.Idx → EReal) (t : Fin cfg3.N) (p : Fin 5000) (q : Fin 128) (r : Fin 150000) (hr : r.val = 5000 * t.val + p.val) :
    (((cfg3.win 0).blk t).view.read (Elt Ideal) G : Vec Ideal S5000x128 .f32) (ix2 p q) = G (ix2 r q) := by
  rw [View.read_apply, emb3_0 t p q r hr]
  rfl

/-- Where window 1's block at point `t` sits in its array: block index `(p, q)` is array index `(5000 t + p, q)`. -/
theorem emb3_1 (t : Fin cfg3.N) (p : Fin 5000) (q : Fin 128) (r : Fin 150000) (hr : r.val = 5000 * t.val + p.val) :
    ((cfg3.win 1).blk t).view.emb (ix2 p q) = (ix2 r q : S150000x128.Idx) := by
  obtain ⟨e00, e01, e10, e11, e20, e21, e30, e31, e40, e41⟩ := idx_facts3 t
  funext a
  apply Fin.ext
  match a with
  | ⟨0, _⟩ => show win3_1.index t (0 : Fin 2) * 5000 + 1 * p.val = r.val; omega
  | ⟨1, _⟩ => show win3_1.index t (1 : Fin 2) * 128 + 1 * q.val = q.val; omega

/-- So an array read through that block, at `(p, q)`, is the array at `(5000 t + p, q)`. -/
theorem read_blk3_1 (G : S150000x128.Idx → EReal) (t : Fin cfg3.N) (p : Fin 5000) (q : Fin 128) (r : Fin 150000) (hr : r.val = 5000 * t.val + p.val) :
    (((cfg3.win 1).blk t).view.read (Elt Ideal) G : Vec Ideal S5000x128 .f32) (ix2 p q) = G (ix2 r q) := by
  rw [View.read_apply, emb3_1 t p q r hr]
  rfl

/-- Where window 2's block at point `t` sits in its array: block index `(p, q)` is array index `(5000 t + p, q)`. -/
theorem emb3_2 (t : Fin cfg3.N) (p : Fin 5000) (q : Fin 128) (r : Fin 150000) (hr : r.val = 5000 * t.val + p.val) :
    ((cfg3.win 2).blk t).view.emb (ix2 p q) = (ix2 r q : S150000x128.Idx) := by
  obtain ⟨e00, e01, e10, e11, e20, e21, e30, e31, e40, e41⟩ := idx_facts3 t
  funext a
  apply Fin.ext
  match a with
  | ⟨0, _⟩ => show win3_2.index t (0 : Fin 2) * 5000 + 1 * p.val = r.val; omega
  | ⟨1, _⟩ => show win3_2.index t (1 : Fin 2) * 128 + 1 * q.val = q.val; omega

/-- So an array read through that block, at `(p, q)`, is the array at `(5000 t + p, q)`. -/
theorem read_blk3_2 (G : S150000x128.Idx → EReal) (t : Fin cfg3.N) (p : Fin 5000) (q : Fin 128) (r : Fin 150000) (hr : r.val = 5000 * t.val + p.val) :
    (((cfg3.win 2).blk t).view.read (Elt Ideal) G : Vec Ideal S5000x128 .f32) (ix2 p q) = G (ix2 r q) := by
  rw [View.read_apply, emb3_2 t p q r hr]
  rfl

/-- Where window 3's block at point `t` sits in its array: block index `(p, q)` is array index `(5000 t + p, q)`. -/
theorem emb3_3 (t : Fin cfg3.N) (p : Fin 5000) (q : Fin 128) (r : Fin 150000) (hr : r.val = 5000 * t.val + p.val) :
    ((cfg3.win 3).blk t).view.emb (ix2 p q) = (ix2 r q : S150000x128.Idx) := by
  obtain ⟨e00, e01, e10, e11, e20, e21, e30, e31, e40, e41⟩ := idx_facts3 t
  funext a
  apply Fin.ext
  match a with
  | ⟨0, _⟩ => show win3_3.index t (0 : Fin 2) * 5000 + 1 * p.val = r.val; omega
  | ⟨1, _⟩ => show win3_3.index t (1 : Fin 2) * 128 + 1 * q.val = q.val; omega

/-- So an array read through that block, at `(p, q)`, is the array at `(5000 t + p, q)`. -/
theorem read_blk3_3 (G : S150000x128.Idx → EReal) (t : Fin cfg3.N) (p : Fin 5000) (q : Fin 128) (r : Fin 150000) (hr : r.val = 5000 * t.val + p.val) :
    (((cfg3.win 3).blk t).view.read (Elt Ideal) G : Vec Ideal S5000x128 .f32) (ix2 p q) = G (ix2 r q) := by
  rw [View.read_apply, emb3_3 t p q r hr]
  rfl

/-- Where window 4's block at point `t` sits in its array: block index `(p, q)` is array index `(5000 t + p, q)`. -/
theorem emb3_4 (t : Fin cfg3.N) (p : Fin 5000) (q : Fin 128) (r : Fin 150000) (hr : r.val = 5000 * t.val + p.val) :
    ((cfg3.win 4).blk t).view.emb (ix2 p q) = (ix2 r q : S150000x128.Idx) := by
  obtain ⟨e00, e01, e10, e11, e20, e21, e30, e31, e40, e41⟩ := idx_facts3 t
  funext a
  apply Fin.ext
  match a with
  | ⟨0, _⟩ => show win3_4.index t (0 : Fin 2) * 5000 + 1 * p.val = r.val; omega
  | ⟨1, _⟩ => show win3_4.index t (1 : Fin 2) * 128 + 1 * q.val = q.val; omega

/-- So an array read through that block, at `(p, q)`, is the array at `(5000 t + p, q)`. -/
theorem read_blk3_4 (G : S150000x128.Idx → EReal) (t : Fin cfg3.N) (p : Fin 5000) (q : Fin 128) (r : Fin 150000) (hr : r.val = 5000 * t.val + p.val) :
    (((cfg3.win 4).blk t).view.read (Elt Ideal) G : Vec Ideal S5000x128 .f32) (ix2 p q) = G (ix2 r q) := by
  rw [View.read_apply, emb3_4 t p q r hr]
  rfl

/-- Input window 0's block at point `t`, at `(p, k)`, is its array at row `5000 t + p`, column `k`. -/
theorem iblk3_0_apply (c : Dev nD) (t : Fin cfg3.N) (p : Fin 5000) (k : Fin 128) (r : Fin 150000) (hr : r.val = 5000 * t.val + p.val) :
    (iblk3 V c 0 t : Vec Ideal S5000x128 .f32) (ix2 p k) = (V c (Pipeline.arrRef spec3 0) : S150000x128.Idx → EReal) (ix2 r k) :=
  read_blk3_0 (V c (Pipeline.arrRef spec3 0)) t p k r hr

/-- Input window 1's block at point `t`, at `(p, k)`, is its array at row `5000 t + p`, column `k`. -/
theorem iblk3_1_apply (c : Dev nD) (t : Fin cfg3.N) (p : Fin 5000) (k : Fin 128) (r : Fin 150000) (hr : r.val = 5000 * t.val + p.val) :
    (iblk3 V c 1 t : Vec Ideal S5000x128 .f32) (ix2 p k) = (V c (Pipeline.arrRef spec3 1) : S150000x128.Idx → EReal) (ix2 r k) :=
  read_blk3_1 (V c (Pipeline.arrRef spec3 1)) t p k r hr

/-- Input window 2's block at point `t`, at `(p, k)`, is its array at row `5000 t + p`, column `k`. -/
theorem iblk3_2_apply (c : Dev nD) (t : Fin cfg3.N) (p : Fin 5000) (k : Fin 128) (r : Fin 150000) (hr : r.val = 5000 * t.val + p.val) :
    (iblk3 V c 2 t : Vec Ideal S5000x128 .f32) (ix2 p k) = (V c (Pipeline.arrRef spec3 2) : S150000x128.Idx → EReal) (ix2 r k) :=
  read_blk3_2 (V c (Pipeline.arrRef spec3 2)) t p k r hr

/-- Row `p` of input window 0's block at point `t` is row `5000 t + p` of its array. -/
theorem row_iblk3_0 (c : Dev nD) (t : Fin cfg3.N) (p : Fin 5000) (r : Fin 150000) (hr : r.val = 5000 * t.val + p.val) :
    row (iblk3 V c 0 t) p = fun k => (V c (Pipeline.arrRef spec3 0) : S150000x128.Idx → EReal) (ix2 r k) :=
  funext fun k => iblk3_0_apply V c t p k r hr

/-- Row `p` of input window 1's block at point `t` is row `5000 t + p` of its array. -/
theorem row_iblk3_1 (c : Dev nD) (t : Fin cfg3.N) (p : Fin 5000) (r : Fin 150000) (hr : r.val = 5000 * t.val + p.val) :
    row (iblk3 V c 1 t) p = fun k => (V c (Pipeline.arrRef spec3 1) : S150000x128.Idx → EReal) (ix2 r k) :=
  funext fun k => iblk3_1_apply V c t p k r hr

/-- Row `p` of input window 2's block at point `t` is row `5000 t + p` of its array. -/
theorem row_iblk3_2 (c : Dev nD) (t : Fin cfg3.N) (p : Fin 5000) (r : Fin 150000) (hr : r.val = 5000 * t.val + p.val) :
    row (iblk3 V c 2 t) p = fun k => (V c (Pipeline.arrRef spec3 2) : S150000x128.Idx → EReal) (ix2 r k) :=
  funext fun k => iblk3_2_apply V c t p k r hr

/-- An index of the array is in point `t`'s block of window 4 iff each coordinate is in the block's range on its axis. -/
theorem mem_blk3_4 (t : Fin cfg3.N) (i : S150000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v119_1).slice (win3_4.rect t)).set ↔ _
  rw [View.set_slice_whole, Rect.mem_set_unit]
  exact Iff.rfl

/-- Window 4's blocks tile its array: row `r` is in the block of point `r / 5000`. -/
theorem cover3_4 (i : S150000x128.Idx) : ∃ t : Fin cfg3.N, (cfg3.win 4).flush t = true ∧ i ∈ ((cfg3.win 4).blk t).view.set := by
  have hi0 : (i 0).val < 150000 := idx2_lt0 i
  have hi1 : (i 1).val < 128 := idx2_lt1 i
  have hN : cfg3.N = 30 := N_3
  let t : Fin cfg3.N := ⟨(i 0).val / 5000, by rw [hN]; omega⟩
  have htv : t.val = (i 0).val / 5000 := rfl
  obtain ⟨e00, e01, e10, e11, e20, e21, e30, e31, e40, e41⟩ := idx_facts3 t
  refine ⟨t, flush3_4 t, ?_⟩
  rw [mem_blk3_4]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- What window 4's array ends holding, row by row, as a function of the input arrays. -/
def G3_acc (A0 : S150000x128.Idx → EReal) (A1 : S150000x128.Idx → EReal) (A2 : S150000x128.Idx → EReal) : S150000x128.Idx → EReal :=
  fun i => g3_acc A0 A1 A2 (i 0) (i 1)

/-- The payload of window 4's store at point `t`, at `(p, q)`: the target at row `5000 t + p`. -/
theorem pay3_4_at (c : Dev nD) (t : Fin cfg3.N) (p : Fin 5000) (q : Fin 128) (r : Fin 150000) (hr : r.val = 5000 * t.val + p.val) :
    k3_pay2 (F := Ideal) (iblk3 V c 0 t) (iblk3 V c 1 t) (iblk3 V c 2 t) (ix2 p q) = g3_acc (V c (Pipeline.arrRef spec3 0)) (V c (Pipeline.arrRef spec3 1)) (V c (Pipeline.arrRef spec3 2)) r q := by
  rw [pay3_acc']
  unfold g3_acc
  rw [iblk3_2_apply V c t p q r hr, row_iblk3_0 V c t p r hr, row_iblk3_1 V c t p r hr]

/-- What point `t` writes back through window 4 is block `t` of `G3_acc` of the input arrays. -/
theorem flushed3_4_eq (c : Dev nD) (t : Fin cfg3.N) (hf : (cfg3.win 4).flush t = true) :
    (dat3 (F := Ideal) V c).flushed 4 t = ((cfg3.win 4).blk t).view.read (Elt Ideal) (G3_acc (V c (Pipeline.arrRef spec3 0)) (V c (Pipeline.arrRef spec3 1)) (V c (Pipeline.arrRef spec3 2))) := by
  show (cfg3.win 4).cut (grid3.coords t) ((dat3 V c).after 4 t) = _
  rw [after3_4]
  unfold out3_4
  rw [View.canon_unit_zero blk_hz]
  simp only [View.ld_unit_zero (S := S5000x128) blk_hz]
  refine blk_ext (fun p q => ?_)
  have ht := lt_N3 t
  have hp := p.isLt
  obtain ⟨r, hr⟩ : ∃ r : Fin 150000, r.val = 5000 * t.val + p.val := ⟨⟨5000 * t.val + p.val, by omega⟩, rfl⟩
  rw [read_blk3_4 _ t p q r hr]
  exact pay3_4_at V c t p q r hr

/-- Window 4's array after the region. -/
theorem final3_4 (c : Dev nD) : (dat3 (F := Ideal) V c).arrAt 4 cfg3.N = G3_acc (V c (Pipeline.arrRef spec3 0)) (V c (Pipeline.arrRef spec3 1)) (V c (Pipeline.arrRef spec3 2)) :=
  (dat3 (F := Ideal) V c).arrAt_eq_of_cover 4 _ (flushed3_4_eq V c) cover3_4

/-- An index of the array is in point `t`'s block of window 3 iff each coordinate is in the block's range on its axis. -/
theorem mem_blk3_3 (t : Fin cfg3.N) (i : S150000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v119_0).slice (win3_3.rect t)).set ↔ _
  rw [View.set_slice_whole, Rect.mem_set_unit]
  exact Iff.rfl

/-- Window 3's blocks tile its array: row `r` is in the block of point `r / 5000`. -/
theorem cover3_3 (i : S150000x128.Idx) : ∃ t : Fin cfg3.N, (cfg3.win 3).flush t = true ∧ i ∈ ((cfg3.win 3).blk t).view.set := by
  have hi0 : (i 0).val < 150000 := idx2_lt0 i
  have hi1 : (i 1).val < 128 := idx2_lt1 i
  have hN : cfg3.N = 30 := N_3
  let t : Fin cfg3.N := ⟨(i 0).val / 5000, by rw [hN]; omega⟩
  have htv : t.val = (i 0).val / 5000 := rfl
  obtain ⟨e00, e01, e10, e11, e20, e21, e30, e31, e40, e41⟩ := idx_facts3 t
  refine ⟨t, flush3_3 t, ?_⟩
  rw [mem_blk3_3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- What window 3's array ends holding, row by row, as a function of the input arrays. -/
def G3_feat (A0 : S150000x128.Idx → EReal) (A1 : S150000x128.Idx → EReal) : S150000x128.Idx → EReal :=
  fun i => g3_feat A0 A1 (i 0) (i 1)

/-- The payload of window 3's store at point `t`, at `(p, q)`: the target at row `5000 t + p`. -/
theorem pay3_3_at (c : Dev nD) (t : Fin cfg3.N) (p : Fin 5000) (q : Fin 128) (r : Fin 150000) (hr : r.val = 5000 * t.val + p.val) :
    k3_pay1 (F := Ideal) (iblk3 V c 0 t) (iblk3 V c 1 t) (ix2 p q) = g3_feat (V c (Pipeline.arrRef spec3 0)) (V c (Pipeline.arrRef spec3 1)) r q := by
  rw [pay3_feat']
  unfold g3_feat
  rw [row_iblk3_0 V c t p r hr, row_iblk3_1 V c t p r hr]

/-- What point `t` writes back through window 3 is block `t` of `G3_feat` of the input arrays. -/
theorem flushed3_3_eq (c : Dev nD) (t : Fin cfg3.N) (hf : (cfg3.win 3).flush t = true) :
    (dat3 (F := Ideal) V c).flushed 3 t = ((cfg3.win 3).blk t).view.read (Elt Ideal) (G3_feat (V c (Pipeline.arrRef spec3 0)) (V c (Pipeline.arrRef spec3 1))) := by
  show (cfg3.win 3).cut (grid3.coords t) ((dat3 V c).after 3 t) = _
  rw [after3_3]
  unfold out3_3
  rw [View.canon_unit_zero blk_hz]
  simp only [View.ld_unit_zero (S := S5000x128) blk_hz]
  refine blk_ext (fun p q => ?_)
  have ht := lt_N3 t
  have hp := p.isLt
  obtain ⟨r, hr⟩ : ∃ r : Fin 150000, r.val = 5000 * t.val + p.val := ⟨⟨5000 * t.val + p.val, by omega⟩, rfl⟩
  rw [read_blk3_3 _ t p q r hr]
  exact pay3_3_at V c t p q r hr

/-- Window 3's array after the region. -/
theorem final3_3 (c : Dev nD) : (dat3 (F := Ideal) V c).arrAt 3 cfg3.N = G3_feat (V c (Pipeline.arrRef spec3 0)) (V c (Pipeline.arrRef spec3 1)) :=
  (dat3 (F := Ideal) V c).arrAt_eq_of_cover 3 _ (flushed3_3_eq V c) cover3_3

/-- The running sum after region 3, at row `r`, column `j`. -/
theorem arr3_acc (c : Dev nD) (r : Fin 150000) (j : Fin 128) : (dat3 (F := Ideal) V c).arrAt 4 cfg3.N (ix2 r j) = g3_acc (V c (Pipeline.arrRef spec3 0)) (V c (Pipeline.arrRef spec3 1)) (V c (Pipeline.arrRef spec3 2)) r j :=
  congrFun (final3_4 V c) (ix2 r j)
/-- The new features after region 3, at row `r`, column `j`. -/
theorem arr3_feat (c : Dev nD) (r : Fin 150000) (j : Fin 128) : (dat3 (F := Ideal) V c).arrAt 3 cfg3.N (ix2 r j) = g3_feat (V c (Pipeline.arrRef spec3 0)) (V c (Pipeline.arrRef spec3 1)) r j :=
  congrFun (final3_3 V c) (ix2 r j)

end Cert.KernelIdeal.Hand

end
-- ==== Proof.RefRows.lean ====
import proofs.«137097_j42271068127574_2_alg».proof.Proof.RefReadP
import proofs.«137097_j42271068127574_2_alg».proof.Proof.LibRowNormalize
import Idealize.ShloMosaic.Lib.ValueIdx
import Idealize.ShloMosaic.PureOps.Ideal.Laws

/-!
# The reference's normalised rows, entry by entry

The reference propagates features twice, over 130000 and over 150000 rows of 128 entries. In each
propagation a raw matrix `X` is first scaled row by row to unit Euclidean length, `X̂ = unit X` (the
length floored at `eps`), and each of two layers forms a sparse product `P`, mixes it with the scaled
input, `(P + ½ · X̂) / d` with `d = 2` in the first layer and `d = 3` in the second, scales the mix to
unit length, and adds the result to a running sum that starts at `X`.

Every theorem here reads one of these matrices at an entry `(r, j)` of the ideal (extended-real)
values and states it as a `RowNormalize.unit` of the row `r` of the matrices it is computed from, or as
the sum of two entries. The sum of squares in the reference starts from the constant `0.0`, which is the
extended real `0`; the statements have it folded.
-/

noncomputable section

namespace Cert.ReferenceIdeal.Rows

open Idealize.ShloMosaic Cert.ReferenceIdeal Cert.ReferenceIdeal.Read RowNormalize
open Idealize.ShloMosaic.ValueIdx (ix2)

/-- The floor of a row's length, `1e-12` in single precision. -/
abbrev eps : EReal := Ideal.ofBits .f32 0x2B8CBCCC#32
/-- The weight `0.5` of the scaled input in a layer's mix. -/
abbrev cHalf : EReal := Ideal.ofBits .f32 0x3F000000#32
/-- The first layer's divisor `2.0`. -/
abbrev cTwo : EReal := Ideal.ofBits .f32 0x40000000#32
/-- The second layer's divisor `3.0`. -/
abbrev cThree : EReal := Ideal.ofBits .f32 0x40400000#32

/-! ## The propagation over 130000 rows -/

/-- The scaled input: row `r` of the raw features over its floored length. -/
theorem ini1_apply (x0 : (⟨S100000x128, .f32⟩ : BufTy).Contents (Elt Ideal)) (x1 : (⟨S30000x128, .f32⟩ : BufTy).Contents (Elt Ideal))
    (r : Fin 130000) (j : Fin 128) :
    val_main_v35 (F := Ideal) x0 x1 (ix2 r j)
      = unit 0 eps (fun k => val_main_v30 (F := Ideal) x0 x1 (ix2 r k)) j := by
  have e1 : ∀ k : Fin 128, idx_main_call0_v1 (idx_main_call0_v2 (idx_main_v34 (ix2 r j))) k = ix2 r k :=
    fun k => funext fun a => Fin.ext (by match a with | ⟨0, _⟩ => rfl | ⟨1, _⟩ => rfl)
  rw [val_main_v35_apply, val_main_v34_apply, val_main_v33_apply, val_main_v31_apply, val_main_call0_v2_apply,
    val_main_call0_v1_apply, val_main_v32_apply, val_main_cst_8_apply, val_main_call0_cst_apply]
  simp only [val_main_call0_v0_apply, e1, Ideal.hostDivf_def, Ideal.mulf_def, Ideal.addf_def, Ideal.maximumf_def,
    Ideal.hostUnary_sqrt_def, Ideal.ofBits_def, Ideal.ofBits_zero_f32]
  rfl

/-- The first layer's mix `(P₁ + ½ · X̂) / 2`, entry by entry. -/
theorem mix1_apply (x0 : (⟨S100000x128, .f32⟩ : BufTy).Contents (Elt Ideal)) (x1 : (⟨S30000x128, .f32⟩ : BufTy).Contents (Elt Ideal)) (x4 x5 : (⟨S300000, .i32⟩ : BufTy).Contents (Elt Ideal))
    (i : S130000x128.Idx) :
    val_main_v53 (F := Ideal) x0 x1 x4 x5 i
      = Ideal.div (val_main_v48 (F := Ideal) x0 x1 x4 x5 i + cHalf * val_main_v35 (F := Ideal) x0 x1 i) cTwo := by
  rw [val_main_v53_apply, val_main_v52_apply, val_main_cst_13_apply, val_main_v51_apply, val_main_v50_apply,
    val_main_v49_apply, val_main_cst_12_apply]
  rfl

/-- The first layer's features are its mix scaled row by row to unit length. -/
theorem norm1_apply (x0 : (⟨S100000x128, .f32⟩ : BufTy).Contents (Elt Ideal)) (x1 : (⟨S30000x128, .f32⟩ : BufTy).Contents (Elt Ideal)) (x4 x5 : (⟨S300000, .i32⟩ : BufTy).Contents (Elt Ideal))
    (r : Fin 130000) (j : Fin 128) :
    val_main_v58 (F := Ideal) x0 x1 x4 x5 (ix2 r j)
      = unit 0 eps (fun k => val_main_v53 (F := Ideal) x0 x1 x4 x5 (ix2 r k)) j := by
  have e1 : ∀ k : Fin 128, idx_main_call1_v1 (idx_main_call1_v2 (idx_main_v57 (ix2 r j))) k = ix2 r k :=
    fun k => funext fun a => Fin.ext (by match a with | ⟨0, _⟩ => rfl | ⟨1, _⟩ => rfl)
  rw [val_main_v58_apply, val_main_v57_apply, val_main_v56_apply, val_main_v54_apply, val_main_call1_v2_apply,
    val_main_call1_v1_apply, val_main_v55_apply, val_main_cst_14_apply, val_main_call1_cst_apply]
  simp only [val_main_call1_v0_apply, e1, Ideal.hostDivf_def, Ideal.mulf_def, Ideal.addf_def, Ideal.maximumf_def,
    Ideal.hostUnary_sqrt_def, Ideal.ofBits_def, Ideal.ofBits_zero_f32]
  rfl

/-- The first layer's features: row `r` of `(P₁ + ½ · X̂) / 2` over its floored length. -/
theorem feat1_apply (x0 : (⟨S100000x128, .f32⟩ : BufTy).Contents (Elt Ideal)) (x1 : (⟨S30000x128, .f32⟩ : BufTy).Contents (Elt Ideal)) (x4 x5 : (⟨S300000, .i32⟩ : BufTy).Contents (Elt Ideal))
    (r : Fin 130000) (j : Fin 128) :
    val_main_v58 (F := Ideal) x0 x1 x4 x5 (ix2 r j)
      = unit 0 eps (fun k => Ideal.div (val_main_v48 (F := Ideal) x0 x1 x4 x5 (ix2 r k)
          + cHalf * val_main_v35 (F := Ideal) x0 x1 (ix2 r k)) cTwo) j := by
  rw [norm1_apply]
  exact congrFun (unit_congr fun k => mix1_apply x0 x1 x4 x5 (ix2 r k)) j

/-- The running sum after the first layer: the raw features plus the first layer's. -/
theorem acc1_apply (x0 : (⟨S100000x128, .f32⟩ : BufTy).Contents (Elt Ideal)) (x1 : (⟨S30000x128, .f32⟩ : BufTy).Contents (Elt Ideal)) (x4 x5 : (⟨S300000, .i32⟩ : BufTy).Contents (Elt Ideal))
    (r : Fin 130000) (j : Fin 128) :
    val_main_v59 (F := Ideal) x0 x1 x4 x5 (ix2 r j)
      = val_main_v30 (F := Ideal) x0 x1 (ix2 r j) + val_main_v58 (F := Ideal) x0 x1 x4 x5 (ix2 r j) := by
  rw [val_main_v59_apply, Ideal.addf_def]

/-- The second layer's mix `(P₂ + ½ · X̂) / 3`, entry by entry. -/
theorem mix2_apply (x0 : (⟨S100000x128, .f32⟩ : BufTy).Contents (Elt Ideal)) (x1 : (⟨S30000x128, .f32⟩ : BufTy).Contents (Elt Ideal)) (x4 x5 : (⟨S300000, .i32⟩ : BufTy).Contents (Elt Ideal))
    (i : S130000x128.Idx) :
    val_main_v77 (F := Ideal) x0 x1 x4 x5 i
      = Ideal.div (val_main_v72 (F := Ideal) x0 x1 x4 x5 i + cHalf * val_main_v35 (F := Ideal) x0 x1 i) cThree := by
  rw [val_main_v77_apply, val_main_v76_apply, val_main_cst_19_apply, val_main_v75_apply, val_main_v74_apply,
    val_main_v73_apply, val_main_cst_18_apply]
  rfl

/-- The second layer's features are its mix scaled row by row to unit length. -/
theorem norm2_apply (x0 : (⟨S100000x128, .f32⟩ : BufTy).Contents (Elt Ideal)) (x1 : (⟨S30000x128, .f32⟩ : BufTy).Contents (Elt Ideal)) (x4 x5 : (⟨S300000, .i32⟩ : BufTy).Contents (Elt Ideal))
    (r : Fin 130000) (j : Fin 128) :
    val_main_v82 (F := Ideal) x0 x1 x4 x5 (ix2 r j)
      = unit 0 eps (fun k => val_main_v77 (F := Ideal) x0 x1 x4 x5 (ix2 r k)) j := by
  have e1 : ∀ k : Fin 128, idx_main_call2_v1 (idx_main_call2_v2 (idx_main_v81 (ix2 r j))) k = ix2 r k :=
    fun k => funext fun a => Fin.ext (by match a with | ⟨0, _⟩ => rfl | ⟨1, _⟩ => rfl)
  rw [val_main_v82_apply, val_main_v81_apply, val_main_v80_apply, val_main_v78_apply, val_main_call2_v2_apply,
    val_main_call2_v1_apply, val_main_v79_apply, val_main_cst_20_apply, val_main_call2_cst_apply]
  simp only [val_main_call2_v0_apply, e1, Ideal.hostDivf_def, Ideal.mulf_def, Ideal.addf_def, Ideal.maximumf_def,
    Ideal.hostUnary_sqrt_def, Ideal.ofBits_def, Ideal.ofBits_zero_f32]
  rfl

/-- The second layer's features: row `r` of `(P₂ + ½ · X̂) / 3` over its floored length. -/
theorem feat2_apply (x0 : (⟨S100000x128, .f32⟩ : BufTy).Contents (Elt Ideal)) (x1 : (⟨S30000x128, .f32⟩ : BufTy).Contents (Elt Ideal)) (x4 x5 : (⟨S300000, .i32⟩ : BufTy).Contents (Elt Ideal))
    (r : Fin 130000) (j : Fin 128) :
    val_main_v82 (F := Ideal) x0 x1 x4 x5 (ix2 r j)
      = unit 0 eps (fun k => Ideal.div (val_main_v72 (F := Ideal) x0 x1 x4 x5 (ix2 r k)
          + cHalf * val_main_v35 (F := Ideal) x0 x1 (ix2 r k)) cThree) j := by
  rw [norm2_apply]
  exact congrFun (unit_congr fun k => mix2_apply x0 x1 x4 x5 (ix2 r k)) j

/-- The running sum after the second layer. -/
theorem acc2_apply (x0 : (⟨S100000x128, .f32⟩ : BufTy).Contents (Elt Ideal)) (x1 : (⟨S30000x128, .f32⟩ : BufTy).Contents (Elt Ideal)) (x4 x5 : (⟨S300000, .i32⟩ : BufTy).Contents (Elt Ideal))
    (r : Fin 130000) (j : Fin 128) :
    val_main_v83 (F := Ideal) x0 x1 x4 x5 (ix2 r j)
      = val_main_v59 (F := Ideal) x0 x1 x4 x5 (ix2 r j) + val_main_v82 (F := Ideal) x0 x1 x4 x5 (ix2 r j) := by
  rw [val_main_v83_apply, Ideal.addf_def]

/-! ## The propagation over 150000 rows -/

/-- The scaled input: row `r` of the raw features over its floored length. -/
theorem ini1'_apply (x0 : (⟨S100000x128, .f32⟩ : BufTy).Contents (Elt Ideal)) (x2 : (⟨S50000x128, .f32⟩ : BufTy).Contents (Elt Ideal))
    (r : Fin 150000) (j : Fin 128) :
    val_main_v121 (F := Ideal) x0 x2 (ix2 r j)
      = unit 0 eps (fun k => val_main_v116 (F := Ideal) x0 x2 (ix2 r k)) j := by
  have e1 : ∀ k : Fin 128, idx_main_call3_v1 (idx_main_call3_v2 (idx_main_v120 (ix2 r j))) k = ix2 r k :=
    fun k => funext fun a => Fin.ext (by match a with | ⟨0, _⟩ => rfl | ⟨1, _⟩ => rfl)
  rw [val_main_v121_apply, val_main_v120_apply, val_main_v119_apply, val_main_v117_apply, val_main_call3_v2_apply,
    val_main_call3_v1_apply, val_main_v118_apply, val_main_cst_31_apply, val_main_call3_cst_apply]
  simp only [val_main_call3_v0_apply, e1, Ideal.hostDivf_def, Ideal.mulf_def, Ideal.addf_def, Ideal.maximumf_def,
    Ideal.hostUnary_sqrt_def, Ideal.ofBits_def, Ideal.ofBits_zero_f32]
  rfl

/-- The first layer's mix `(P₁ + ½ · X̂) / 2`, entry by entry. -/
theorem mix1'_apply (x0 : (⟨S100000x128, .f32⟩ : BufTy).Contents (Elt Ideal)) (x2 : (⟨S50000x128, .f32⟩ : BufTy).Contents (Elt Ideal)) (x6 x7 : (⟨S500000, .i32⟩ : BufTy).Contents (Elt Ideal))
    (i : S150000x128.Idx) :
    val_main_v139 (F := Ideal) x0 x2 x6 x7 i
      = Ideal.div (val_main_v134 (F := Ideal) x0 x2 x6 x7 i + cHalf * val_main_v121 (F := Ideal) x0 x2 i) cTwo := by
  rw [val_main_v139_apply, val_main_v138_apply, val_main_cst_36_apply, val_main_v137_apply, val_main_v136_apply,
    val_main_v135_apply, val_main_cst_35_apply]
  rfl

/-- The first layer's features are its mix scaled row by row to unit length. -/
theorem norm1'_apply (x0 : (⟨S100000x128, .f32⟩ : BufTy).Contents (Elt Ideal)) (x2 : (⟨S50000x128, .f32⟩ : BufTy).Contents (Elt Ideal)) (x6 x7 : (⟨S500000, .i32⟩ : BufTy).Contents (Elt Ideal))
    (r : Fin 150000) (j : Fin 128) :
    val_main_v144 (F := Ideal) x0 x2 x6 x7 (ix2 r j)
      = unit 0 eps (fun k => val_main_v139 (F := Ideal) x0 x2 x6 x7 (ix2 r k)) j := by
  have e1 : ∀ k : Fin 128, idx_main_call4_v1 (idx_main_call4_v2 (idx_main_v143 (ix2 r j))) k = ix2 r k :=
    fun k => funext fun a => Fin.ext (by match a with | ⟨0, _⟩ => rfl | ⟨1, _⟩ => rfl)
  rw [val_main_v144_apply, val_main_v143_apply, val_main_v142_apply, val_main_v140_apply, val_main_call4_v2_apply,
    val_main_call4_v1_apply, val_main_v141_apply, val_main_cst_37_apply, val_main_call4_cst_apply]
  simp only [val_main_call4_v0_apply, e1, Ideal.hostDivf_def, Ideal.mulf_def, Ideal.addf_def, Ideal.maximumf_def,
    Ideal.hostUnary_sqrt_def, Ideal.ofBits_def, Ideal.ofBits_zero_f32]
  rfl

/-- The first layer's features: row `r` of `(P₁ + ½ · X̂) / 2` over its floored length. -/
theorem feat1'_apply (x0 : (⟨S100000x128, .f32⟩ : BufTy).Contents (Elt Ideal)) (x2 : (⟨S50000x128, .f32⟩ : BufTy).Contents (Elt Ideal)) (x6 x7 : (⟨S500000, .i32⟩ : BufTy).Contents (Elt Ideal))
    (r : Fin 150000) (j : Fin 128) :
    val_main_v144 (F := Ideal) x0 x2 x6 x7 (ix2 r j)
      = unit 0 eps (fun k => Ideal.div (val_main_v134 (F := Ideal) x0 x2 x6 x7 (ix2 r k)
          + cHalf * val_main_v121 (F := Ideal) x0 x2 (ix2 r k)) cTwo) j := by
  rw [norm1'_apply]
  exact congrFun (unit_congr fun k => mix1'_apply x0 x2 x6 x7 (ix2 r k)) j

/-- The running sum after the first layer: the raw features plus the first layer's. -/
theorem acc1'_apply (x0 : (⟨S100000x128, .f32⟩ : BufTy).Contents (Elt Ideal)) (x2 : (⟨S50000x128, .f32⟩ : BufTy).Contents (Elt Ideal)) (x6 x7 : (⟨S500000, .i32⟩ : BufTy).Contents (Elt Ideal))
    (r : Fin 150000) (j : Fin 128) :
    val_main_v145 (F := Ideal) x0 x2 x6 x7 (ix2 r j)
      = val_main_v116 (F := Ideal) x0 x2 (ix2 r j) + val_main_v144 (F := Ideal) x0 x2 x6 x7 (ix2 r j) := by
  rw [val_main_v145_apply, Ideal.addf_def]

/-- The second layer's mix `(P₂ + ½ · X̂) / 3`, entry by entry. -/
theorem mix2'_apply (x0 : (⟨S100000x128, .f32⟩ : BufTy).Contents (Elt Ideal)) (x2 : (⟨S50000x128, .f32⟩ : BufTy).Contents (Elt Ideal)) (x6 x7 : (⟨S500000, .i32⟩ : BufTy).Contents (Elt Ideal))
    (i : S150000x128.Idx) :
    val_main_v163 (F := Ideal) x0 x2 x6 x7 i
      = Ideal.div (val_main_v158 (F := Ideal) x0 x2 x6 x7 i + cHalf * val_main_v121 (F := Ideal) x0 x2 i) cThree := by
  rw [val_main_v163_apply, val_main_v162_apply, val_main_cst_42_apply, val_main_v161_apply, val_main_v160_apply,
    val_main_v159_apply, val_main_cst_41_apply]
  rfl

/-- The second layer's features are its mix scaled row by row to unit length. -/
theorem norm2'_apply (x0 : (⟨S100000x128, .f32⟩ : BufTy).Contents (Elt Ideal)) (x2 : (⟨S50000x128, .f32⟩ : BufTy).Contents (Elt Ideal)) (x6 x7 : (⟨S500000, .i32⟩ : BufTy).Contents (Elt Ideal))
    (r : Fin 150000) (j : Fin 128) :
    val_main_v168 (F := Ideal) x0 x2 x6 x7 (ix2 r j)
      = unit 0 eps (fun k => val_main_v163 (F := Ideal) x0 x2 x6 x7 (ix2 r k)) j := by
  have e1 : ∀ k : Fin 128, idx_main_call5_v1 (idx_main_call5_v2 (idx_main_v167 (ix2 r j))) k = ix2 r k :=
    fun k => funext fun a => Fin.ext (by match a with | ⟨0, _⟩ => rfl | ⟨1, _⟩ => rfl)
  rw [val_main_v168_apply, val_main_v167_apply, val_main_v166_apply, val_main_v164_apply, val_main_call5_v2_apply,
    val_main_call5_v1_apply, val_main_v165_apply, val_main_cst_43_apply, val_main_call5_cst_apply]
  simp only [val_main_call5_v0_apply, e1, Ideal.hostDivf_def, Ideal.mulf_def, Ideal.addf_def, Ideal.maximumf_def,
    Ideal.hostUnary_sqrt_def, Ideal.ofBits_def, Ideal.ofBits_zero_f32]
  rfl

/-- The second layer's features: row `r` of `(P₂ + ½ · X̂) / 3` over its floored length. -/
theorem feat2'_apply (x0 : (⟨S100000x128, .f32⟩ : BufTy).Contents (Elt Ideal)) (x2 : (⟨S50000x128, .f32⟩ : BufTy).Contents (Elt Ideal)) (x6 x7 : (⟨S500000, .i32⟩ : BufTy).Contents (Elt Ideal))
    (r : Fin 150000) (j : Fin 128) :
    val_main_v168 (F := Ideal) x0 x2 x6 x7 (ix2 r j)
      = unit 0 eps (fun k => Ideal.div (val_main_v158 (F := Ideal) x0 x2 x6 x7 (ix2 r k)
          + cHalf * val_main_v121 (F := Ideal) x0 x2 (ix2 r k)) cThree) j := by
  rw [norm2'_apply]
  exact congrFun (unit_congr fun k => mix2'_apply x0 x2 x6 x7 (ix2 r k)) j

/-- The running sum after the second layer. -/
theorem acc2'_apply (x0 : (⟨S100000x128, .f32⟩ : BufTy).Contents (Elt Ideal)) (x2 : (⟨S50000x128, .f32⟩ : BufTy).Contents (Elt Ideal)) (x6 x7 : (⟨S500000, .i32⟩ : BufTy).Contents (Elt Ideal))
    (r : Fin 150000) (j : Fin 128) :
    val_main_v169 (F := Ideal) x0 x2 x6 x7 (ix2 r j)
      = val_main_v145 (F := Ideal) x0 x2 x6 x7 (ix2 r j) + val_main_v168 (F := Ideal) x0 x2 x6 x7 (ix2 r j) := by
  rw [val_main_v169_apply, Ideal.addf_def]

end Cert.ReferenceIdeal.Rows

end
-- ==== Proof.Bridge.lean ====
import proofs.«137097_j42271068127574_2_alg».proof.Proof.KI.Run
import proofs.«137097_j42271068127574_2_alg».proof.Proof.KI.Blocks
import proofs.«137097_j42271068127574_2_alg».proof.Proof.RefRows
import Idealize.ShloMosaic.Lib.StableHlo.Run

/-! # The kernel program's result is the reference's

Both programs build the two bipartite graphs' normalised adjacency values, and propagate the node features through
each graph twice, with the SAME host operations (index arithmetic, gathers, scatter-adds); they differ only in how a
propagated feature matrix is combined with the normalised initial features and normalised again: the reference does
it with whole-array host operations, `(sp + ½·ini) / d` then a row normalisation, the kernel program in a
pallas_call per layer, `sp·(1/d) + ini·(½/d)` then the same row normalisation, block by block. Buffer by buffer
along the kernel program, each buffer that a later stage reads holds what the reference's corresponding operation
computes from the same arguments; where a kernel region writes it, by the row law `RowNormalize.mix_eq`. -/

set_option maxRecDepth 16384

noncomputable section

namespace Cert.Bridge

open Idealize.ShloMosaic Idealize.ShloMosaic.TcCoe Idealize.SL.Sem Idealize.ShloMosaic.StableHlo
open RowNormalize ValueIdx
open Cert.KernelIdeal (nD τ sig main_arg0 main_arg1 main_arg2 main_arg3 main_arg4 main_arg5 main_arg6 main_arg7 main_arg8 main_arg9)

variable (m : (ℓ : Loc nD τ sig) → Buf (Elt Ideal) ℓ) (ρ : Dev nD → PrngReg) (c : Dev nD)

set_option quotPrecheck false
local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)

/-! ## The first stretch of host operations: the first graph's values and the first propagated features -/

set_option maxHeartbeats 4000000 in
theorem s0_v2 : Cert.KernelIdeal.Hand.W1 m ρ c (Proc.devRef .tc Cert.KernelIdeal.main_v2) = Cert.ReferenceIdeal.Read.val_main_v2 (F := Ideal) x4 x5 := by
  show StableHlo.after Cert.KernelIdeal.Gen.hostOps0 (Cert.KernelIdeal.Hand.W0 m ρ c) _ = _
  dsimp only [Cert.KernelIdeal.Gen.hostOps0]
  after_results_simp
  rfl

set_option maxHeartbeats 4000000 in
theorem s0_v5 : Cert.KernelIdeal.Hand.W1 m ρ c (Proc.devRef .tc Cert.KernelIdeal.main_v5) = Cert.ReferenceIdeal.Read.val_main_v5 (F := Ideal) x4 x5 := by
  show StableHlo.after Cert.KernelIdeal.Gen.hostOps0 (Cert.KernelIdeal.Hand.W0 m ρ c) _ = _
  dsimp only [Cert.KernelIdeal.Gen.hostOps0]
  after_results_simp
  rfl

set_option maxHeartbeats 4000000 in
theorem s0_v29 : Cert.KernelIdeal.Hand.W1 m ρ c (Proc.devRef .tc Cert.KernelIdeal.main_v29) = Cert.ReferenceIdeal.Read.val_main_v29 (F := Ideal) x4 x5 := by
  show StableHlo.after Cert.KernelIdeal.Gen.hostOps0 (Cert.KernelIdeal.Hand.W0 m ρ c) _ = _
  dsimp only [Cert.KernelIdeal.Gen.hostOps0]
  after_results_simp
  rfl

set_option maxHeartbeats 4000000 in
theorem s0_v30 : Cert.KernelIdeal.Hand.W1 m ρ c (Proc.devRef .tc Cert.KernelIdeal.main_v30) = Cert.ReferenceIdeal.Read.val_main_v30 (F := Ideal) x0 x1 := by
  show StableHlo.after Cert.KernelIdeal.Gen.hostOps0 (Cert.KernelIdeal.Hand.W0 m ρ c) _ = _
  dsimp only [Cert.KernelIdeal.Gen.hostOps0]
  after_results_simp
  rfl

set_option maxHeartbeats 4000000 in
theorem s0_v43 : Cert.KernelIdeal.Hand.W1 m ρ c (Proc.devRef .tc Cert.KernelIdeal.main_v43) = Cert.ReferenceIdeal.Read.val_main_v48 (F := Ideal) x0 x1 x4 x5 := by
  show StableHlo.after Cert.KernelIdeal.Gen.hostOps0 (Cert.KernelIdeal.Hand.W0 m ρ c) _ = _
  dsimp only [Cert.KernelIdeal.Gen.hostOps0]
  after_results_simp
  rfl

/-- Region 0 changes none of them. -/
theorem w2_v2 : Cert.KernelIdeal.Hand.W2 m ρ c (Proc.devRef .tc Cert.KernelIdeal.main_v2) = Cert.ReferenceIdeal.Read.val_main_v2 (F := Ideal) x4 x5 :=
  (Cert.KernelIdeal.Hand.W2_of_ne m ρ c Cert.KernelIdeal.main_v2 (by decide)).trans (s0_v2 m ρ c)
theorem w2_v5 : Cert.KernelIdeal.Hand.W2 m ρ c (Proc.devRef .tc Cert.KernelIdeal.main_v5) = Cert.ReferenceIdeal.Read.val_main_v5 (F := Ideal) x4 x5 :=
  (Cert.KernelIdeal.Hand.W2_of_ne m ρ c Cert.KernelIdeal.main_v5 (by decide)).trans (s0_v5 m ρ c)
theorem w2_v29 : Cert.KernelIdeal.Hand.W2 m ρ c (Proc.devRef .tc Cert.KernelIdeal.main_v29) = Cert.ReferenceIdeal.Read.val_main_v29 (F := Ideal) x4 x5 :=
  (Cert.KernelIdeal.Hand.W2_of_ne m ρ c Cert.KernelIdeal.main_v29 (by decide)).trans (s0_v29 m ρ c)

/-! ## Region 0: the first layer's combination, with the initial normalisation fused in -/

/-- The normalised raw features. -/
theorem r0_ini : Cert.KernelIdeal.Hand.W2 m ρ c (Proc.devRef .tc Cert.KernelIdeal.main_v44_2) = Cert.ReferenceIdeal.Read.val_main_v35 (F := Ideal) x0 x1 := by
  refine (Cert.KernelIdeal.Hand.W2_arr m ρ c 4).trans ?_
  funext i
  obtain ⟨r, j, rfl⟩ : ∃ (r : Fin 130000) (j : Fin 128), i = ix2 r j := ⟨i 0, i 1, eq_ix2 i⟩
  rw [Cert.KernelIdeal.Hand.arr0_ini, Cert.ReferenceIdeal.Rows.ini1_apply]
  have e1 : Cert.KernelIdeal.Hand.At1 m ρ c (Pipeline.arrRef Cert.KernelIdeal.spec0 1) = Cert.ReferenceIdeal.Read.val_main_v30 (F := Ideal) x0 x1 := s0_v30 m ρ c
  rw [e1]
  rfl

/-- One entry of the first layer's combination: separate weights against a division of the weighted sum. -/
theorem mix_half (a u : EReal) :
    a * Cert.KernelIdeal.Hand.cHalf + u * Cert.KernelIdeal.Hand.cQuarter = Ideal.div (a + Cert.KernelIdeal.Hand.cHalf * u) (Ideal.ofBits .f32 0x40000000#32) := by
  rw [Cert.KernelIdeal.Hand.cHalf_eq, Cert.KernelIdeal.Hand.cQuarter_eq, Cert.KernelIdeal.Hand.two_eq]
  exact mix_eq a u (by norm_num) (by norm_num) (by norm_num)

/-- One entry of the second layer's combination. -/
theorem mix_third (a u : EReal) :
    a * Cert.KernelIdeal.Hand.cThird + u * Cert.KernelIdeal.Hand.cSixth = Ideal.div (a + Cert.KernelIdeal.Hand.cHalf * u) (Ideal.ofBits .f32 0x40400000#32) := by
  rw [Cert.KernelIdeal.Hand.cThird_eq, Cert.KernelIdeal.Hand.cSixth_eq, Cert.KernelIdeal.Hand.cHalf_eq, Cert.KernelIdeal.Hand.three_eq]
  exact mix_eq a u (by norm_num) (by norm_num) (by norm_num)

/-- The first layer's features. -/
theorem r0_feat : Cert.KernelIdeal.Hand.W2 m ρ c (Proc.devRef .tc Cert.KernelIdeal.main_v44_0) = Cert.ReferenceIdeal.Read.val_main_v58 (F := Ideal) x0 x1 x4 x5 := by
  refine (Cert.KernelIdeal.Hand.W2_arr m ρ c 2).trans ?_
  funext i
  obtain ⟨r, j, rfl⟩ : ∃ (r : Fin 130000) (j : Fin 128), i = ix2 r j := ⟨i 0, i 1, eq_ix2 i⟩
  rw [Cert.KernelIdeal.Hand.arr0_feat, Cert.ReferenceIdeal.Rows.feat1_apply]
  have e0 : Cert.KernelIdeal.Hand.At1 m ρ c (Pipeline.arrRef Cert.KernelIdeal.spec0 0) = Cert.ReferenceIdeal.Read.val_main_v48 (F := Ideal) x0 x1 x4 x5 := s0_v43 m ρ c
  have e1 : Cert.KernelIdeal.Hand.At1 m ρ c (Pipeline.arrRef Cert.KernelIdeal.spec0 1) = Cert.ReferenceIdeal.Read.val_main_v30 (F := Ideal) x0 x1 := s0_v30 m ρ c
  rw [e0, e1]
  unfold Cert.KernelIdeal.Hand.g0_feat
  refine congrFun (unit_congr fun k => ?_) j
  rw [Cert.ReferenceIdeal.Rows.ini1_apply]
  exact mix_half _ _

/-- The running sum after the first layer. -/
theorem r0_acc : Cert.KernelIdeal.Hand.W2 m ρ c (Proc.devRef .tc Cert.KernelIdeal.main_v44_1) = Cert.ReferenceIdeal.Read.val_main_v59 (F := Ideal) x0 x1 x4 x5 := by
  refine (Cert.KernelIdeal.Hand.W2_arr m ρ c 3).trans ?_
  funext i
  obtain ⟨r, j, rfl⟩ : ∃ (r : Fin 130000) (j : Fin 128), i = ix2 r j := ⟨i 0, i 1, eq_ix2 i⟩
  rw [Cert.KernelIdeal.Hand.arr0_acc, Cert.ReferenceIdeal.Rows.acc1_apply, Cert.ReferenceIdeal.Rows.feat1_apply]
  have e0 : Cert.KernelIdeal.Hand.At1 m ρ c (Pipeline.arrRef Cert.KernelIdeal.spec0 0) = Cert.ReferenceIdeal.Read.val_main_v48 (F := Ideal) x0 x1 x4 x5 := s0_v43 m ρ c
  have e1 : Cert.KernelIdeal.Hand.At1 m ρ c (Pipeline.arrRef Cert.KernelIdeal.spec0 1) = Cert.ReferenceIdeal.Read.val_main_v30 (F := Ideal) x0 x1 := s0_v30 m ρ c
  rw [e0, e1]
  unfold Cert.KernelIdeal.Hand.g0_acc
  refine congrArg (HAdd.hAdd _) (congrFun (unit_congr fun k => ?_) j)
  rw [Cert.ReferenceIdeal.Rows.ini1_apply]
  exact mix_half _ _

/-! ## The second stretch: the second propagated features -/

set_option maxHeartbeats 4000000 in
theorem s1_v57 : Cert.KernelIdeal.Hand.W3 m ρ c (Proc.devRef .tc Cert.KernelIdeal.main_v57) = Cert.ReferenceIdeal.Read.val_main_v72 (F := Ideal) x0 x1 x4 x5 := by
  show StableHlo.after Cert.KernelIdeal.Gen.hostOps1 (Cert.KernelIdeal.Hand.W2 m ρ c) _ = _
  dsimp only [Cert.KernelIdeal.Gen.hostOps1]
  after_results_simp
  rw [w2_v29 m ρ c, w2_v5 m ρ c, r0_feat m ρ c, w2_v2 m ρ c]
  rfl

theorem w3_ini : Cert.KernelIdeal.Hand.W3 m ρ c (Proc.devRef .tc Cert.KernelIdeal.main_v44_2) = Cert.ReferenceIdeal.Read.val_main_v35 (F := Ideal) x0 x1 :=
  (StableHlo.after_of_writes_sub Cert.KernelIdeal.Gen.hostOps1 _ Cert.KernelIdeal.Gen.hostOps1_writes (by decide)).trans (r0_ini m ρ c)
theorem w3_acc : Cert.KernelIdeal.Hand.W3 m ρ c (Proc.devRef .tc Cert.KernelIdeal.main_v44_1) = Cert.ReferenceIdeal.Read.val_main_v59 (F := Ideal) x0 x1 x4 x5 :=
  (StableHlo.after_of_writes_sub Cert.KernelIdeal.Gen.hostOps1 _ Cert.KernelIdeal.Gen.hostOps1_writes (by decide)).trans (r0_acc m ρ c)

/-! ## Region 1: the second layer's combination -/

/-- The running sum after the second layer, over the first graph. -/
theorem r1_acc : Cert.KernelIdeal.Hand.W4 m ρ c (Proc.devRef .tc Cert.KernelIdeal.main_v58_1) = Cert.ReferenceIdeal.Read.val_main_v83 (F := Ideal) x0 x1 x4 x5 := by
  refine (Cert.KernelIdeal.Hand.W4_arr m ρ c 4).trans ?_
  funext i
  obtain ⟨r, j, rfl⟩ : ∃ (r : Fin 130000) (j : Fin 128), i = ix2 r j := ⟨i 0, i 1, eq_ix2 i⟩
  rw [Cert.KernelIdeal.Hand.arr1_acc, Cert.ReferenceIdeal.Rows.acc2_apply, Cert.ReferenceIdeal.Rows.feat2_apply]
  have e0 : Cert.KernelIdeal.Hand.At3 m ρ c (Pipeline.arrRef Cert.KernelIdeal.spec1 0) = Cert.ReferenceIdeal.Read.val_main_v72 (F := Ideal) x0 x1 x4 x5 := s1_v57 m ρ c
  have e1 : Cert.KernelIdeal.Hand.At3 m ρ c (Pipeline.arrRef Cert.KernelIdeal.spec1 1) = Cert.ReferenceIdeal.Read.val_main_v35 (F := Ideal) x0 x1 := w3_ini m ρ c
  have e2 : Cert.KernelIdeal.Hand.At3 m ρ c (Pipeline.arrRef Cert.KernelIdeal.spec1 2) = Cert.ReferenceIdeal.Read.val_main_v59 (F := Ideal) x0 x1 x4 x5 := w3_acc m ρ c
  rw [e0, e1, e2]
  unfold Cert.KernelIdeal.Hand.g1_acc
  refine congrArg (HAdd.hAdd _) (congrFun (unit_congr fun k => ?_) j)
  exact mix_third _ _

/-! ## The third stretch: the first graph's two results, the second graph's values and first propagated features -/

set_option maxHeartbeats 4000000 in
theorem s2_v59 : Cert.KernelIdeal.Hand.W5 m ρ c (Proc.devRef .tc Cert.KernelIdeal.main_v59) = Cert.ReferenceIdeal.Read.val_main_v84 (F := Ideal) x0 x1 x4 x5 := by
  show StableHlo.after Cert.KernelIdeal.Gen.hostOps2 (Cert.KernelIdeal.Hand.W4 m ρ c) _ = _
  dsimp only [Cert.KernelIdeal.Gen.hostOps2]
  after_results_simp
  rw [r1_acc m ρ c]
  rfl

set_option maxHeartbeats 4000000 in
theorem s2_v60 : Cert.KernelIdeal.Hand.W5 m ρ c (Proc.devRef .tc Cert.KernelIdeal.main_v60) = Cert.ReferenceIdeal.Read.val_main_v85 (F := Ideal) x0 x1 x4 x5 := by
  show StableHlo.after Cert.KernelIdeal.Gen.hostOps2 (Cert.KernelIdeal.Hand.W4 m ρ c) _ = _
  dsimp only [Cert.KernelIdeal.Gen.hostOps2]
  after_results_simp
  rw [r1_acc m ρ c]
  rfl

theorem w4_arg0 : Cert.KernelIdeal.Hand.W4 m ρ c (Proc.devRef .tc main_arg0) = x0 := Cert.KernelIdeal.Hand.W4_keep m ρ c main_arg0 (by decide) (by decide) (by decide) (by decide)
theorem w4_arg2 : Cert.KernelIdeal.Hand.W4 m ρ c (Proc.devRef .tc main_arg2) = x2 := Cert.KernelIdeal.Hand.W4_keep m ρ c main_arg2 (by decide) (by decide) (by decide) (by decide)
theorem w4_arg6 : Cert.KernelIdeal.Hand.W4 m ρ c (Proc.devRef .tc main_arg6) = x6 := Cert.KernelIdeal.Hand.W4_keep m ρ c main_arg6 (by decide) (by decide) (by decide) (by decide)
theorem w4_arg7 : Cert.KernelIdeal.Hand.W4 m ρ c (Proc.devRef .tc main_arg7) = x7 := Cert.KernelIdeal.Hand.W4_keep m ρ c main_arg7 (by decide) (by decide) (by decide) (by decide)

set_option maxHeartbeats 4000000 in
theorem s2_v63 : Cert.KernelIdeal.Hand.W5 m ρ c (Proc.devRef .tc Cert.KernelIdeal.main_v63) = Cert.ReferenceIdeal.Read.val_main_v88 (F := Ideal) x6 x7 := by
  show StableHlo.after Cert.KernelIdeal.Gen.hostOps2 (Cert.KernelIdeal.Hand.W4 m ρ c) _ = _
  rw [← w4_arg6 m ρ c, ← w4_arg7 m ρ c]
  dsimp only [Cert.KernelIdeal.Gen.hostOps2]
  after_results_simp <;> rfl

set_option maxHeartbeats 4000000 in
theorem s2_v66 : Cert.KernelIdeal.Hand.W5 m ρ c (Proc.devRef .tc Cert.KernelIdeal.main_v66) = Cert.ReferenceIdeal.Read.val_main_v91 (F := Ideal) x6 x7 := by
  show StableHlo.after Cert.KernelIdeal.Gen.hostOps2 (Cert.KernelIdeal.Hand.W4 m ρ c) _ = _
  rw [← w4_arg6 m ρ c, ← w4_arg7 m ρ c]
  dsimp only [Cert.KernelIdeal.Gen.hostOps2]
  after_results_simp <;> rfl

set_option maxHeartbeats 4000000 in
theorem s2_v90 : Cert.KernelIdeal.Hand.W5 m ρ c (Proc.devRef .tc Cert.KernelIdeal.main_v90) = Cert.ReferenceIdeal.Read.val_main_v115 (F := Ideal) x6 x7 := by
  show StableHlo.after Cert.KernelIdeal.Gen.hostOps2 (Cert.KernelIdeal.Hand.W4 m ρ c) _ = _
  rw [← w4_arg6 m ρ c, ← w4_arg7 m ρ c]
  dsimp only [Cert.KernelIdeal.Gen.hostOps2]
  after_results_simp <;> rfl

set_option maxHeartbeats 4000000 in
theorem s2_v91 : Cert.KernelIdeal.Hand.W5 m ρ c (Proc.devRef .tc Cert.KernelIdeal.main_v91) = Cert.ReferenceIdeal.Read.val_main_v116 (F := Ideal) x0 x2 := by
  show StableHlo.after Cert.KernelIdeal.Gen.hostOps2 (Cert.KernelIdeal.Hand.W4 m ρ c) _ = _
  rw [← w4_arg0 m ρ c, ← w4_arg2 m ρ c]
  dsimp only [Cert.KernelIdeal.Gen.hostOps2]
  after_results_simp <;> rfl

set_option maxHeartbeats 4000000 in
/-- The second graph's first propagated features, over any contents of the buffers the stretch reads. -/
theorem st_v104 (W : Valuation τ sig (Elt Ideal)) :
    StableHlo.after Cert.KernelIdeal.Gen.hostOps2 W (Proc.devRef .tc Cert.KernelIdeal.main_v104)
      = Cert.ReferenceIdeal.Read.val_main_v134 (F := Ideal) (W (Proc.devRef .tc main_arg0)) (W (Proc.devRef .tc main_arg2)) (W (Proc.devRef .tc main_arg6)) (W (Proc.devRef .tc main_arg7)) := by
  dsimp only [Cert.KernelIdeal.Gen.hostOps2]
  after_results_simp <;> rfl

theorem s2_v104 : Cert.KernelIdeal.Hand.W5 m ρ c (Proc.devRef .tc Cert.KernelIdeal.main_v104) = Cert.ReferenceIdeal.Read.val_main_v134 (F := Ideal) x0 x2 x6 x7 := by
  refine (st_v104 (Cert.KernelIdeal.Hand.W4 m ρ c)).trans ?_
  rw [w4_arg0 m ρ c, w4_arg2 m ρ c, w4_arg6 m ρ c, w4_arg7 m ρ c]

theorem w6_v63 : Cert.KernelIdeal.Hand.W6 m ρ c (Proc.devRef .tc Cert.KernelIdeal.main_v63) = Cert.ReferenceIdeal.Read.val_main_v88 (F := Ideal) x6 x7 :=
  (Cert.KernelIdeal.Hand.W6_of_ne m ρ c Cert.KernelIdeal.main_v63 (by decide)).trans (s2_v63 m ρ c)
theorem w6_v66 : Cert.KernelIdeal.Hand.W6 m ρ c (Proc.devRef .tc Cert.KernelIdeal.main_v66) = Cert.ReferenceIdeal.Read.val_main_v91 (F := Ideal) x6 x7 :=
  (Cert.KernelIdeal.Hand.W6_of_ne m ρ c Cert.KernelIdeal.main_v66 (by decide)).trans (s2_v66 m ρ c)
theorem w6_v90 : Cert.KernelIdeal.Hand.W6 m ρ c (Proc.devRef .tc Cert.KernelIdeal.main_v90) = Cert.ReferenceIdeal.Read.val_main_v115 (F := Ideal) x6 x7 :=
  (Cert.KernelIdeal.Hand.W6_of_ne m ρ c Cert.KernelIdeal.main_v90 (by decide)).trans (s2_v90 m ρ c)

/-! ## Region 2: the first layer over the second graph -/

theorem r2_ini : Cert.KernelIdeal.Hand.W6 m ρ c (Proc.devRef .tc Cert.KernelIdeal.main_v105_2) = Cert.ReferenceIdeal.Read.val_main_v121 (F := Ideal) x0 x2 := by
  refine (Cert.KernelIdeal.Hand.W6_arr m ρ c 4).trans ?_
  funext i
  obtain ⟨r, j, rfl⟩ : ∃ (r : Fin 150000) (j : Fin 128), i = ix2 r j := ⟨i 0, i 1, eq_ix2 i⟩
  rw [Cert.KernelIdeal.Hand.arr2_ini, Cert.ReferenceIdeal.Rows.ini1'_apply]
  have e1 : Cert.KernelIdeal.Hand.At5 m ρ c (Pipeline.arrRef Cert.KernelIdeal.spec2 1) = Cert.ReferenceIdeal.Read.val_main_v116 (F := Ideal) x0 x2 := s2_v91 m ρ c
  rw [e1]
  rfl

theorem r2_feat : Cert.KernelIdeal.Hand.W6 m ρ c (Proc.devRef .tc Cert.KernelIdeal.main_v105_0) = Cert.ReferenceIdeal.Read.val_main_v144 (F := Ideal) x0 x2 x6 x7 := by
  refine (Cert.KernelIdeal.Hand.W6_arr m ρ c 2).trans ?_
  funext i
  obtain ⟨r, j, rfl⟩ : ∃ (r : Fin 150000) (j : Fin 128), i = ix2 r j := ⟨i 0, i 1, eq_ix2 i⟩
  rw [Cert.KernelIdeal.Hand.arr2_feat, Cert.ReferenceIdeal.Rows.feat1'_apply]
  have e0 : Cert.KernelIdeal.Hand.At5 m ρ c (Pipeline.arrRef Cert.KernelIdeal.spec2 0) = Cert.ReferenceIdeal.Read.val_main_v134 (F := Ideal) x0 x2 x6 x7 := s2_v104 m ρ c
  have e1 : Cert.KernelIdeal.Hand.At5 m ρ c (Pipeline.arrRef Cert.KernelIdeal.spec2 1) = Cert.ReferenceIdeal.Read.val_main_v116 (F := Ideal) x0 x2 := s2_v91 m ρ c
  rw [e0, e1]
  unfold Cert.KernelIdeal.Hand.g2_feat
  refine congrFun (unit_congr fun k => ?_) j
  rw [Cert.ReferenceIdeal.Rows.ini1'_apply]
  exact mix_half _ _

theorem r2_acc : Cert.KernelIdeal.Hand.W6 m ρ c (Proc.devRef .tc Cert.KernelIdeal.main_v105_1) = Cert.ReferenceIdeal.Read.val_main_v145 (F := Ideal) x0 x2 x6 x7 := by
  refine (Cert.KernelIdeal.Hand.W6_arr m ρ c 3).trans ?_
  funext i
  obtain ⟨r, j, rfl⟩ : ∃ (r : Fin 150000) (j : Fin 128), i = ix2 r j := ⟨i 0, i 1, eq_ix2 i⟩
  rw [Cert.KernelIdeal.Hand.arr2_acc, Cert.ReferenceIdeal.Rows.acc1'_apply, Cert.ReferenceIdeal.Rows.feat1'_apply]
  have e0 : Cert.KernelIdeal.Hand.At5 m ρ c (Pipeline.arrRef Cert.KernelIdeal.spec2 0) = Cert.ReferenceIdeal.Read.val_main_v134 (F := Ideal) x0 x2 x6 x7 := s2_v104 m ρ c
  have e1 : Cert.KernelIdeal.Hand.At5 m ρ c (Pipeline.arrRef Cert.KernelIdeal.spec2 1) = Cert.ReferenceIdeal.Read.val_main_v116 (F := Ideal) x0 x2 := s2_v91 m ρ c
  rw [e0, e1]
  unfold Cert.KernelIdeal.Hand.g2_acc
  refine congrArg (HAdd.hAdd _) (congrFun (unit_congr fun k => ?_) j)
  rw [Cert.ReferenceIdeal.Rows.ini1'_apply]
  exact mix_half _ _

/-! ## The fourth stretch, and region 3 -/

set_option maxHeartbeats 4000000 in
theorem s3_v118 : Cert.KernelIdeal.Hand.W7 m ρ c (Proc.devRef .tc Cert.KernelIdeal.main_v118) = Cert.ReferenceIdeal.Read.val_main_v158 (F := Ideal) x0 x2 x6 x7 := by
  show StableHlo.after Cert.KernelIdeal.Gen.hostOps3 (Cert.KernelIdeal.Hand.W6 m ρ c) _ = _
  dsimp only [Cert.KernelIdeal.Gen.hostOps3]
  after_results_simp
  rw [w6_v90 m ρ c, w6_v66 m ρ c, r2_feat m ρ c, w6_v63 m ρ c]
  rfl

theorem w7_ini : Cert.KernelIdeal.Hand.W7 m ρ c (Proc.devRef .tc Cert.KernelIdeal.main_v105_2) = Cert.ReferenceIdeal.Read.val_main_v121 (F := Ideal) x0 x2 :=
  (StableHlo.after_of_writes_sub Cert.KernelIdeal.Gen.hostOps3 _ Cert.KernelIdeal.Gen.hostOps3_writes (by decide)).trans (r2_ini m ρ c)
theorem w7_acc : Cert.KernelIdeal.Hand.W7 m ρ c (Proc.devRef .tc Cert.KernelIdeal.main_v105_1) = Cert.ReferenceIdeal.Read.val_main_v145 (F := Ideal) x0 x2 x6 x7 :=
  (StableHlo.after_of_writes_sub Cert.KernelIdeal.Gen.hostOps3 _ Cert.KernelIdeal.Gen.hostOps3_writes (by decide)).trans (r2_acc m ρ c)

/-- The running sum after the second layer, over the second graph. -/
theorem r3_acc : Cert.KernelIdeal.Hand.W8 m ρ c (Proc.devRef .tc Cert.KernelIdeal.main_v119_1) = Cert.ReferenceIdeal.Read.val_main_v169 (F := Ideal) x0 x2 x6 x7 := by
  refine (Cert.KernelIdeal.Hand.W8_arr m ρ c 4).trans ?_
  funext i
  obtain ⟨r, j, rfl⟩ : ∃ (r : Fin 150000) (j : Fin 128), i = ix2 r j := ⟨i 0, i 1, eq_ix2 i⟩
  rw [Cert.KernelIdeal.Hand.arr3_acc, Cert.ReferenceIdeal.Rows.acc2'_apply, Cert.ReferenceIdeal.Rows.feat2'_apply]
  have e0 : Cert.KernelIdeal.Hand.At7 m ρ c (Pipeline.arrRef Cert.KernelIdeal.spec3 0) = Cert.ReferenceIdeal.Read.val_main_v158 (F := Ideal) x0 x2 x6 x7 := s3_v118 m ρ c
  have e1 : Cert.KernelIdeal.Hand.At7 m ρ c (Pipeline.arrRef Cert.KernelIdeal.spec3 1) = Cert.ReferenceIdeal.Read.val_main_v121 (F := Ideal) x0 x2 := w7_ini m ρ c
  have e2 : Cert.KernelIdeal.Hand.At7 m ρ c (Pipeline.arrRef Cert.KernelIdeal.spec3 2) = Cert.ReferenceIdeal.Read.val_main_v145 (F := Ideal) x0 x2 x6 x7 := w7_acc m ρ c
  rw [e0, e1, e2]
  unfold Cert.KernelIdeal.Hand.g3_acc
  refine congrArg (HAdd.hAdd _) (congrFun (unit_congr fun k => ?_) j)
  exact mix_third _ _

/-! ## The last stretch: the bundle aggregation and the four results joined -/

theorem w8_v59 : Cert.KernelIdeal.Hand.W8 m ρ c (Proc.devRef .tc Cert.KernelIdeal.main_v59) = Cert.ReferenceIdeal.Read.val_main_v84 (F := Ideal) x0 x1 x4 x5 :=
  (Cert.KernelIdeal.Hand.W8_of_ne m ρ c Cert.KernelIdeal.main_v59 (by decide)).trans ((StableHlo.after_of_writes_sub Cert.KernelIdeal.Gen.hostOps3 _ Cert.KernelIdeal.Gen.hostOps3_writes (by decide)).trans
    ((Cert.KernelIdeal.Hand.W6_of_ne m ρ c Cert.KernelIdeal.main_v59 (by decide)).trans (s2_v59 m ρ c)))
theorem w8_v60 : Cert.KernelIdeal.Hand.W8 m ρ c (Proc.devRef .tc Cert.KernelIdeal.main_v60) = Cert.ReferenceIdeal.Read.val_main_v85 (F := Ideal) x0 x1 x4 x5 :=
  (Cert.KernelIdeal.Hand.W8_of_ne m ρ c Cert.KernelIdeal.main_v60 (by decide)).trans ((StableHlo.after_of_writes_sub Cert.KernelIdeal.Gen.hostOps3 _ Cert.KernelIdeal.Gen.hostOps3_writes (by decide)).trans
    ((Cert.KernelIdeal.Hand.W6_of_ne m ρ c Cert.KernelIdeal.main_v60 (by decide)).trans (s2_v60 m ρ c)))
theorem w8_arg3 : Cert.KernelIdeal.Hand.W8 m ρ c (Proc.devRef .tc main_arg3) = x3 := Cert.KernelIdeal.Hand.W8_keep m ρ c main_arg3 (by decide) (by decide) (by decide) (by decide) (by decide) (by decide) (by decide) (by decide)
theorem w8_arg8 : Cert.KernelIdeal.Hand.W8 m ρ c (Proc.devRef .tc main_arg8) = x8 := Cert.KernelIdeal.Hand.W8_keep m ρ c main_arg8 (by decide) (by decide) (by decide) (by decide) (by decide) (by decide) (by decide) (by decide)
theorem w8_arg9 : Cert.KernelIdeal.Hand.W8 m ρ c (Proc.devRef .tc main_arg9) = x9 := Cert.KernelIdeal.Hand.W8_keep m ρ c main_arg9 (by decide) (by decide) (by decide) (by decide) (by decide) (by decide) (by decide) (by decide)

set_option maxHeartbeats 4000000 in
/-- THE RESULT: the kernel program's result buffer at the last boundary is the reference's result term of the same arguments. -/
theorem result_eq : Cert.KernelIdeal.Hand.W9 m ρ c (Proc.devRef .tc Cert.KernelIdeal.main_v135) = Cert.ReferenceIdeal.Read.val_main_v185 (F := Ideal) x0 x1 x2 x3 x4 x5 x6 x7 x8 x9 := by
  show StableHlo.after Cert.KernelIdeal.Gen.hostOps4 (Cert.KernelIdeal.Hand.W8 m ρ c) _ = _
  simp only [Cert.ReferenceIdeal.Read.val_main_v170, Cert.ReferenceIdeal.Read.val_main_v171, Cert.ReferenceIdeal.Read.val_main_v172, Cert.ReferenceIdeal.Read.val_main_c_44, Cert.ReferenceIdeal.Read.val_main_v173, Cert.ReferenceIdeal.Read.val_main_v174, Cert.ReferenceIdeal.Read.val_main_c_45, Cert.ReferenceIdeal.Read.val_main_v175, Cert.ReferenceIdeal.Read.val_main_v176, Cert.ReferenceIdeal.Read.val_main_v177, Cert.ReferenceIdeal.Read.val_main_v178, Cert.ReferenceIdeal.Read.val_main_v179, Cert.ReferenceIdeal.Read.val_main_v180, Cert.ReferenceIdeal.Read.val_main_v181, Cert.ReferenceIdeal.Read.val_main_cst_46, Cert.ReferenceIdeal.Read.val_main_v182, Cert.ReferenceIdeal.Read.val_main_v183, Cert.ReferenceIdeal.Read.val_main_v184, Cert.ReferenceIdeal.Read.val_main_v185]
  rw [← r3_acc m ρ c, ← w8_v59 m ρ c, ← w8_v60 m ρ c, ← w8_arg3 m ρ c, ← w8_arg8 m ρ c, ← w8_arg9 m ρ c]
  chain_rfl

end Cert.Bridge

end
-- ==== Proof.lean ====
/-
  The claim of this certificate, proved: the kernel program against its reference.

  Both programs propagate node features twice through two bipartite graphs whose symmetrically normalised adjacency
  they build with the same host operations. After each propagation the features are combined with the normalised
  initial features and normalised again, row by row: the reference with whole-array operations,
  `(sp + ½·ini) / d`, the kernel program inside a pallas_call, `sp·(1/d) + ini·(½/d)` (d = 2, then 3, with
  1/3 and 1/6 named constants). On the extended reals the two are one function: multiplying a sum by a
  non-negative real distributes at the infinities too (`RowNormalize.mix_eq`), so no finiteness is used.

  * frames: each kernel program's @main runs as nine items — five stretches of host operations and four kernel
    regions whose bodies load whole blocks and store whole blocks (`Hand.run_main`); the reference's frame is its
    run with the result dropped.
  * preserves: the two named constants, at their two sites each.
  * algebraic: the kernel program's result buffer after the run is the last boundary's contents
    (`Hand.run_main`), which buffer by buffer is what the reference computes (`Bridge.result_eq`).
-/
import proofs.«137097_j42271068127574_2_alg».proof.Defs
import proofs.«137097_j42271068127574_2_alg».proof.Proof.Gen.Kernel
import proofs.«137097_j42271068127574_2_alg».proof.Proof.Gen.KernelIdeal
import proofs.«137097_j42271068127574_2_alg».proof.Proof.Gen.ReferenceIdeal
import proofs.«137097_j42271068127574_2_alg».proof.Proof.Gen.Pre_finite_inputs
import proofs.«137097_j42271068127574_2_alg».proof.Proof.RefRunP
import proofs.«137097_j42271068127574_2_alg».proof.Proof.RefReadP
import proofs.«137097_j42271068127574_2_alg».proof.Proof.K.Run
import proofs.«137097_j42271068127574_2_alg».proof.Proof.KI.Run
import proofs.«137097_j42271068127574_2_alg».proof.Proof.Bridge
import Idealize.ShloMosaic.PureOps.IdealRules
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Hand.run_main (F := Bits) m ρ)

theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Hand.run_main (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The ideal program's two named constants are the rationals the certificate's table gives them. -/
theorem preserves : Cert.preserves_Kernel_KernelIdeal :=
  ⟨IdealRules.named_const.statement Cert.KernelIdeal.κ "inv_3" .f32 0x3EAAAAAB#32 ((1 / 3 : ℝ) : EReal) rfl,
   IdealRules.named_const.statement Cert.KernelIdeal.κ "inv_6" .f32 0x3E2AAAAB#32 ((1 / 6 : ℝ) : EReal) rfl,
   IdealRules.named_const.statement Cert.KernelIdeal.κ "inv_3" .f32 0x3EAAAAAB#32 ((1 / 3 : ℝ) : EReal) rfl,
   IdealRules.named_const.statement Cert.KernelIdeal.κ "inv_6" .f32 0x3E2AAAAB#32 ((1 / 6 : ℝ) : EReal) rfl⟩

/-- From memories agreeing on the arguments both programs end, the kernel program's result buffer at the last boundary's
    contents and the reference's at its operations' composed term: one array, by `Bridge.result_eq`. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.W9 m ρ c (Proc.devRef .tc Cert.KernelIdeal.main_v135), Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v185_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
